-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8192x64 : Shape := ⟨2, ![8192, 64]⟩
abbrev S256x32x32 : Shape := ⟨3, ![256, 32, 32]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S256x32x32 : S_.BroadcastsInDim S256x32x32 (![] : Fin 0 → Fin S256x32x32.rank)
  reducesTo_S256x32x32_S_d0_1_2 : S256x32x32.ReducesTo [0, 1, 2] S_

variable [Facts]

def fn {F : FTy → Type} [FloatOps F] (main_arg0 : FVec F S8192x64 .f32) (main_arg1 : IVec S256x32x32 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_c_0 : IVec S_ 32 := constantI S_ 32 0#32
  let main_v4 : IVec S256x32x32 32 := broadcastInDim S256x32x32 ![] bcast_S_S256x32x32 main_c_0
  let main_v5 : IVec S256x32x32 1 := cmpi .sge main_arg1 main_v4
  let main_c_1 : IVec S_ 32 := constantI S_ 32 8191#32
  let main_v6 : IVec S256x32x32 32 := broadcastInDim S256x32x32 ![] bcast_S_S256x32x32 main_c_1
  let main_v7 : IVec S256x32x32 1 := cmpi .sle main_arg1 main_v6
  let main_v8 : IVec S256x32x32 1 := andi main_v5 main_v7
  let main_c_2 : IVec S_ 1 := constantI S_ 1 1#1
  let main_v9 : IVec S_ 1 := (fun x v => Host.reduce IntOp.andi x v reducesTo_S256x32x32_S_d0_1_2 h_S_) main_v8 main_c_2
  let main_v10 : IVec S_ 1 := andi main_v3 main_v9
  main_v10
-- ==== Kernel.lean ====
abbrev S8192x64 : Shape := ⟨2, ![8192, 64]⟩
abbrev S256x32x32 : Shape := ⟨3, ![256, 32, 32]⟩
abbrev S262144 : Shape := ⟨1, ![262144]⟩
abbrev S_ : Shape := ⟨0, ![]⟩
abbrev S8192x128 : Shape := ⟨2, ![8192, 128]⟩
abbrev S262144x128 : Shape := ⟨2, ![262144, 128]⟩
abbrev S8192 : Shape := ⟨1, ![8192]⟩
abbrev S128x128 : Shape := ⟨2, ![128, 128]⟩
abbrev S512x128 : Shape := ⟨2, ![512, 128]⟩
abbrev S128 : Shape := ⟨1, ![128]⟩
abbrev S262144x64 : Shape := ⟨2, ![262144, 64]⟩
abbrev S256x32x32x64 : Shape := ⟨4, ![256, 32, 32, 64]⟩

abbrev nBuf : Table → Nat
  | .hbm => 9
  | .shared => 1
  | .local .scVector .vmem => 3
  | _ => 0

abbrev bufTy : (tb : Table) → Fin (nBuf tb) → BufTy
  | .hbm, ⟨0, _⟩ => ⟨S8192x64, .f32⟩
  | .hbm, ⟨1, _⟩ => ⟨S256x32x32, .i32⟩
  | .hbm, ⟨2, _⟩ => ⟨S262144, .i32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S262144x128, .f32⟩
  | .hbm, ⟨7, _⟩ => ⟨S262144x64, .f32⟩
  | .hbm, ⟨8, _⟩ => ⟨S256x32x32x64, .f32⟩
  | .shared, ⟨0, _⟩ => ⟨S8192x128, .f32⟩
  | .local .scVector .vmem, ⟨0, _⟩ => ⟨S8192, .i32⟩
  | .local .scVector .vmem, ⟨1, _⟩ => ⟨S128x128, .f32⟩
  | .local .scVector .vmem, ⟨2, _⟩ => ⟨S128x128, .f32⟩
  | _, _ => ⟨S8192x64, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v0_scv : Ref sig .scVector := ⟨.hbm, 2, rfl⟩
abbrev main_v2_scv : Ref sig .scVector := ⟨.hbm, 6, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c512_i32_0 : BitVec 32 := 512#32
  let v4 : BitVec 32 := Scalar.muli arg1 c512_i32_0
  let c0_i32_642_r0 : BitVec 32 := 0#32
  ![v4.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
def k0_off3 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v11 : BitVec 32 := Scalar.addi v2 c0_i32_8
  let c0_i32_9 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S256x32x32_S262144 : S256x32x32.ShapeCasts S262144
  pads_S8192x64_S8192x128_000_0640 : S8192x64.Pads (![0, 0] : Fin 2 → Nat) ![0, 64] ![0, 0] S8192x128
  h_S_ : 0 < S_.numel
  inb_S8192_S128_0 : ∀ a, (![0] : Fin 1 → Nat) a + S128.size a ≤ S8192.size a
  inb_S8192x128_S8192x128_0_0 : ∀ a, (![0, 0] : Fin 2 → Nat) a + S8192x128.size a ≤ S8192x128.size a
  gathers_S8192x128_S128x128 : S8192x128.Gathers 0 S128x128
  inb_S8192_S128_128 : ∀ a, (![128] : Fin 1 → Nat) a + S128.size a ≤ S8192.size a
  inb_S8192_S128_256 : ∀ a, (![256] : Fin 1 → Nat) a + S128.size a ≤ S8192.size a
  inb_S8192_S128_384 : ∀ a, (![384] : Fin 1 → Nat) a + S128.size a ≤ S8192.size a
  inb_S8192_S128_512 : ∀ a, (![512] : Fin 1 → Nat) a + S128.size a ≤ S8192.size a
  inb_S8192_S128_640 : ∀ a, (![640] : Fin 1 → Nat) a + S128.size a ≤ S8192.size a
  inb_S8192_S128_768 : ∀ a, (![768] : Fin 1 → Nat) a + S128.size a ≤ S8192.size a
  inb_S8192_S128_896 : ∀ a, (![896] : Fin 1 → Nat) a + S128.size a ≤ S8192.size a
  inb_S8192_S128_1024 : ∀ a, (![1024] : Fin 1 → Nat) a + S128.size a ≤ S8192.size a
  inb_S8192_S128_1152 : ∀ a, (![1152] : Fin 1 → Nat) a + S128.size a ≤ S8192.size a
  inb_S8192_S128_1280 : ∀ a, (![1280] : Fin 1 → Nat) a + S128.size a ≤ S8192.size a
  inb_S8192_S128_1408 : ∀ a, (![1408] : Fin 1 → Nat) a + S128.size a ≤ S8192.size a
  inb_S8192_S128_1536 : ∀ a, (![1536] : Fin 1 → Nat) a + S128.size a ≤ S8192.size a
  inb_S8192_S128_1664 : ∀ a, (![1664] : Fin 1 → Nat) a + S128.size a ≤ S8192.size a
  inb_S8192_S128_1792 : ∀ a, (![1792] : Fin 1 → Nat) a + S128.size a ≤ S8192.size a
  inb_S8192_S128_1920 : ∀ a, (![1920] : Fin 1 → Nat) a + S128.size a ≤ S8192.size a
  inb_S8192_S128_2048 : ∀ a, (![2048] : Fin 1 → Nat) a + S128.size a ≤ S8192.size a
  inb_S8192_S128_2176 : ∀ a, (![2176] : Fin 1 → Nat) a + S128.size a ≤ S8192.size a
  inb_S8192_S128_2304 : ∀ a, (![2304] : Fin 1 → Nat) a + S128.size a ≤ S8192.size a
  inb_S8192_S128_2432 : ∀ a, (![2432] : Fin 1 → Nat) a + S128.size a ≤ S8192.size a
  inb_S8192_S128_2560 : ∀ a, (![2560] : Fin 1 → Nat) a + S128.size a ≤ S8192.size a
  inb_S8192_S128_2688 : ∀ a, (![2688] : Fin 1 → Nat) a + S128.size a ≤ S8192.size a
  inb_S8192_S128_2816 : ∀ a, (![2816] : Fin 1 → Nat) a + S128.size a ≤ S8192.size a
  inb_S8192_S128_2944 : ∀ a, (![2944] : Fin 1 → Nat) a + S128.size a ≤ S8192.size a
  inb_S8192_S128_3072 : ∀ a, (![3072] : Fin 1 → Nat) a + S128.size a ≤ S8192.size a
  inb_S8192_S128_3200 : ∀ a, (![3200] : Fin 1 → Nat) a + S128.size a ≤ S8192.size a
  inb_S8192_S128_3328 : ∀ a, (![3328] : Fin 1 → Nat) a + S128.size a ≤ S8192.size a
  inb_S8192_S128_3456 : ∀ a, (![3456] : Fin 1 → Nat) a + S128.size a ≤ S8192.size a
  inb_S8192_S128_3584 : ∀ a, (![3584] : Fin 1 → Nat) a + S128.size a ≤ S8192.size a
  inb_S8192_S128_3712 : ∀ a, (![3712] : Fin 1 → Nat) a + S128.size a ≤ S8192.size a
  inb_S8192_S128_3840 : ∀ a, (![3840] : Fin 1 → Nat) a + S128.size a ≤ S8192.size a
  inb_S8192_S128_3968 : ∀ a, (![3968] : Fin 1 → Nat) a + S128.size a ≤ S8192.size a
  inb_S8192_S128_4096 : ∀ a, (![4096] : Fin 1 → Nat) a + S128.size a ≤ S8192.size a
  inb_S8192_S128_4224 : ∀ a, (![4224] : Fin 1 → Nat) a + S128.size a ≤ S8192.size a
  inb_S8192_S128_4352 : ∀ a, (![4352] : Fin 1 → Nat) a + S128.size a ≤ S8192.size a
  inb_S8192_S128_4480 : ∀ a, (![4480] : Fin 1 → Nat) a + S128.size a ≤ S8192.size a
  inb_S8192_S128_4608 : ∀ a, (![4608] : Fin 1 → Nat) a + S128.size a ≤ S8192.size a
  inb_S8192_S128_4736 : ∀ a, (![4736] : Fin 1 → Nat) a + S128.size a ≤ S8192.size a
  inb_S8192_S128_4864 : ∀ a, (![4864] : Fin 1 → Nat) a + S128.size a ≤ S8192.size a
  inb_S8192_S128_4992 : ∀ a, (![4992] : Fin 1 → Nat) a + S128.size a ≤ S8192.size a
  inb_S8192_S128_5120 : ∀ a, (![5120] : Fin 1 → Nat) a + S128.size a ≤ S8192.size a
  inb_S8192_S128_5248 : ∀ a, (![5248] : Fin 1 → Nat) a + S128.size a ≤ S8192.size a
  inb_S8192_S128_5376 : ∀ a, (![5376] : Fin 1 → Nat) a + S128.size a ≤ S8192.size a
  inb_S8192_S128_5504 : ∀ a, (![5504] : Fin 1 → Nat) a + S128.size a ≤ S8192.size a
  inb_S8192_S128_5632 : ∀ a, (![5632] : Fin 1 → Nat) a + S128.size a ≤ S8192.size a
  inb_S8192_S128_5760 : ∀ a, (![5760] : Fin 1 → Nat) a + S128.size a ≤ S8192.size a
  inb_S8192_S128_5888 : ∀ a, (![5888] : Fin 1 → Nat) a + S128.size a ≤ S8192.size a
  inb_S8192_S128_6016 : ∀ a, (![6016] : Fin 1 → Nat) a + S128.size a ≤ S8192.size a
  inb_S8192_S128_6144 : ∀ a, (![6144] : Fin 1 → Nat) a + S128.size a ≤ S8192.size a
  inb_S8192_S128_6272 : ∀ a, (![6272] : Fin 1 → Nat) a + S128.size a ≤ S8192.size a
  inb_S8192_S128_6400 : ∀ a, (![6400] : Fin 1 → Nat) a + S128.size a ≤ S8192.size a
  inb_S8192_S128_6528 : ∀ a, (![6528] : Fin 1 → Nat) a + S128.size a ≤ S8192.size a
  inb_S8192_S128_6656 : ∀ a, (![6656] : Fin 1 → Nat) a + S128.size a ≤ S8192.size a
  inb_S8192_S128_6784 : ∀ a, (![6784] : Fin 1 → Nat) a + S128.size a ≤ S8192.size a
  inb_S8192_S128_6912 : ∀ a, (![6912] : Fin 1 → Nat) a + S128.size a ≤ S8192.size a
  inb_S8192_S128_7040 : ∀ a, (![7040] : Fin 1 → Nat) a + S128.size a ≤ S8192.size a
  inb_S8192_S128_7168 : ∀ a, (![7168] : Fin 1 → Nat) a + S128.size a ≤ S8192.size a
  inb_S8192_S128_7296 : ∀ a, (![7296] : Fin 1 → Nat) a + S128.size a ≤ S8192.size a
  inb_S8192_S128_7424 : ∀ a, (![7424] : Fin 1 → Nat) a + S128.size a ≤ S8192.size a
  inb_S8192_S128_7552 : ∀ a, (![7552] : Fin 1 → Nat) a + S128.size a ≤ S8192.size a
  inb_S8192_S128_7680 : ∀ a, (![7680] : Fin 1 → Nat) a + S128.size a ≤ S8192.size a
  inb_S8192_S128_7808 : ∀ a, (![7808] : Fin 1 → Nat) a + S128.size a ≤ S8192.size a
  inb_S8192_S128_7936 : ∀ a, (![7936] : Fin 1 → Nat) a + S128.size a ≤ S8192.size a
  inb_S8192_S128_8064 : ∀ a, (![8064] : Fin 1 → Nat) a + S128.size a ≤ S8192.size a
  slices_S262144x128_S262144x64_0_0 : S262144x128.Slices ![0, 0] S262144x64
  shapeCasts_S262144x64_S256x32x32x64 : S262144x64.ShapeCasts S256x32x32x64
  hcc0_scratch4 : 0 + S_.numel ≤ 6
  hcc0_scratch5 : 1 + S_.numel ≤ 6
  hcc0_scratch6 : 2 + S_.numel ≤ 6
  hcc0_scratch7 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512x128.size a ≤ S8192x128.size a
  k0_off2_inb : ∀ i : grid0.Coords, ∀ a, (k0_off2 i) a + S8192.size a ≤ S262144.size a
  k0_off3_inb : ∀ i : grid0.Coords, ∀ (r : Fin 64), ∀ a, (k0_off3 i (BitVec.ofNat 32 (128 * r.val))) a + S128x128.size a ≤ S262144x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S8192x64 : Shape := ⟨2, ![8192, 64]⟩
abbrev S256x32x32 : Shape := ⟨3, ![256, 32, 32]⟩
abbrev S_ : Shape := ⟨0, ![]⟩
abbrev S256x32x32x1 : Shape := ⟨4, ![256, 32, 32, 1]⟩
abbrev S1 : Shape := ⟨1, ![1]⟩
abbrev S1x1x1x1 : Shape := ⟨4, ![1, 1, 1, 1]⟩
abbrev S256x32x32x64 : Shape := ⟨4, ![256, 32, 32, 64]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S256x32x32, .i32⟩
  | .hbm, ⟨2, _⟩ => ⟨S_, .i32⟩
  | .hbm, ⟨3, _⟩ => ⟨S256x32x32, .i32⟩
  | .hbm, ⟨4, _⟩ => ⟨S256x32x32, .i1⟩
  | .hbm, ⟨5, _⟩ => ⟨S_, .i32⟩
  | .hbm, ⟨6, _⟩ => ⟨S256x32x32, .i32⟩
  | .hbm, ⟨7, _⟩ => ⟨S256x32x32, .i32⟩
  | .hbm, ⟨8, _⟩ => ⟨S256x32x32, .i32⟩
  | .hbm, ⟨9, _⟩ => ⟨S256x32x32x1, .i32⟩
  | .hbm, ⟨10, _⟩ => ⟨S1, .i32⟩
  | .hbm, ⟨11, _⟩ => ⟨S_, .i32⟩
  | .hbm, ⟨12, _⟩ => ⟨S256x32x32x1, .i32⟩
  | .hbm, ⟨13, _⟩ => ⟨S256x32x32x1, .i1⟩
  | .hbm, ⟨14, _⟩ => ⟨S1x1x1x1, .i32⟩
  | .hbm, ⟨15, _⟩ => ⟨S256x32x32x1, .i32⟩
  | .hbm, ⟨16, _⟩ => ⟨S256x32x32x1, .i1⟩
  | .hbm, ⟨17, _⟩ => ⟨S256x32x32x1, .i1⟩
  | .hbm, ⟨18, _⟩ => ⟨S_, .i1⟩
  | .hbm, ⟨19, _⟩ => ⟨S256x32x32, .i1⟩
  | .hbm, ⟨20, _⟩ => ⟨S256x32x32x64, .f32⟩
  | .hbm, ⟨21, _⟩ => ⟨S256x32x32x64, .i1⟩
  | .hbm, ⟨22, _⟩ => ⟨S_, .f32⟩
  | .hbm, ⟨23, _⟩ => ⟨S256x32x32x64, .f32⟩
  | .hbm, ⟨24, _⟩ => ⟨S256x32x32x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S256x32x32 : S_.BroadcastsInDim S256x32x32 (![] : Fin 0 → Fin S256x32x32.rank)
  bcast_S256x32x32_S256x32x32x1_0_1_2 : S256x32x32.BroadcastsInDim S256x32x32x1 (![0, 1, 2] : Fin 3 → Fin S256x32x32x1.rank)
  bcast_S_S256x32x32x1 : S_.BroadcastsInDim S256x32x32x1 (![] : Fin 0 → Fin S256x32x32x1.rank)
  bcast_S1_S1x1x1x1_3 : S1.BroadcastsInDim S1x1x1x1 (![3] : Fin 1 → Fin S1x1x1x1.rank)
  bcast_S1x1x1x1_S256x32x32x1_0_1_2_3 : S1x1x1x1.BroadcastsInDim S256x32x32x1 (![0, 1, 2, 3] : Fin 4 → Fin S256x32x32x1.rank)
  reducesTo_S256x32x32x1_S256x32x32_d3 : S256x32x32x1.ReducesTo [3] S256x32x32
  h_S_ : 0 < S_.numel
  bcast_S256x32x32_S256x32x32x64_0_1_2 : S256x32x32.BroadcastsInDim S256x32x32x64 (![0, 1, 2] : Fin 3 → Fin S256x32x32x64.rank)
  bcast_S_S256x32x32x64 : S_.BroadcastsInDim S256x32x32x64 (![] : Fin 0 → Fin S256x32x32x64.rank)
  gather_S8192x64_S256x32x32x1_S256x32x32x64_3_0_n_n_0_3_164_wf : GatherDims.WF S8192x64 S256x32x32x1 S256x32x32x64 [3] [0] [] [0] [] 3 ![1, 64]

variable [Facts₀]

def gather_S8192x64_S256x32x32x1_S256x32x32x64_3_0_n_n_0_3_164 : GatherDims S8192x64 S256x32x32x1 S256x32x32x64 where
  offsetDims := [3]
  collapsedSliceDims := [0]
  operandBatchingDims := []
  startIndicesBatchingDims := []
  startIndexMap := [0]
  indexVectorDim := 3
  sliceSizes := ![1, 64]
  wf := gather_S8192x64_S256x32x32x1_S256x32x32x64_3_0_n_n_0_3_164_wf

class Facts : Prop extends Facts₀ where

variable [Facts]
-- ==== Proof.Spec.lean ====
/-
  The specification both programs are proved against: an embedding lookup. A table of 8192 rows of 64 numbers and an
  array of 256·32·32 row numbers give the array of 256·32·32·64 numbers whose entry (b, h, w, k) is entry k of the row
  the index array names at (b, h, w). The intermediate arrays of the program that moves rows by copies are stated here
  too: the table padded on the right to 128 columns, the index array flattened to 262144 entries, and the 262144 rows of
  128 numbers read through the flat indices. A row number is a 32-bit word; where every word is below 8192 (as a signed
  number: between 0 and 8191) the clamp written into the definitions is the identity.
-/
import Idealize.ShloMosaic.PureOps
import Idealize.ShloMosaic.Lib.ValueIdx

noncomputable section

namespace Cert.Proof.Spec

open Idealize.ShloMosaic Idealize.ShloMosaic.ValueIdx

abbrev STab : Shape := ⟨2, ![8192, 64]⟩
abbrev STabP : Shape := ⟨2, ![8192, 128]⟩
abbrev SIdx : Shape := ⟨3, ![256, 32, 32]⟩
abbrev SFlat : Shape := ⟨1, ![262144]⟩
abbrev SRows : Shape := ⟨2, ![262144, 128]⟩
abbrev SOut : Shape := ⟨4, ![256, 32, 32, 64]⟩

/-- The row a 32-bit word names, clamped into the table. -/
def rowOf (w : BitVec 32) : Fin 8192 := ⟨min w.toNat 8191, by omega⟩

/-- Every entry of the index array names a row of the table. -/
def InRange (idx : IVec SIdx 32) : Prop := ∀ j, (idx j).toNat < 8192

/-- The same of the flattened index array. -/
def InRangeFlat (ix : IVec SFlat 32) : Prop := ∀ j, (ix j).toNat < 8192

/-- The lookup: entry (b, h, w, k) is entry k of row idx(b, h, w) of the table. -/
def lookup {α : Type} (t : STab.Idx → α) (idx : IVec SIdx 32) : SOut.Idx → α :=
  fun j => t (ix2 (rowOf (idx (ix3 (j 0) (j 1) (j 2)))) (j 3))

/-- The rows read through the flat indices: row j is row ix(j) of the padded table. -/
def rows {α : Type} (tp : STabP.Idx → α) (ix : IVec SFlat 32) : SRows.Idx → α :=
  fun j => tp (ix2 (rowOf (ix (ix1 (j 0)))) (j 1))

end Cert.Proof.Spec

end
-- ==== Proof.PreDecode.lean ====
/-
  The precondition read back. The printed predicate is the conjunction of two "all" reductions: every table entry is
  finite, and every index word w satisfies 0 ≤ w and w ≤ 8191 as a signed number. From the claim that the predicate is 1
  this file derives the second half as a statement on the unsigned reading of each word: it is below 8192.
-/
import proofs.«204540_g20890720928596_cont_8to1_1350_21_alg».proof.Pre_input_domain
import proofs.«204540_g20890720928596_cont_8to1_1350_21_alg».proof.Proof.Spec
import Idealize.ShloMosaic.Lib.ReduceAll
import Idealize.ShloMosaic.Lib.ValueIdx

namespace Cert.Proof.PreDecode

open Idealize.ShloMosaic

/-- The rank-zero shape has one index. -/
instance subsingleton_S_ : Subsingleton Cert.Pre_input_domain.S_.Idx := ⟨fun a b => funext fun d => d.elim0⟩

/-- A 32-bit word that reads, signed, between 0 and 8191 reads, unsigned, below 8192. -/
theorem toNat_lt_of_signed (w : BitVec 32) (h0 : (0#32 : BitVec 32).toInt ≤ w.toInt)
    (h1 : w.toInt ≤ (8191#32 : BitVec 32).toInt) : w.toNat < 8192 := by
  have e0 : (0#32 : BitVec 32).toInt = 0 := by decide
  have e1 : (8191#32 : BitVec 32).toInt = 8191 := by decide
  rw [e0] at h0
  rw [e1] at h1
  have hc := BitVec.toInt_eq_toNat_cond w
  have hlt := w.isLt
  split at hc <;> omega

/-- the precondition's second conjunct: every index word is below 8192 -/
theorem inRange {F : FTy → Type} [FloatOps F] [Cert.Pre_input_domain.Facts]
    (t : FVec F Cert.Pre_input_domain.S8192x64 .f32) (idx : IVec Cert.Pre_input_domain.S256x32x32 32)
    (h : Cert.Pre_input_domain.fn (F := F) t idx = fun _ => 1#1) : Cert.Proof.Spec.InRange idx := by
  intro j
  have h' := congrFun h ValueIdx.ix0
  dsimp only [Cert.Pre_input_domain.fn] at h'
  have h2 := (IntOp.andi_eq_one.1 h').2
  have h3 := Host.reduce_andi_all _ _ _ _ _ h2 j
  obtain ⟨hge, hle⟩ := IntOp.andi_eq_one.1 h3
  exact toNat_lt_of_signed (idx j) (IntOp.cmpi_sge.1 hge) (IntOp.cmpi_sle.1 hle)

end Cert.Proof.PreDecode
-- ==== Proof.HostValue.lean ====
/-
  The operations the program applies around the row copies, read as functions of their operands and joined to the
  specification. The index array is flattened in row-major order, so flat entry (b·32 + h)·32 + w is entry (b, h, w); the
  table is padded on the right from 64 to 128 columns, so columns below 64 are the table's own and the padding value is
  never read below column 64; the gathered rows are cut back to their first 64 columns and folded in row-major order, so
  entry (b, h, w, k) of the result is column k of gathered row (b·32 + h)·32 + w. Composed, this is the lookup.
-/
import proofs.«204540_g20890720928596_cont_8to1_1350_21_alg».proof.Proof.Spec
import Idealize.ShloMosaic.Lib.KernelVsHost

namespace Cert.Proof.HostValue

open Idealize.ShloMosaic Idealize.ShloMosaic.ValueIdx
open Cert.Proof.Spec

/-- the flattened index array of in-range indices is in range -/
theorem flat_inRange (hc : SIdx.ShapeCasts SFlat) (idx : IVec SIdx 32) (h : InRange idx) :
    InRangeFlat (shapeCast SFlat idx hc) := by
  intro j
  exact h (Shape.reshapeEquiv hc j)

/-- One entry: entry (b, h, w, k) of the folded, cut-back rows is column k of the table's row named at (b, h, w). -/
theorem out_at {α : Type} (hp : STab.Pads (![0, 0] : Fin 2 → Nat) ![0, 64] ![0, 0] STabP)
    (h0 : 0 < (⟨0, ![]⟩ : Shape).numel) (hc : SIdx.ShapeCasts SFlat)
    (hs : SRows.Slices ![0, 0] (⟨2, ![262144, 64]⟩ : Shape)) (hc' : (⟨2, ![262144, 64]⟩ : Shape).ShapeCasts SOut)
    (t : STab.Idx → α) (z : (⟨0, ![]⟩ : Shape).Idx → α) (idx : IVec SIdx 32)
    (b : Fin 256) (h : Fin 32) (w : Fin 32) (k : Fin 64) :
    shapeCast SOut (extractStridedSlice ⟨2, ![262144, 64]⟩ ![0, 0]
        (rows (pad STabP ![0, 0] ![0, 64] ![0, 0] t z hp h0) (shapeCast SFlat idx hc)) hs) hc' (ix4 b h w k)
      = t (ix2 (rowOf (idx (ix3 b h w))) k) := by
  have hb := b.isLt
  have hh := h.isLt
  have hw := w.isLt
  have hk := k.isLt
  -- the output fold: (b, h, w, k) is row (b·32 + h)·32 + w, column k
  refine (shapeCast_apply _ hc' (ix4 b h w k)
    (ix2 (⟨(b.val * 32 + h.val) * 32 + w.val, by omega⟩ : Fin 262144) k) ?_).trans ?_
  · rw [Shape.rowMajor_val_two, Shape.rowMajor_val_four]
    rfl
  -- the cut keeps the row and the column
  refine (extractStridedSlice_apply ![0, 0] _ hs _
    (ix2 (⟨(b.val * 32 + h.val) * 32 + w.val, by omega⟩ : Fin 262144) (⟨k.val, by omega⟩ : Fin 128))
    (fun a => match a with
      | ⟨0, _⟩ => by show (b.val * 32 + h.val) * 32 + w.val = 0 + ((b.val * 32 + h.val) * 32 + w.val); omega
      | ⟨1, _⟩ => by show k.val = 0 + k.val; omega)).trans ?_
  -- the gathered row is the padded table's row named by flat entry (b·32 + h)·32 + w
  show pad STabP ![0, 0] ![0, 64] ![0, 0] t z hp h0
      (ix2 (rowOf (shapeCast SFlat idx hc (ix1 (⟨(b.val * 32 + h.val) * 32 + w.val, by omega⟩ : Fin 262144))))
        (⟨k.val, by omega⟩ : Fin 128)) = _
  -- the input flattening: flat entry (b·32 + h)·32 + w is entry (b, h, w)
  rw [shapeCast_apply idx hc (ix1 (⟨(b.val * 32 + h.val) * 32 + w.val, by omega⟩ : Fin 262144)) (ix3 b h w)
    (by rw [Shape.rowMajor_val_three, Shape.rowMajor_val_one]; rfl)]
  -- a column below 64 of the padded table is the table's own
  exact pad_apply_of_inside ![0, 0] ![0, 64] ![0, 0] t z hp h0 _ (ix2 (rowOf (idx (ix3 b h w))) k)
    (fun a => match a with
      | ⟨0, _⟩ => by show (rowOf (idx (ix3 b h w))).val = 0 + (rowOf (idx (ix3 b h w))).val * (0 + 1); omega
      | ⟨1, _⟩ => by show k.val = 0 + k.val * (0 + 1); omega)

/-- the gathered rows of the padded table, cut back to 64 columns and folded to 256×32×32×64, are the lookup -/
theorem out_eq {α : Type} (hp : STab.Pads (![0, 0] : Fin 2 → Nat) ![0, 64] ![0, 0] STabP)
    (h0 : 0 < (⟨0, ![]⟩ : Shape).numel) (hc : SIdx.ShapeCasts SFlat)
    (hs : SRows.Slices ![0, 0] (⟨2, ![262144, 64]⟩ : Shape)) (hc' : (⟨2, ![262144, 64]⟩ : Shape).ShapeCasts SOut)
    (t : STab.Idx → α) (z : (⟨0, ![]⟩ : Shape).Idx → α) (idx : IVec SIdx 32) :
    shapeCast SOut (extractStridedSlice ⟨2, ![262144, 64]⟩ ![0, 0]
        (rows (pad STabP ![0, 0] ![0, 64] ![0, 0] t z hp h0) (shapeCast SFlat idx hc)) hs) hc' = lookup t idx := by
  funext j
  rw [eq_ix4 j]
  exact out_at hp h0 hc hs hc' t z idx (j 0) (j 1) (j 2) (j 3)

end Cert.Proof.HostValue
-- ==== Proof.RefRun.lean ====
/-
  The reference's run. The reference is a straight line of twenty-three array operations on two arguments, a table of
  8192 rows of 64 numbers and an array of 256·32·32 index words: it adds 8192 to the negative words, tests each result
  for lying between 0 and 8191 as a signed number, gathers the rows the results name (a start index clamped into the
  table), and keeps a gathered row where the test holds, a not-a-number literal elsewhere. Here the program is shown
  equal to that list of operations, run by the library's rule for a straight line, and the contents of the result
  buffer at the end are named as one term `refTerm` of the two arguments' contents; the arguments are unchanged.
-/
import proofs.«204540_g20890720928596_cont_8to1_1350_21_alg».proof.ReferenceIdeal
import Idealize.ShloMosaic.Lib.StableHlo.Run

noncomputable section

namespace Cert.Proof.Ref

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The reference's twenty-three operations in order, the two outlined functions unfolded at their calls: the wrap of
    negative entries (zero, its broadcast, the signed comparison, 8192, its broadcast, the sum, the select that is the
    inner function's one line), the entries as one-element index vectors, the range test (two comparisons against
    broadcast bounds, their conjunction, reduced by conjunction over the unit axis), the gather of rows, and the select
    between the gathered rows and a broadcast not-a-number under the broadcast test. -/
abbrev ops : List (HloOp τ sig (Elt F)) :=
  [ TRef.nullary main_call0.c (constantI S_ 32 0#32),
    TRef.unary main_call0.c main_call0.v0 (broadcastInDim S256x32x32 ![] bcast_S_S256x32x32),
    TRef.binary (.of main_arg1) main_call0.v0 main_call0.v1 (cmpi .slt),
    TRef.nullary main_call0.c_0 (constantI S_ 32 8192#32),
    TRef.unary main_call0.c_0 main_call0.v2 (broadcastInDim S256x32x32 ![] bcast_S_S256x32x32),
    TRef.binary (.of main_arg1) main_call0.v2 main_call0.v3 addi,
    TRef.ternary main_call0.v1 main_call0.v3 (.of main_arg1) main_call0.call0.v0 select,
    TRef.unary main_call0.call0.v0 main_call0.v5 (broadcastInDim S256x32x32x1 ![0, 1, 2] bcast_S256x32x32_S256x32x32x1_0_1_2),
    TRef.nullary main_call0.c_1 (constantI S1 32 8191#32),
    TRef.nullary main_call0.c_2 (constantI S_ 32 0#32),
    TRef.unary main_call0.c_2 main_call0.v6 (broadcastInDim S256x32x32x1 ![] bcast_S_S256x32x32x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S256x32x32x1 ![0, 1, 2, 3] bcast_S1x1x1x1_S256x32x32x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x32x32x1_S256x32x32_d3 h_S_),
    TRef.binary (.of main_arg0) main_call0.v5 main_call0.v13 (fun x i => Host.gather gather_S8192x64_S256x32x32x1_S256x32x32x64_3_0_n_n_0_3_164 x i),
    TRef.unary main_call0.v12 main_call0.v14 (broadcastInDim S256x32x32x64 ![0, 1, 2] bcast_S256x32x32_S256x32x32x64_0_1_2),
    TRef.nullary main_call0.cst (constant S_ .f32 0x7FC00000#32),
    TRef.unary main_call0.cst main_call0.v15 (broadcastInDim S256x32x32x64 ![] bcast_S_S256x32x32x64),
    TRef.ternary main_call0.v14 main_call0.v13 main_call0.v15 main_call0.v16 select ]

set_option maxRecDepth 1024 in
/-- @main is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## The composed term of the two arguments -/

/-- The index array with 8192 added to its negative entries. -/
def wrap (idx : IVec S256x32x32 32) : IVec S256x32x32 32 :=
  select (cmpi .slt idx (broadcastInDim S256x32x32 ![] bcast_S_S256x32x32 (constantI S_ 32 0#32)))
    (addi idx (broadcastInDim S256x32x32 ![] bcast_S_S256x32x32 (constantI S_ 32 8192#32))) idx

/-- Its entries as one-element index vectors. -/
def starts (idx : IVec S256x32x32 32) : IVec S256x32x32x1 32 :=
  broadcastInDim S256x32x32x1 ![0, 1, 2] bcast_S256x32x32_S256x32x32x1_0_1_2 (wrap idx)

/-- The range test: each wrapped entry between 0 and 8191 as a signed number, the conjunction taken over the unit axis. -/
def inTable (idx : IVec S256x32x32 32) : IVec S256x32x32 1 :=
  Host.reduce IntOp.andi
    (andi (cmpi .sge (starts idx) (broadcastInDim S256x32x32x1 ![] bcast_S_S256x32x32x1 (constantI S_ 32 0#32)))
      (cmpi .sle (starts idx)
        (broadcastInDim S256x32x32x1 ![0, 1, 2, 3] bcast_S1x1x1x1_S256x32x32x1_0_1_2_3
          (broadcastInDim S1x1x1x1 ![3] bcast_S1_S1x1x1x1_3 (constantI S1 32 8191#32)))))
    (constantI S_ 1 1#1) reducesTo_S256x32x32x1_S256x32x32_d3 h_S_

/-- What the reference computes from the table and the index array: the gathered rows where the range test holds,
    the not-a-number literal elsewhere. -/
def refTerm (t : FVec F S8192x64 .f32) (idx : IVec S256x32x32 32) : FVec F S256x32x32x64 .f32 :=
  select (broadcastInDim S256x32x32x64 ![0, 1, 2] bcast_S256x32x32_S256x32x32x64_0_1_2 (inTable idx))
    (Host.gather gather_S8192x64_S256x32x32x1_S256x32x32x64_3_0_n_n_0_3_164 t (starts idx))
    (broadcastInDim S256x32x32x64 ![] bcast_S_S256x32x32x64 (constant S_ .f32 0x7FC00000#32))

/-- The fold of the operations at the result buffer is that term of the two argument buffers' contents. -/
theorem out_eq (V : Valuation τ sig (Elt F)) :
    after ops V (main_v0 : DevRef τ sig) = refTerm (V (main_arg0 : DevRef τ sig)) (V (main_arg1 : DevRef τ sig)) := by
  after_results_simp
  simp only [TRef.toBuf, TRef.ofBuf, cast_eq]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- On every device, for any float values, from any memory with zero counters: every weakly fair execution of @main
    terminates with the result buffer at the composed term of the two arguments' launch contents and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference's term is the lookup. Where every index word is below 8192 the word is not negative as a signed
  number, so nothing is added to it; it lies between 0 and 8191, so the range test is 1 at every entry and so is its
  conjunction over the unit axis; the gather reads, at result entry (b, h, w, k), entry k of the table's row named by
  the word at (b, h, w), clamped into the table, and the clamp changes nothing on a word below 8192; and the final
  select, its condition 1, keeps the gathered entry. Each stage is read at an index; the gather of a rank-2 table by
  one-element index vectors is read from its definition.
-/
import proofs.«204540_g20890720928596_cont_8to1_1350_21_alg».proof.Proof.RefRun
import proofs.«204540_g20890720928596_cont_8to1_1350_21_alg».proof.Proof.Spec
import Idealize.ShloMosaic.Lib.ReduceAll

noncomputable section

namespace Cert.Proof.Ref

open Cert.ReferenceIdeal Idealize.ShloMosaic Idealize.ShloMosaic.ValueIdx Idealize.ShloMosaic.TcCoe Idealize.SL.Sem
open Cert.ReferenceIdeal.Facts₀

variable {F : FTy → Type} [FloatOps F] [Facts]

/-! ## Words below 8192 under the signed comparisons -/

/-- A word below 8192 reads the same signed and unsigned. -/
theorem toInt_of_lt {w : BitVec 32} (h : w.toNat < 8192) : w.toInt = w.toNat :=
  BitVec.toInt_eq_toNat_of_lt (by omega)

/-- It is not negative … -/
theorem slt_zero_of_lt {w : BitVec 32} (h : w.toNat < 8192) : IntOp.cmpi .slt w 0#32 = 0#1 :=
  eq_zero_of_ne_one fun e => by
    have := IntOp.cmpi_slt.mp e
    rw [toInt_of_lt h, show (0#32 : BitVec 32).toInt = 0 from by decide] at this
    omega

/-- … it is at least 0 … -/
theorem sge_zero_of_lt {w : BitVec 32} (h : w.toNat < 8192) : IntOp.cmpi .sge w 0#32 = 1#1 :=
  IntOp.cmpi_sge.mpr (by rw [toInt_of_lt h, show (0#32 : BitVec 32).toInt = 0 from by decide]; omega)

/-- … and at most 8191. -/
theorem sle_max_of_lt {w : BitVec 32} (h : w.toNat < 8192) : IntOp.cmpi .sle w 8191#32 = 1#1 :=
  IntOp.cmpi_sle.mpr (by rw [toInt_of_lt h, show (8191#32 : BitVec 32).toInt = 8191 from by decide]; omega)

/-- A left fold by conjunction from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl =>
    foldl_andi_ones f l _ (IntOp.andi_eq_one.2 ⟨h, hl a List.mem_cons_self⟩) fun n hn => hl n (List.mem_cons_of_mem _ hn)

/-! ## The stages at an index -/

/-- Nothing is added to a word below 8192. -/
theorem wrap_apply (idx : IVec S256x32x32 32) (i : S256x32x32.Idx) (h : (idx i).toNat < 8192) : wrap idx i = idx i := by
  show Scalar.select (IntOp.cmpi .slt (idx i) 0#32) (IntOp.addi (idx i) 8192#32) (idx i) = idx i
  rw [slt_zero_of_lt h, select_zero]

/-- The one-element index vector at (b, h, w, 0) is the wrapped word at (b, h, w). -/
theorem starts_apply (idx : IVec S256x32x32 32) (a : Fin 256) (b : Fin 32) (c : Fin 32) (d : Fin 1) :
    starts idx (ix4 a b c d) = wrap idx (ix3 a b c) := by
  exact congrArg (wrap idx) (funext fun e => Fin.ext (match e with | ⟨0, _⟩ => rfl | ⟨1, _⟩ => rfl | ⟨2, _⟩ => rfl))

/-- Under in-range indices it is the index word itself. -/
theorem starts_inRange {idx : IVec S256x32x32 32} (h : Spec.InRange idx) (a : Fin 256) (b : Fin 32) (c : Fin 32) (d : Fin 1) :
    starts idx (ix4 a b c d) = idx (ix3 a b c) := by
  rw [starts_apply, wrap_apply idx _ (h _)]

/-- Under in-range indices the range test is 1 at every entry. -/
theorem inTable_apply {idx : IVec S256x32x32 32} (h : Spec.InRange idx) (i : S256x32x32.Idx) : inTable idx i = 1#1 := by
  unfold inTable
  rw [Host.reduce_eq_foldl]
  refine foldl_andi_ones _ _ _ rfl fun k _ => ?_
  obtain ⟨a, b, c, d, rfl⟩ : ∃ (a : Fin 256) (b : Fin 32) (c : Fin 32) (d : Fin 1), k = ix4 a b c d :=
    ⟨k 0, k 1, k 2, k 3, eq_ix4 k⟩
  show IntOp.andi (IntOp.cmpi .sge (starts idx (ix4 a b c d)) 0#32) (IntOp.cmpi .sle (starts idx (ix4 a b c d)) 8191#32) = 1#1
  rw [starts_inRange h]
  exact IntOp.andi_eq_one.2 ⟨sge_zero_of_lt (h _), sle_max_of_lt (h _)⟩

/-- … and so is its broadcast along the rows. -/
theorem mask_apply {idx : IVec S256x32x32 32} (h : Spec.InRange idx) (j : S256x32x32x64.Idx) :
    broadcastInDim S256x32x32x64 ![0, 1, 2] bcast_S256x32x32_S256x32x32x64_0_1_2 (inTable idx) j = 1#1 :=
  inTable_apply h _

/-! ## The gather at an index -/

/-- The gather of rows read at (b, h, w, k): entry k of the table's row at the start index held at (b, h, w, 0), read
    signed and clamped into [0, 8191]. On the table's row axis the operand index is the clamped start alone (the axis is
    collapsed and not a batching one); on its column axis it is the result's last coordinate alone (no start index, not
    a batching axis, the one offset axis). -/
theorem gather_rows_apply {α : Type} {w : Nat} (x : S8192x64.Idx → α) (ix : IVec S256x32x32x1 w)
    (a : Fin 256) (b : Fin 32) (c : Fin 32) (k : Fin 64) :
    Host.gather gather_S8192x64_S256x32x32x1_S256x32x32x64_3_0_n_n_0_3_164 x ix (ix4 a b c k)
      = x (ix2 ⟨min (ix (ix4 a b c (0 : Fin 1))).toInt.toNat 8191, by omega⟩ k) := by
  unfold Host.gather
  congr 1
  funext e
  refine Fin.ext ?_
  match e with
  | ⟨0, _⟩ =>
    show gather_S8192x64_S256x32x32x1_S256x32x32x64_3_0_n_n_0_3_164.start (ix4 a b c k) ix 0 + gather_S8192x64_S256x32x32x1_S256x32x32x64_3_0_n_n_0_3_164.batchCoord (ix4 a b c k) 0 + gather_S8192x64_S256x32x32x1_S256x32x32x64_3_0_n_n_0_3_164.offCoord (ix4 a b c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x64_S256x32x32x1_S256x32x32x64_3_0_n_n_0_3_164.startIndexMap from List.mem_singleton.mpr rfl)]
    have hsi : gather_S8192x64_S256x32x32x1_S256x32x32x64_3_0_n_n_0_3_164.siIdx (ix4 a b c k)
        ⟨List.idxOf (0 : Fin 2) gather_S8192x64_S256x32x32x1_S256x32x32x64_3_0_n_n_0_3_164.startIndexMap, List.idxOf_lt_length_iff.2 (List.mem_singleton.mpr rfl)⟩
          = ix4 a b c (0 : Fin 1) := by
      funext f; refine Fin.ext ?_
      match f with
      | ⟨0, _⟩ => rfl
      | ⟨1, _⟩ => rfl
      | ⟨2, _⟩ => rfl
      | ⟨3, _⟩ => rfl
    rw [hsi]
    rfl
  | ⟨1, _⟩ =>
    show gather_S8192x64_S256x32x32x1_S256x32x32x64_3_0_n_n_0_3_164.start (ix4 a b c k) ix 1 + gather_S8192x64_S256x32x32x1_S256x32x32x64_3_0_n_n_0_3_164.batchCoord (ix4 a b c k) 1 + gather_S8192x64_S256x32x32x1_S256x32x32x64_3_0_n_n_0_3_164.offCoord (ix4 a b c k) 1 = k.val
    rw [GatherDims.batchCoord_eq_zero _ _ _ List.not_mem_nil]
    unfold GatherDims.start
    rw [dif_neg (show (1 : Fin 2) ∉ gather_S8192x64_S256x32x32x1_S256x32x32x64_3_0_n_n_0_3_164.startIndexMap from by
      show (1 : Fin 2) ∉ ([0] : List (Fin 2)); decide)]
    unfold GatherDims.offCoord
    rw [dif_pos ((GatherDims.mem_sKept _ _).mpr ⟨by show (1 : Fin 2) ∉ ([0] : List (Fin 2)); decide, List.not_mem_nil⟩)]
    simp only [Nat.zero_add, Nat.add_zero]
    rfl

/-! ## The term is the lookup -/

/-- Under in-range indices the reference's term is the lookup, for any float values: the select keeps the gathered entry,
    and the gather's clamp is the specification's. -/
theorem refTerm_eq_lookup (t : FVec F S8192x64 .f32) (idx : IVec S256x32x32 32) (h : Spec.InRange idx) :
    refTerm t idx = Spec.lookup t idx := by
  funext j
  obtain ⟨a, b, c, k, rfl⟩ : ∃ (a : Fin 256) (b : Fin 32) (c : Fin 32) (k : Fin 64), j = ix4 a b c k :=
    ⟨j 0, j 1, j 2, j 3, eq_ix4 j⟩
  unfold refTerm
  rw [select_apply, mask_apply h, select_one, gather_rows_apply]
  unfold Spec.lookup
  show t (ix2 _ k) = t (ix2 (Spec.rowOf (idx (ix3 a b c))) k)
  congr 2
  refine Fin.ext ?_
  show min (starts idx (ix4 a b c (0 : Fin 1))).toInt.toNat 8191 = min (idx (ix3 a b c)).toNat 8191
  rw [starts_inRange h, toInt_of_lt (h _), Int.toNat_natCast]

/-! ## The run against the specification -/

/-- The reference's run: under in-range indices every weakly fair execution ends with the result array the lookup, the
    arguments unchanged. -/
theorem run (m : (ℓ : Loc nD τ sig) → Buf (Elt Ideal) ℓ) (g : Dev nD → PrngReg)
    (hin : ∀ c : Dev nD, Spec.InRange (m ((c.tc : Thread nD τ).loc main_arg1))) :
    θ_run (defs (F := Ideal)) (onTc (τ := τ) (main (F := Ideal))) ⟨m, fun _ => 0, g⟩ (fun r => ∀ c : Dev nD,
      r.2.mem ((c.tc : Thread nD τ).loc main_v0)
          = Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq_lookup _ _ (hin c)), (h c).2⟩) (run_term m g)

end Cert.Proof.Ref

end
-- ==== Proof.KICommon.lean ====
/-
  What the kernel program's frame and value are proved over, stated once.

  The program: on the TensorCore the index array is flattened to 262144 row numbers and the table padded to 128 columns;
  then both SparseCores run one task on each of their sixteen tiles; then the 262144 gathered rows are cut back to 64
  columns and folded. Task s of SparseCore c is worker w = 2·s + c. It copies rows [512·s, 512·s + 512) of the padded
  table into the same rows of its SparseCore's shared table, and entries [8192·w, 8192·w + 8192) of the flat indices
  into a list of its own; meets the other fifteen tiles of its SparseCore at the barrier; then, 128 rows at a time and
  through two row buffers in turn, gathers the rows of the shared table its list names and writes them to rows
  [8192·w + 128·r, 8192·w + 128·r + 128) of the result.

  Who holds what. Each SparseCore reads the whole padded table, so each gets one of two read shares of it and deals its
  tiles their 512 rows of that share. A tile holds its 512 rows of the shared table outright while it fills them; at
  the barrier its arrival in tile j's round hands tile j one of sixteen read shares of those rows, filled; leaving the
  barrier a tile has collected a read share of all sixteen pieces — the whole shared table, equal to the padded one —
  and that is what its gathers read. At its end a task gives back its share of the whole shared table and what it kept
  of its own rows, and the sixteen returns make the shared table whole again.
-/
import proofs.«204540_g20890720928596_cont_8to1_1350_21_alg».proof.Defs
import proofs.«204540_g20890720928596_cont_8to1_1350_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204540_g20890720928596_cont_8to1_1350_21_alg».proof.Proof.Gen.KernelIdeal
import proofs.«204540_g20890720928596_cont_8to1_1350_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the copies' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The table and the index array (the arguments); the padded table, the flat indices and the gathered rows (what the
    SparseCores read and write); the SparseCore's shared table. -/
abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v2
abbrev shRef (c : Fin τ.nSC) : DevRef τ sig := ⟨.shared, ⟨0, by decide⟩, c⟩
abbrev shLoc (d : Dev nD) (c : Fin τ.nSC) : Loc nD τ sig := (d, shRef c)

/-- The sixteen pieces of 512 rows of the (padded or shared) table; the thirty-two pieces of 8192 flat indices and of
    8192 gathered rows. -/
theorem hdivT : 16 ∣ S8192x128.size 0 := ⟨512, rfl⟩
theorem hdivI : 32 ∣ S262144.size 0 := ⟨8192, rfl⟩
theorem hdivO : 32 ∣ S262144x128.size 0 := ⟨8192, rfl⟩
abbrev tabPart (s : Fin 16) : Rect S8192x128 := Rect.part (s := S8192x128) (a₀ := 0) hdivT s
abbrev idxPart (w : Fin 32) : Rect S262144 := Rect.part (s := S262144) (a₀ := 0) hdivI w
abbrev outPart (w : Fin 32) : Rect S262144x128 := Rect.part (s := S262144x128) (a₀ := 0) hdivO w
abbrev tabSet (s : Fin 16) : Finset S8192x128.Idx := (tabPart s).set
abbrev idxSet (w : Fin 32) : Finset S262144.Idx := (idxPart w).set
abbrev outSet (w : Fin 32) : Finset S262144x128.Idx := (outPart w).set

/-- The worker number of task s of SparseCore c. -/
def wid (c : Fin 2) (s : Fin 16) : Fin 32 := ⟨2 * s.val + c.val, by omega⟩

/-- One of two read shares of the padded table, a SparseCore's; one of sixteen read shares of the shared table, a
    tile's, and what is left of the full share once the sixteen are taken. -/
abbrev coreShare (c : Fin 2) : PosShare TreeShare := Transfers.shareTok fullShare 2 c
abbrev tileShare (j : Fin 16) : PosShare TreeShare := Transfers.shareTok fullShare 16 j
abbrev keptShare : PosShare TreeShare := Transfers.shareDrop fullShare 16

variable [FloatOps F]

/- The values the SparseCores work on: per device the padded table and the flat indices (whatever @main computed), and
   what the result held before; what their work must leave is the rows read through the indices. -/
variable (tp : (d : Dev nD) → Buf (Elt F) (tLoc d)) (ix : (d : Dev nD) → Buf (Elt F) (iLoc d))
variable (o₀ : (d : Dev nD) → Buf (Elt F) (oLoc d))

def rowsOf (d : Dev nD) : Buf (Elt F) (oLoc d) := Spec.rows (α := Elt F .f32) (tp d) (ix d)

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile n's arrival in tile j's round hands tile j: tile j's read share of piece n of the shared table, filled
    with the padded table's rows. -/
def bPay (g : GSem nD τ sig) (n : ℕ) : sProp 𝕄 :=
  match g with
  | ((d, .scVector c j), _) =>
      if h : n < 16 then iprop(shLoc d c ↦[tabSet ⟨n, h⟩]{tileShare (Fin.cast nSub_eq j)} tp d) else iprop(emp)
  | _ => iprop(emp)

/-- One round on each tile's barrier cell: a unit from each of the sixteen tiles (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay tp g n
  amount_pos _ _ _ _ := Nat.one_pos

instance bRd_payload_storable (g : GSem nD τ sig) (r n : ℕ) : BI.Storable (upEmb : UEmb _ 𝕄) ((bRd (F := F) tp).payload g r n) := by
  show BI.Storable upEmb (bPay tp g n)
  unfold bPay
  rcases g with ⟨⟨d, _ | c | ⟨c, i⟩⟩, sm⟩ <;> dsimp only <;> (repeat' split) <;> infer_instance

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

/-- A tile's barrier kit: every tile's cell invariant of its SparseCore, its duty token in every tile's round and that
    each has reached it, its own position at the round's origin, and the credit for its own round's sixteen units. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) tp) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What a task is handed: its 512 rows of its SparseCore's share of the padded table, its 8192 flat indices, its 8192
    rows of the result (at what they held), and its 512 rows of the shared table outright, at anything. -/
def goRes (d : Dev nD) (c : Fin 2) (s : Fin 16) (cc : Fin τ.nSC) : sProp 𝕄 :=
  iprop((tLoc d ↦[tabSet s]{coreShare c} tp d) ∗ (iLoc d ↦[idxSet (wid c s)]{fullShare} ix d) ∗ (oLoc d ↦[outSet (wid c s)]{fullShare} o₀ d)
    ∗ ∃ f, shLoc d cc ↦[tabSet s]{fullShare} f)

/-- What it hands back: the same of the padded table and the indices; its rows of the result, now the rows read through
    its indices; its read share of the whole shared table and the rest of its own 512 rows, both filled. -/
def tdRes (d : Dev nD) (c : Fin 2) (s : Fin 16) (cc : Fin τ.nSC) : sProp 𝕄 :=
  iprop((tLoc d ↦[tabSet s]{coreShare c} tp d) ∗ (iLoc d ↦[idxSet (wid c s)]{fullShare} ix d) ∗ (oLoc d ↦[outSet (wid c s)]{fullShare} rowsOf tp ix d)
    ∗ (shLoc d cc ↦{tileShare s} tp d) ∗ (shLoc d cc ↦[tabSet s]{keptShare} tp d))

/-- What a SparseCore is handed and hands back: its share of the padded table, and its sixteen workers' indices and rows. -/
def stRes (d : Dev nD) (c : Fin 2) : sProp 𝕄 :=
  iprop((tLoc d ↦{coreShare c} tp d) ∗ bigSep Finset.univ fun s : Fin 16 =>
    iprop((iLoc d ↦[idxSet (wid c s)]{fullShare} ix d) ∗ (oLoc d ↦[outSet (wid c s)]{fullShare} o₀ d)))
def dnRes (d : Dev nD) (c : Fin 2) : sProp 𝕄 :=
  iprop((tLoc d ↦{coreShare c} tp d) ∗ bigSep Finset.univ fun s : Fin 16 =>
    iprop((iLoc d ↦[idxSet (wid c s)]{fullShare} ix d) ∗ (oLoc d ↦[outSet (wid c s)]{fullShare} rowsOf tp ix d)))

def P : (K (F := F)).Pay (nD := nD) (Val := Elt F) (Name := ℕ) (U := UU) where
  st := fun q d c => match q with | 0 => stRes tp ix o₀ d (Fin.cast nCore_zero c)
  dn := fun q d c => match q with | 0 => dnRes tp ix d (Fin.cast nCore_zero c)
  go := fun q d c i => match q with | 0 => goRes tp ix o₀ d (Fin.cast nCore_zero c) (Fin.cast nSub_zero i) (coreOf c)
  td := fun q d c i => match q with | 0 => tdRes tp ix d (Fin.cast nCore_zero c) (Fin.cast nSub_zero i) (coreOf c)
  x := fun _ thr => match thr with
    | (d, .scVector c i) => bkit tp d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      unfold oxV at h
      rw [Finset.sum_apply, Finsupp.finsetSum_apply] at h
      obtain ⟨j, -, hj⟩ := Finset.exists_ne_zero_of_sum_ne_zero (Nat.pos_iff_ne_zero.mp h)
      rw [tallyAt_apply] at hj
      split at hj
      · next e =>
        obtain ⟨rfl, rfl⟩ := e
        rw [(K (F := F)).lev_V_reg d c (j.castLE hsub0) (show (sc_bar0 : Sem sig) ≠ (K (F := F)).go from sc_bar0_ne_go)]; exact ⟨le_rfl, by decide⟩
      · exact absurd rfl hj
  ox_tc := fun _ _ => rfl
  ox_sc := fun _ _ _ h => absurd rfl h
  ox_vc := by
    intro q d c i h
    obtain rfl : q = 0 := Subsingleton.elim _ _
    exact ⟨rfl, c.isLt, i.isLt⟩

/-! ## The values @main hands the SparseCores, and the task's coordinates -/

section Host

variable (m : (ℓ : Loc nD τ sig) → Buf (Elt F) ℓ)

/-- The padded table and the flat indices, as @main computes them from the arguments; the result's rows before the call. -/
def tpOf (d : Dev nD) : Buf (Elt F) (tLoc d) :=
  pad S8192x128 ![0, 0] ![0, 64] ![0, 0] (m (aLoc d)) (sitofp .f32 (constantI S_ 32 0#32)) pads_S8192x64_S8192x128_000_0640 h_S_
def ixOf (d : Dev nD) : Buf (Elt F) (iLoc d) := shapeCast S262144 (m (bLoc d)) shapeCasts_S256x32x32_S262144
def o₀Of (d : Dev nD) : Buf (Elt F) (oLoc d) := m (oLoc d)

end Host

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

end Cert.Proof.KI

end
-- ==== Proof.KISplit.lean ====
/-
  How a SparseCore's operands split among its sixteen tasks, and how the tasks' returns make them whole again.

  The 8192 rows of a table are sixteen pieces of 512 rows, pairwise disjoint, covering it: an array held whole is held
  piece by piece, at any share. Going out: the SparseCore's read share of the padded table goes piece s to task s; its
  workers' indices and result rows are already stated per task; the sequencer's own shared table, held outright at
  whatever it contains, goes piece s to task s. Coming back: task s returns a sixteenth read share of the WHOLE shared
  table and what it kept of piece s, all filled with the padded table. Read piece by piece, the sixteen read shares of
  piece n together with the kept share of piece n are piece n outright; the sixteen pieces are the table outright.
-/
import proofs.«204540_g20890720928596_cont_8to1_1350_21_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tp : (d : Dev nD) → Buf (Elt F) (tLoc d)) (ix : (d : Dev nD) → Buf (Elt F) (iLoc d)) (o₀ : (d : Dev nD) → Buf (Elt F) (oLoc d))

/-! ## The sixteen pieces of a table -/

omit [FloatOps F] in
theorem tabSets_disjoint : ∀ i ∈ (Finset.univ : Finset (Fin 16)), ∀ j ∈ (Finset.univ : Finset (Fin 16)), i ≠ j → Disjoint (tabSet i) (tabSet j) :=
  fun _ _ _ _ h => Rect.part_disjoint hdivT h
omit [FloatOps F] in
theorem tabSets_cover : (Finset.univ : Finset (Fin 16)).biUnion tabSet = Finset.univ := Rect.biUnion_part hdivT

omit [FloatOps F] in
theorem tPts_pieces (d : Dev nD) (q : PosShare TreeShare) (f : Buf (Elt F) (tLoc d)) :
    (tLoc d ↦{q} f : sProp 𝕄) = bigSep Finset.univ fun s : Fin 16 => tLoc d ↦[tabSet s]{q} f := by
  rw [← pointsTo_biUnion Finset.univ (ℓ := tLoc d) tabSet tabSets_disjoint, tabSets_cover]; try rfl
omit [FloatOps F] in
theorem shPts_pieces (d : Dev nD) (cc : Fin τ.nSC) (q : PosShare TreeShare) (f : Buf (Elt F) (shLoc d cc)) :
    (shLoc d cc ↦{q} f : sProp 𝕄) = bigSep Finset.univ fun s : Fin 16 => shLoc d cc ↦[tabSet s]{q} f := by
  rw [← pointsTo_biUnion Finset.univ (ℓ := shLoc d cc) tabSet tabSets_disjoint, tabSets_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The shared table: out of the sequencer's own buffers, and back -/

omit [FloatOps F] in
/-- The sequencer's own buffers are its SparseCore's shared table, at some contents, and the others. -/
theorem ownBufs_S (d : Dev nD) (cc : Fin τ.nSC) :
    (ownBufs (S d cc) : sProp 𝕄)
      = iprop((∃ f, shLoc d cc ↦{fullShare} f) ∗ bigSep ((ownRefs (τ := τ) (.scScalar cc)).erase (shRef cc)) fun b => iprop(∃ f, ((d, b) : Loc nD τ sig) ↦{fullShare} f)) := by
  unfold SparseCore.Cfg.ownBufs
  exact SparseCore.bigSep_erase' ((mem_ownRefs (p := Proc.scScalar cc) (b := shRef cc)).mpr rfl)

omit [FloatOps F] in
theorem piece_some (d : Dev nD) (cc : Fin τ.nSC) (s : Fin 16) (f : Buf (Elt F) (shLoc d cc)) :
    (shLoc d cc ↦[tabSet s]{fullShare} f : sProp 𝕄) ⊢ iprop(∃ g, shLoc d cc ↦[tabSet s]{fullShare} g) := by
  iintro H; iexists f; iexact H

omit [FloatOps F] in
/-- Held outright at any contents, the shared table is held outright piece by piece, each at some contents. -/
theorem sh_deal (d : Dev nD) (cc : Fin τ.nSC) (f : Buf (Elt F) (shLoc d cc)) :
    (shLoc d cc ↦{fullShare} f : sProp 𝕄) ⊢ bigSep Finset.univ fun s : Fin 16 => iprop(∃ g, shLoc d cc ↦[tabSet s]{fullShare} g) := by
  rw [shPts_pieces]
  exact SparseCore.ent (bigSep_mono fun s _ => piece_some d cc s f)

/-- The sixteen read shares of a piece and its kept share, at one contents, are the piece outright. -/
theorem piece_join (d : Dev nD) (cc : Fin τ.nSC) (n : Fin 16) :
    iprop((bigSep Finset.univ fun s : Fin 16 => shLoc d cc ↦[tabSet n]{tileShare s} tp d) ∗ shLoc d cc ↦[tabSet n]{keptShare} tp d)
      ⊢ (shLoc d cc ↦[tabSet n]{fullShare} tp d : sProp 𝕄) := by
  iintro ⟨Htoks, Hkept⟩
  iapply (Transfers.pointsTo_toks_join fullShare 16)
  isplitl [Hkept]; · iexact Hkept
  iexact Htoks

/-- The sixteen read shares of the whole table and the sixteen kept shares of its pieces, all at one contents, are the
    table outright. -/
theorem sh_rejoin (d : Dev nD) (cc : Fin τ.nSC) :
    iprop((bigSep Finset.univ fun s : Fin 16 => shLoc d cc ↦{tileShare s} tp d) ∗ bigSep Finset.univ fun s : Fin 16 => shLoc d cc ↦[tabSet s]{keptShare} tp d)
      ⊢ (shLoc d cc ↦{fullShare} tp d : sProp 𝕄) := by
  rw [bigSep_congr (fun s _ => shPts_pieces (F := F) d cc (tileShare s) (tp d)), bigSep_univ_comm, shPts_pieces (F := F) d cc fullShare (tp d), ← bigSep_sep']
  exact SparseCore.ent (bigSep_mono fun n _ => piece_join tp d cc n)

/-! ## The split -/

theorem vecSplit : (K (F := F)).VecSplit (P tp ix o₀) 0 := by
  intro d c
  show iprop(stRes tp ix o₀ d (Fin.cast nCore_zero c) ∗ ownBufs (S d (coreOf c))) ⊢ |={Set.univ}=> iprop(
      (bigSep Finset.univ fun i : Fin ((K (F := F)).nSub 0) => goRes tp ix o₀ d (Fin.cast nCore_zero c) (Fin.cast nSub_zero i) (coreOf c))
      ∗ ((bigSep Finset.univ fun i : Fin ((K (F := F)).nSub 0) => tdRes tp ix d (Fin.cast nCore_zero c) (Fin.cast nSub_zero i) (coreOf c))
          -∗ iprop(dnRes tp ix d (Fin.cast nCore_zero c) ∗ ownBufs (S d (coreOf c)))))
  generalize Fin.cast nCore_zero c = c'
  rw [bigSep_tasks (F := F) (fun i => goRes tp ix o₀ d c' i (coreOf c)), bigSep_tasks (F := F) (fun i => tdRes tp ix d c' i (coreOf c)), ownBufs_S]
  unfold stRes goRes tdRes dnRes
  simp only [bigSep_sep']
  rw [tPts_pieces]
  iintro ⟨⟨Ht, Hi, Ho⟩, ⟨%fsh, Hsh⟩, Hrest⟩; imodintro
  isplitl [Ht Hi Ho Hsh]
  · isplitl [Ht]; · iexact Ht
    isplitl [Hi]; · iexact Hi
    isplitl [Ho]; · iexact Ho
    iapply (sh_deal d (coreOf c) fsh); iexact Hsh
  iintro ⟨Ht, Hi, Ho, He, Hg⟩
  isplitl [Ht Hi Ho]
  · isplitl [Ht]; · iexact Ht
    isplitl [Hi]; · iexact Hi
    iexact Ho
  isplitl [He Hg]
  · iexists (tp d)
    iapply (sh_rejoin tp d (coreOf c))
    isplitl [He]; · iexact He
    iexact Hg
  iexact Hrest

end Cert.Proof.KI

end
-- ==== Proof.KIElem.lean ====
/-
  The launch element: what the ghost state holds before anything runs, and how it becomes each tile's barrier kit.

  There are thirty-two barrier cells, one per tile (two SparseCores of sixteen tiles). Each cell has one round of
  sixteen unit duties, one per tile of its SparseCore. The element funds every cell's round state, position and the
  duty tokens (tile i's in tile j's cell, i and j on one SparseCore). The launch hands over every barrier counter at
  zero (a barrier counter is a free semaphore of its tile: unscoped, and not the go signal's) and the credit for what
  the tiles owe: tile i owes one unit on each of the sixteen cells of its SparseCore, so, summed over i, each cell is
  credited sixteen units — exactly its own round, which its own tile waits for. Counters and round states make the
  cells' invariants. Invariants and "has reached round 0" are persistent and go to every tile; position, tokens and
  credit go to their own tile.
-/
import proofs.«204540_g20890720928596_cont_8to1_1350_21_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tp : (d : Dev nD) → Buf (Elt F) (tLoc d)) (ix : (d : Dev nD) → Buf (Elt F) (iLoc d)) (o₀ : (d : Dev nD) → Buf (Elt F) (oLoc d))

/-! ## Cells and tokens, indexed by tiles -/

abbrev Tile : Type := Dev nD × Fin τ.nSC × Fin τ.nSub
abbrev cellOf (x : Tile) : GSem nD τ sig := bcell x.1 x.2.1 x.2.2
/-- Tile x's token in the cell of tile j of its own SparseCore. -/
abbrev tokOf (p : Tile × Fin (grid0.bound 1)) : GSem nD τ sig × ℕ × ℕ := (bcell p.1.1 p.1.2.1 (p.2.castLE hsub0), 0, p.1.2.2.val)

omit [FloatOps F] in
theorem cellOf_inj : Function.Injective (cellOf : Tile → GSem nD τ sig) := by
  rintro ⟨d, c, i⟩ ⟨d', c', i'⟩ e
  simp only [cellOf, bcell, SparseCore.V, Prod.mk.injEq, Proc.scVector.injEq, and_true] at e
  obtain ⟨rfl, rfl, rfl⟩ := e
  rfl
omit [FloatOps F] in
theorem tokOf_inj : Function.Injective (tokOf : Tile × Fin (grid0.bound 1) → GSem nD τ sig × ℕ × ℕ) := by
  rintro ⟨⟨d, c, i⟩, j⟩ ⟨⟨d', c', i'⟩, j'⟩ e
  simp only [tokOf, bcell, SparseCore.V, Prod.mk.injEq, Proc.scVector.injEq, and_true, true_and] at e
  obtain ⟨⟨rfl, rfl, hj⟩, hi⟩ := e
  obtain rfl : j = j' := Fin.ext (congrArg Fin.val hj)
  obtain rfl : i = i' := Fin.ext hi
  rfl

def barCells : Finset (GSem nD τ sig) := Finset.univ.map ⟨cellOf, cellOf_inj⟩
def barToks : Finset (GSem nD τ sig × ℕ × ℕ) := Finset.univ.map ⟨tokOf, tokOf_inj⟩
def u₀ : UU := (initOf (K (F := F)).hsCells (K (F := F)).hsToks, (initOf barCells barToks, 1))

omit [FloatOps F] in
theorem on_cells (Φ : GSem nD τ sig → sProp 𝕄) : bigSep barCells Φ = bigSep Finset.univ fun x : Tile => Φ (cellOf x) := bigSep_map _
omit [FloatOps F] in
theorem on_toks : (bigSep barToks fun p => (dutyTok EB p.1 p.2.1 p.2.2 : sProp 𝕄))
    = bigSep Finset.univ fun x : Tile => bigSep Finset.univ fun j : Fin (grid0.bound 1) => dutyTok EB (bcell x.1 x.2.1 (j.castLE hsub0)) 0 x.2.2.val := by
  unfold barToks; rw [bigSep_map, bigSep_univ_prod]; rfl

omit [FloatOps F] in
theorem ownU_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## Counters and invariants -/

omit [FloatOps F] in
/-- A tile's barrier counter is among its free semaphores. -/
theorem bar_free : (SemLoc.reg sc_bar0 : SemLoc sig) ∈ ((Finset.univ.filter fun sm : SemLoc sig => ¬sm.isScoped .scVector).erase (.reg (K (F := F)).go)) :=
  Finset.mem_erase.mpr ⟨fun h => sc_bar0_ne_go (SemLoc.reg.inj h), Finset.mem_filter.mpr ⟨Finset.mem_univ _, by decide⟩⟩

theorem one_counter (x : Tile) : ((K (F := F)).vcSems0 x.1 x.2.1 x.2.2 : sProp 𝕄) ⊢ semVal (cellOf x) 0 := by
  unfold SparseCore.Cfg.vcSems0
  exact bigSep_elim (Φ := fun sm : SemLoc sig => (semVal (V x.1 x.2.1 x.2.2, sm) 0 : sProp 𝕄)) bar_free

theorem counters : ((K (F := F)).freeSems0 : sProp 𝕄) ⊢ bigSep barCells fun g => semVal g 0 := by
  rw [on_cells]; unfold SparseCore.Cfg.freeSems0
  iintro ⟨-, Hv⟩
  iapply (SparseCore.ent (bigSep_mono fun x _ => one_counter (F := F) x)); iexact Hv

theorem invariants : iprop((bigSep barCells fun g => (semVal g 0 : sProp 𝕄)) ∗ bigSep barCells fun g => roundState EB (bRd (F := F) tp) g 0)
    ⊢ |={Set.univ}=> iprop(∃ κ : GSem nD τ sig → ℕ, bigSep barCells fun g => cellInv EB (bRd (F := F) tp) (κ g) g) := by
  iintro H
  ihave Hb := (Rounds.bodies_intro EB (bRd (F := F) tp) barCells) $$ H
  imod (inv_alloc_family barCells (Rounds.body EB (bRd (F := F) tp)) ∅ (E := Set.univ)) $$ Hb with ⟨%κ, -, Hinv⟩
  imodintro; iexists κ; iexact Hinv

/-! ## The credit, cell by cell -/

omit [FloatOps F] in
/-- n single units on one cell are n units on it. -/
theorem units (g : GSem nD τ sig) (ι : HIx 1) (n : ℕ) : ∑ _ : Fin n, tallyAt g ι 1 = (tallyAt g ι n : CellTallies nD τ sig (HIx 1)) := by
  induction n with
  | zero => simp
  | succ n ih => rw [Fin.sum_univ_succ, ih, tallyAt_add, Nat.add_comm]

/-- From the launch a tile owes exactly its sixteen arrivals. -/
theorem owed (d : Dev nD) (c : Fin τ.nSC) (i : Fin τ.nSub) : (P (F := F) tp ix o₀).oxFrom 0 (V d c i) = oxV d c := by
  have h := (P (F := F) tp ix o₀).oxFrom_step (0 : Fin 1) (V d c i)
  rw [(P tp ix o₀).oxFrom_end _ (n := (0 : Fin 1).val + 1) le_rfl, add_zero] at h
  exact h

omit [FloatOps F] in
/-- On one SparseCore: every tile's sixteen single units, one per cell, are every cell's sixteen units. -/
theorem by_cell (d : Dev nD) (c : Fin τ.nSC) :
    (bigSep Finset.univ fun _ : Fin τ.nSub => (cred (oxV d c) : sProp 𝕄))
      ⊢ bigSep Finset.univ fun i : Fin τ.nSub => cred (tallyAt (bcell d c i) (some 0) (grid0.bound 1)) := by
  have e : (bigSep Finset.univ fun _ : Fin τ.nSub => (cred (oxV d c) : sProp 𝕄))
      = bigSep Finset.univ fun j : Fin (grid0.bound 1) => cred (∑ _ : Fin τ.nSub, tallyAt (bcell d c (j.castLE hsub0)) (some 0) 1) := by
    unfold oxV
    rw [bigSep_congr (fun _ _ => SparseCore.Cfg.cred_finsum Finset.univ _), bigSep_univ_comm]
    exact bigSep_congr fun j _ => (SparseCore.Cfg.cred_finsum Finset.univ _).symm
  rw [e]
  exact Entails.of_eq (bigSep_congr fun j _ => by rw [units]; rfl)

theorem credit : ((P (F := F) tp ix o₀).oxCred : sProp 𝕄) ⊢ bigSep Finset.univ fun x : Tile => cred (tallyAt (cellOf x) (some 0) (grid0.bound 1)) := by
  unfold SparseCore.Cfg.Pay.oxCred
  rw [SparseCore.Cfg.bigSep_threads (fun thr : Thread nD τ => (cred ((P (F := F) tp ix o₀).oxFrom 0 thr) : sProp 𝕄))]
  simp only [owed]
  refine sep_elim_right.trans (sep_elim_right.trans ?_)
  rw [bigSep_univ_prod, bigSep_univ_prod (fun x : Tile => (cred (tallyAt (cellOf x) (some 0) (grid0.bound 1)) : sProp 𝕄))]
  refine bigSep_mono fun d _ => ?_
  rw [bigSep_univ_prod, bigSep_univ_prod (fun ci : Fin τ.nSC × Fin τ.nSub => (cred (tallyAt (cellOf (d, ci)) (some 0) (grid0.bound 1)) : sProp 𝕄))]
  exact bigSep_mono fun c _ => by_cell (F := F) d c

/-! ## Each tile its kit -/

theorem Px_T (d : Dev nD) : (bigSep Finset.univ fun q : Fin 1 => (P (F := F) tp ix o₀).x q (SparseCore.T d)) = iprop(emp) :=
  bigSep_univ_of_subsingleton (0 : Fin 1)
theorem Px_S (d : Dev nD) (c : Fin τ.nSC) : (bigSep Finset.univ fun q : Fin 1 => (P (F := F) tp ix o₀).x q (S d c)) = iprop(emp) :=
  bigSep_univ_of_subsingleton (0 : Fin 1)
theorem Px_V (d : Dev nD) (c : Fin τ.nSC) (i : Fin τ.nSub) :
    (bigSep Finset.univ fun q : Fin 1 => (P (F := F) tp ix o₀).x q (V d c i)) = bkit tp d c i :=
  bigSep_univ_of_subsingleton (0 : Fin 1)

omit [FloatOps F] in
theorem bigSep_emp' {I : Type} (s : Finset I) : (bigSep s fun _ => iprop(emp)) = (iprop(emp) : sProp 𝕄) := bigSep_emp_const s

/-- The persistent part, the same for every tile. -/
abbrev common (κ : GSem nD τ sig → ℕ) : sProp 𝕄 :=
  iprop((bigSep Finset.univ fun x : Tile => cellInv EB (bRd (F := F) tp) (κ (cellOf x)) (cellOf x)) ∗ bigSep Finset.univ fun x : Tile => reached EB (cellOf x) 0)
/-- A tile's own part. -/
abbrev own1 (x : Tile) : sProp 𝕄 :=
  iprop(atPos EB (cellOf x) 0 ∅ 0
    ∗ (bigSep Finset.univ fun j : Fin (grid0.bound 1) => dutyTok EB (bcell x.1 x.2.1 (j.castLE hsub0)) 0 x.2.2.val)
    ∗ cred (tallyAt (cellOf x) (some 0) (grid0.bound 1)))

theorem kit_of (κ : GSem nD τ sig → ℕ) (x : Tile) : iprop(common (F := F) tp κ ∗ own1 x) ⊢ (bkit (F := F) tp x.1 x.2.1 x.2.2 : sProp 𝕄) := by
  obtain ⟨d, c, i⟩ := x
  unfold bkit
  iintro ⟨⟨#Hinv, #Hr⟩, Hat, Htok, Hcred⟩
  isplitr
  · iexists κ
    iapply (bigSep_intro_persistent (S := (Finset.univ : Finset (Fin (grid0.bound 1))))
      (R := bigSep Finset.univ fun x : Tile => cellInv EB (bRd (F := F) tp) (κ (cellOf x)) (cellOf x))
      fun j _ => bigSep_elim (Φ := fun x : Tile => (cellInv EB (bRd (F := F) tp) (κ (cellOf x)) (cellOf x) : sProp 𝕄)) (i := (d, c, j.castLE hsub0)) (Finset.mem_univ _))
    iexact Hinv
  isplitl [Htok]; · iexact Htok
  isplitr
  · iapply (bigSep_intro_persistent (S := (Finset.univ : Finset (Fin (grid0.bound 1)))) (R := bigSep Finset.univ fun x : Tile => reached EB (cellOf x) 0)
      fun j _ => bigSep_elim (Φ := fun x : Tile => (reached EB (cellOf x) 0 : sProp 𝕄)) (i := (d, c, j.castLE hsub0)) (Finset.mem_univ _))
    iexact Hr
  isplitl [Hat]; · iexact Hat
  iexact Hcred

theorem hu₀ : iprop(ownU (u₀ (F := F)) ∗ (P (F := F) tp ix o₀).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P tp ix o₀).x q thr) : sProp 𝕄) := by
  unfold u₀
  iintro ⟨Hu, Hcred, Hfree⟩
  ihave H := (ownU_parts _ _) $$ Hu
  icases H with ⟨HH, HB⟩
  imod (Rounds.fund EB (bRd (F := F) tp) barCells barToks) $$ HB with ⟨Hst, Hr, Hat, Htok⟩
  ihave Hsems := (counters (F := F)) $$ Hfree
  imod (invariants (F := F) tp) $$ [Hsems Hst] with ⟨%κ, Hinv⟩
  · isplitl [Hsems] <;> iassumption
  ihave Hcr := (credit tp ix o₀) $$ Hcred
  ihave Hinv' := (Entails.of_eq (on_cells (F := F) fun g => cellInv EB (bRd (F := F) tp) (κ g) g)) $$ Hinv
  ihave Hr' := (Entails.of_eq (on_cells (F := F) fun g => reached EB g 0)) $$ Hr
  ihave Hat' := (Entails.of_eq (on_cells (F := F) fun g => atPos EB g 0 ∅ 0)) $$ Hat
  ihave Htok' := (Entails.of_eq (on_toks (F := F))) $$ Htok
  imodintro
  isplitl [HH]; · iexact HH
  isplitr; · rw [bigSep_emp']; iempintro
  rw [SparseCore.Cfg.bigSep_threads (fun thr : Thread nD τ => bigSep Finset.univ fun q : Fin 1 => (P tp ix o₀).x q thr)]
  simp only [Px_T, Px_S, Px_V, bigSep_emp']
  isplitr; · iempintro
  isplitr; · iempintro
  iapply (bigSep_with_persistent (R := common (F := F) tp κ) (Φ := own1 (F := F)) fun x _ => kit_of (F := F) tp κ x)
  isplitl [Hinv' Hr']
  · isplitl [Hinv']; · iexact Hinv'
    iexact Hr'
  unfold own1
  rw [bigSep_sep', bigSep_sep']
  isplitl [Hat']; · iexact Hat'
  isplitl [Htok']; · iexact Htok'
  iexact Hcr

end Cert.Proof.KI

end
-- ==== Proof.KIBodyLemmas.lean ====
/-
  What one tile's task is proved from, at a symbolic tile.

  The geometry: the tile's 512 rows of the padded and of the shared table, its 8192 flat indices and the 64 blocks of
  128 rows that make up its 8192 rows of the result are the pieces the arrays are dealt in. The tile's own semaphores
  and buffers among those it is handed. The barrier's round: a read share of the tile's filled rows goes to every
  tile, a read share of every piece comes back, together a read share of the whole shared table. The value: the row a
  gather delivers at place (p, c) of chunk k is row ix(8192·w + 128·k + p) of the padded table at column c, which is
  what the rows read through the flat indices hold at row 8192·w + 128·k + p.
-/
import proofs.«204540_g20890720928596_cont_8to1_1350_21_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays as the task's program names them -/

abbrev tV : Memref sig .scVector .hbm S8192x128 .f32 := Memref.whole main_v1_scv
abbrev iV : Memref sig .scVector .hbm S262144 .i32 := Memref.whole main_v0_scv
abbrev oV : Memref sig .scVector .hbm S262144x128 .f32 := Memref.whole main_v2_scv
abbrev lV : Memref sig .scVector .vmem S8192 .i32 := Memref.whole cc0_scratch0
abbrev r1V : Memref sig .scVector .vmem S128x128 .f32 := Memref.whole cc0_scratch1
abbrev r2V : Memref sig .scVector .vmem S128x128 .f32 := Memref.whole cc0_scratch2
abbrev shV : Memref sig .scVector .shared S8192x128 .f32 := Memref.whole cc0_scratch3

/-- The tile's 512 rows of the padded table and of the shared table, its 8192 flat indices, and block r of 128 rows of
    its 8192 rows of the result, as the program slices them. -/
abbrev tabRectK (L : grid0.Coords) : Rect S8192x128 := Rect.unit (s := S8192x128) (k0_off1 L) S512x128.size (k0_off1_inb L)
abbrev idxRectK (L : grid0.Coords) : Rect S262144 := Rect.unit (s := S262144) (k0_off2 L) S8192.size (k0_off2_inb L)
abbrev blkRectK (L : grid0.Coords) (r : Fin 64) : Rect S262144x128 :=
  Rect.unit (s := S262144x128) (k0_off3 L (BitVec.ofNat 32 (128 * r.val))) S128x128.size (k0_off3_inb L r)
abbrev tSl (L : grid0.Coords) : Memref sig .scVector .hbm S512x128 .f32 := (tV).slice (tabRectK L) (fun _ => rfl)
abbrev shSl (L : grid0.Coords) : Memref sig .scVector .shared S512x128 .f32 := (shV).slice (tabRectK L) (fun _ => rfl)
abbrev iSl (L : grid0.Coords) : Memref sig .scVector .hbm S8192 .i32 := (iV).slice (idxRectK L) (fun _ => rfl)
abbrev oSl (L : grid0.Coords) (r : Fin 64) : Memref sig .scVector .hbm S128x128 .f32 := (oV).slice (blkRectK L r) (fun _ => rfl)

/-- Block r of the tile's rows of the result; the rows from block k on. -/
abbrev blkSet (L : grid0.Coords) (r : Fin 64) : Finset S262144x128.Idx := (blkRectK L r).set
def restSet (L : grid0.Coords) (k : ℕ) : Finset S262144x128.Idx :=
  (outSet (wid (cL L) (jL L))).filter fun j => 8192 * (wid (cL L) (jL L)).val + 128 * k ≤ (j 0).val

section Geometry

variable (L : grid0.Coords)

theorem tabRectK_eq : tabRectK L = tabPart (jL L) := by
  unfold tabRectK tabPart Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

theorem idxRectK_eq : idxRectK L = idxPart (wid (cL L) (jL L)) := by
  unfold idxRectK idxPart Rect.part Rect.block
  congr 1 <;> funext a
  · rw [k0_off2_eq]
    match a with
    | 0 => simp [Shape.partIx, Shape.partSize, wid]; omega
  · match a with
    | 0 => simp [Shape.partSize]

theorem set_tSl : (tSl L).view.set = tabSet (jL L) := by
  show ((tV).view.slice (tabRectK L)).set = (tabPart (jL L)).set
  rw [View.set_slice, tabRectK_eq]; exact Finset.map_refl
theorem set_shSl : (shSl L).view.set = tabSet (jL L) := by
  show ((shV).view.slice (tabRectK L)).set = (tabPart (jL L)).set
  rw [View.set_slice, tabRectK_eq]; exact Finset.map_refl
theorem set_iSl : (iSl L).view.set = idxSet (wid (cL L) (jL L)) := by
  show ((iV).view.slice (idxRectK L)).set = (idxPart (wid (cL L) (jL L))).set
  rw [View.set_slice, idxRectK_eq]; exact Finset.map_refl
theorem set_oSl (r : Fin 64) : (oSl L r).view.set = blkSet L r := by
  show ((oV).view.slice (blkRectK L r)).set = (blkRectK L r).set
  rw [View.set_slice]; exact Finset.map_refl

end Geometry

/-! ## The 64 blocks of the tile's rows of the result -/

section OutGeometry

variable (L : grid0.Coords)

theorem wid_val : (wid (cL L) (jL L)).val = 2 * (L 1).val + (L 0).val := rfl

theorem mem_outSet (w : Fin 32) (j : S262144x128.Idx) :
    j ∈ outSet w ↔ 8192 * w.val ≤ (j 0).val ∧ (j 0).val < 8192 * w.val + 8192 := by
  show j ∈ (Rect.unit _ _ _).set ↔ _
  rw [Rect.mem_set_unit]
  constructor
  · intro h; have h0 := h 0; simp [Shape.partIx, Shape.partSize] at h0; omega
  · intro h a
    match a with
    | 0 => simp [Shape.partIx, Shape.partSize]; omega
    | 1 => simp [Shape.partIx, Shape.partSize]; exact (j 1).isLt

theorem mem_blkSet (r : Fin 64) (j : S262144x128.Idx) :
    j ∈ blkSet L r ↔ 16384 * (L 1).val + 8192 * (L 0).val + 128 * r.val ≤ (j 0).val
      ∧ (j 0).val < 16384 * (L 1).val + 8192 * (L 0).val + 128 * r.val + 128 := by
  show j ∈ (Rect.unit _ _ _).set ↔ _
  rw [Rect.mem_set_unit, k0_off3_eq]
  constructor
  · intro h; have h0 := h 0; simp at h0; omega
  · intro h a
    match a with
    | 0 => simp; omega
    | 1 => simp; exact (j 1).isLt

theorem mem_restSet (k : ℕ) (j : S262144x128.Idx) :
    j ∈ restSet L k ↔ 16384 * (L 1).val + 8192 * (L 0).val + 128 * k ≤ (j 0).val
      ∧ (j 0).val < 16384 * (L 1).val + 8192 * (L 0).val + 8192 := by
  unfold restSet; rw [Finset.mem_filter, mem_outSet, wid_val]; omega

theorem restSet_zero : restSet L 0 = outSet (wid (cL L) (jL L)) := by
  ext j; rw [mem_restSet, mem_outSet, wid_val]; omega
theorem restSet_last : restSet L 64 = ∅ :=
  Finset.eq_empty_of_forall_notMem fun j hj => by rw [mem_restSet] at hj; omega
theorem mem_blkSet' (k : ℕ) (hk : k < 64) (j : S262144x128.Idx) :
    j ∈ blkSet L ⟨k, hk⟩ ↔ 16384 * (L 1).val + 8192 * (L 0).val + 128 * k ≤ (j 0).val
      ∧ (j 0).val < 16384 * (L 1).val + 8192 * (L 0).val + 128 * k + 128 := mem_blkSet L ⟨k, hk⟩ j
theorem blk_sub_rest (k : ℕ) (hk : k < 64) : blkSet L ⟨k, hk⟩ ⊆ restSet L k := fun j hj => by
  rw [mem_blkSet'] at hj; rw [mem_restSet]; omega
theorem rest_sdiff (k : ℕ) (hk : k < 64) : restSet L k \ blkSet L ⟨k, hk⟩ = restSet L (k + 1) := by
  ext j; rw [Finset.mem_sdiff, mem_restSet, mem_blkSet', mem_restSet]; omega

end OutGeometry

/-! ## The tile's own semaphores and buffers -/

section Own

variable (d : Dev nD) (L : grid0.Coords)

/-- The six transfer semaphores of the task: the two synchronous copies', the two gathers', the two stores'. -/
abbrev cTab (d : Dev nD) (c : Fin τ.nSC) (i : Fin τ.nSub) : GSem nD τ sig := (V d c i, .dma cc0_scoped0.sem)
abbrev cIdx (d : Dev nD) (c : Fin τ.nSC) (i : Fin τ.nSub) : GSem nD τ sig := (V d c i, .dma cc0_scoped1.sem)
abbrev cG1 (d : Dev nD) (c : Fin τ.nSC) (i : Fin τ.nSub) : GSem nD τ sig := (V d c i, .dma cc0_scratch4.sem)
abbrev cG2 (d : Dev nD) (c : Fin τ.nSC) (i : Fin τ.nSub) : GSem nD τ sig := (V d c i, .dma cc0_scratch5.sem)
abbrev cS1 (d : Dev nD) (c : Fin τ.nSC) (i : Fin τ.nSub) : GSem nD τ sig := (V d c i, .dma cc0_scratch6.sem)
abbrev cS2 (d : Dev nD) (c : Fin τ.nSC) (i : Fin τ.nSub) : GSem nD τ sig := (V d c i, .dma cc0_scratch7.sem)

theorem dcell_mem (s : DmaSem sig) (hs : (SemLoc.dma s : SemLoc sig).isScoped .scVector = true) :
    ((V d (cV L) (jV L), SemLoc.dma s) : GSem nD τ sig) ∈ ownCells (V d (cV L) (jV L)) :=
  (mem_ownCells (g := ((V d (cV L) (jV L), SemLoc.dma s) : GSem nD τ sig))).mpr ⟨rfl, hs⟩

theorem dcell_ne {thr : Thread nD τ} {s s' : DmaSem sig} (h : s ≠ s') :
    ((thr, SemLoc.dma s) : GSem nD τ sig) ≠ (thr, SemLoc.dma s') :=
  fun e => h (SemLoc.dma.inj (Prod.mk.inj e).2)

/-- The tile's own semaphores at zero: the six the task names, and the rest. -/
theorem ownSems0_V : ∃ R : sProp 𝕄,
    (ownSems0 (V d (cV L) (jV L)) : sProp 𝕄)
      = iprop(semVal (cTab d (cV L) (jV L)) 0 ∗ semVal (cIdx d (cV L) (jV L)) 0 ∗ semVal (cG1 d (cV L) (jV L)) 0 ∗ semVal (cG2 d (cV L) (jV L)) 0
          ∗ semVal (cS1 d (cV L) (jV L)) 0 ∗ semVal (cS2 d (cV L) (jV L)) 0 ∗ R) := by
  apply Exists.intro
  unfold SparseCore.Cfg.ownSems0
  rw [SparseCore.bigSep_erase' (dcell_mem d L cc0_scoped0.sem (by decide)),
    SparseCore.bigSep_erase' (Finset.mem_erase.mpr ⟨dcell_ne (show cc0_scoped1.sem ≠ cc0_scoped0.sem by decide), dcell_mem d L cc0_scoped1.sem (by decide)⟩),
    SparseCore.bigSep_erase' (Finset.mem_erase.mpr ⟨dcell_ne (show cc0_scratch4.sem ≠ cc0_scoped1.sem by decide),
      Finset.mem_erase.mpr ⟨dcell_ne (show cc0_scratch4.sem ≠ cc0_scoped0.sem by decide), dcell_mem d L cc0_scratch4.sem (by decide)⟩⟩),
    SparseCore.bigSep_erase' (Finset.mem_erase.mpr ⟨dcell_ne (show cc0_scratch5.sem ≠ cc0_scratch4.sem by decide),
      Finset.mem_erase.mpr ⟨dcell_ne (show cc0_scratch5.sem ≠ cc0_scoped1.sem by decide),
      Finset.mem_erase.mpr ⟨dcell_ne (show cc0_scratch5.sem ≠ cc0_scoped0.sem by decide), dcell_mem d L cc0_scratch5.sem (by decide)⟩⟩⟩),
    SparseCore.bigSep_erase' (Finset.mem_erase.mpr ⟨dcell_ne (show cc0_scratch6.sem ≠ cc0_scratch5.sem by decide),
      Finset.mem_erase.mpr ⟨dcell_ne (show cc0_scratch6.sem ≠ cc0_scratch4.sem by decide),
      Finset.mem_erase.mpr ⟨dcell_ne (show cc0_scratch6.sem ≠ cc0_scoped1.sem by decide),
      Finset.mem_erase.mpr ⟨dcell_ne (show cc0_scratch6.sem ≠ cc0_scoped0.sem by decide), dcell_mem d L cc0_scratch6.sem (by decide)⟩⟩⟩⟩),
    SparseCore.bigSep_erase' (Finset.mem_erase.mpr ⟨dcell_ne (show cc0_scratch7.sem ≠ cc0_scratch6.sem by decide),
      Finset.mem_erase.mpr ⟨dcell_ne (show cc0_scratch7.sem ≠ cc0_scratch5.sem by decide),
      Finset.mem_erase.mpr ⟨dcell_ne (show cc0_scratch7.sem ≠ cc0_scratch4.sem by decide),
      Finset.mem_erase.mpr ⟨dcell_ne (show cc0_scratch7.sem ≠ cc0_scoped1.sem by decide),
      Finset.mem_erase.mpr ⟨dcell_ne (show cc0_scratch7.sem ≠ cc0_scoped0.sem by decide), dcell_mem d L cc0_scratch7.sem (by decide)⟩⟩⟩⟩⟩)]

theorem ref_ne {p : Proc τ} {b b' : Ref sig p.kind} (h : b ≠ b') : p.devRef b ≠ p.devRef b' :=
  fun e => h (Proc.devRef_injective _ e)

/-- The tile's own buffers: the index list and the two row buffers, each at some contents, and the rest. -/
theorem ownBufs_V : ∃ R : sProp 𝕄,
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ R) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- What the launch has the tile owe for the barrier is owed at the call's index, never at the index of the task's own
    waits. -/
theorem oxV_none (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

end Own

/-! ## The task -/

section Tile

variable [FloatOps F]
variable (tp : (d : Dev nD) → Buf (Elt F) (tLoc d)) (ix : (d : Dev nD) → Buf (Elt F) (iLoc d)) (o₀ : (d : Dev nD) → Buf (Elt F) (oLoc d))
variable (d : Dev nD) (L : grid0.Coords)

omit [FloatOps F] in
theorem pts_tSl (q : PosShare TreeShare) (f : Buf (Elt F) (tLoc d)) :
    ((tSl L).view.loc (V d (cV L) (jV L)) ↦[(tSl L).view.set]{q} f : sProp 𝕄) = tLoc d ↦[tabSet (jL L)]{q} f := by
  rw [set_tSl]
omit [FloatOps F] in
theorem pts_shSl (q : PosShare TreeShare) (f : Buf (Elt F) (shLoc d (cV L))) :
    ((shSl L).view.loc (V d (cV L) (jV L)) ↦[(shSl L).view.set]{q} f : sProp 𝕄) = shLoc d (cV L) ↦[tabSet (jL L)]{q} f := by
  rw [set_shSl]; rfl
omit [FloatOps F] in
theorem pts_iSl (q : PosShare TreeShare) (f : Buf (Elt F) (iLoc d)) :
    ((iSl L).view.loc (V d (cV L) (jV L)) ↦[(iSl L).view.set]{q} f : sProp 𝕄) = iLoc d ↦[idxSet (wid (cL L) (jL L))]{q} f := by
  rw [set_iSl]
omit [FloatOps F] in
theorem pts_oSl (r : Fin 64) (q : PosShare TreeShare) (f : Buf (Elt F) (oLoc d)) :
    ((oSl L r).view.loc (V d (cV L) (jV L)) ↦[(oSl L r).view.set]{q} f : sProp 𝕄) = oLoc d ↦[blkSet L r]{q} f := by
  rw [set_oSl]
omit [FloatOps F] in
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl
omit [FloatOps F] in
theorem pts_r1V (f : Buf (Elt F) ((V d (cV L) (jV L)).loc cc0_scratch1)) :
    ((r1V).view.loc (V d (cV L) (jV L)) ↦{fullShare} f : sProp 𝕄) = (V d (cV L) (jV L)).loc cc0_scratch1 ↦{fullShare} f := rfl
omit [FloatOps F] in
theorem pts_r2V (f : Buf (Elt F) ((V d (cV L) (jV L)).loc cc0_scratch2)) :
    ((r2V).view.loc (V d (cV L) (jV L)) ↦{fullShare} f : sProp 𝕄) = (V d (cV L) (jV L)).loc cc0_scratch2 ↦{fullShare} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-! ## The barrier's round -/

omit [FloatOps F] in
theorem bRd_duties₀ (c : Fin τ.nSC) (j : Fin τ.nSub) :
    (bRd (F := F) tp).duties (bcell d c j) 0 = (Finset.univ : Finset (Fin τ.nSub)).image Fin.val := by
  show (if isBar (bcell d c j) ∧ (0 : ℕ) = 0 then (Finset.univ : Finset (Fin τ.nSub)).image Fin.val else ∅) = _
  exact if_pos ⟨isBar_bcell d c j, rfl⟩
omit [FloatOps F] in
theorem bRd_duty (c : Fin τ.nSC) (j i : Fin τ.nSub) : i.val ∈ (bRd (F := F) tp).duties (bcell d c j) 0 := by
  rw [bRd_duties₀]; exact Finset.mem_image_of_mem _ (Finset.mem_univ i)
omit [FloatOps F] in
theorem bRd_expect₀ (c : Fin τ.nSC) (j : Fin τ.nSub) : 0 + grid0.bound 1 = (bRd (F := F) tp).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

omit [FloatOps F] in
/-- The tile's filled rows of the shared table, dealt: what it keeps, and a read share for each tile's round. -/
theorem give_shares :
    (shLoc d (cV L) ↦[tabSet (jL L)]{fullShare} tp d : sProp 𝕄)
      ⊢ iprop((shLoc d (cV L) ↦[tabSet (jL L)]{keptShare} tp d)
          ∗ bigSep Finset.univ fun j : Fin (grid0.bound 1) => (bRd (F := F) tp).payload (bcell d (cV L) (j.castLE hsub0)) 0 (jV L).val) := by
  refine (Transfers.pointsTo_toks_split fullShare 16).trans (sep_mono_r (Entails.of_eq (bigSep_congr fun j _ => ?_)))
  show _ = bPay tp (bcell d (cV L) (j.castLE hsub0)) (jV L).val
  unfold bPay; dsimp only
  rw [dif_pos (show (jV L).val < 16 from (jV L).isLt)]; rfl

omit [FloatOps F] in
theorem tabSets_disjoint : ∀ i ∈ (Finset.univ : Finset (Fin 16)), ∀ j ∈ (Finset.univ : Finset (Fin 16)), i ≠ j → Disjoint (tabSet i) (tabSet j) :=
  fun i _ j _ h => Rect.part_disjoint hdivT h
omit [FloatOps F] in
theorem tabSets_cover : (Finset.univ : Finset (Fin 16)).biUnion tabSet = Finset.univ := Rect.biUnion_part hdivT

omit [FloatOps F] in
/-- What the tile's own round hands it: a read share of each of the sixteen pieces, that is of the whole shared table. -/
theorem take_shares :
    (bigSep ((bRd (F := F) tp).duties (bcell d (cV L) (jV L)) 0 \ ∅) fun m => (bRd (F := F) tp).payload (bcell d (cV L) (jV L)) 0 m)
      ⊢ (shLoc d (cV L) ↦{tileShare (jL L)} tp d : sProp 𝕄) := by
  rw [Finset.sdiff_empty, bRd_duties₀,
    show (Finset.univ : Finset (Fin τ.nSub)).image Fin.val = Finset.univ.map ⟨Fin.val, Fin.val_injective⟩ from (Finset.map_eq_image ⟨Fin.val, Fin.val_injective⟩ _).symm, bigSep_map,
    ← tabSets_cover, pointsTo_biUnion Finset.univ (ℓ := shLoc d (cV L)) tabSet tabSets_disjoint]
  refine Entails.of_eq (bigSep_congr fun n _ => ?_)
  show bPay tp (bcell d (cV L) (jV L)) n.val = _
  unfold bPay; dsimp only
  rw [dif_pos (show n.val < 16 from n.isLt)]; rfl

/-- The words the gathers read are row numbers: whatever window of the list a gather reads, after the copy that filled
    the list with the tile's entries of the flat indices, each word is one of those entries, below 8192. -/
theorem list_inb (fl : Buf (Elt F) ((lV).view.loc (V d (cV L) (jV L)))) (pay : S8192.Idx → Elt F .i32)
    (hpay : ∀ x, (pay x).toNat < 8192) (off : Fin 1 → Nat) (h : ∀ a, off a + S128.size a ≤ S8192.size a) :
    ∀ x, (((lV).slice (Rect.unit (s := S8192) off S128.size h) (fun _ => rfl)).view.read (Elt F)
        (View.write (Elt F) (lV).view fl pay Finset.univ) x).toNat < S8192x128.size gathers_S8192x128_S128x128.axis := by
  intro x
  rw [show View.write (Elt F) (lV).view fl pay Finset.univ = pay from View.write_whole_univ cc0_scratch0 fl pay]
  exact hpay _

omit [FloatOps F] in
/-- The rows from block r on are block r and the rows from the next block on. -/
theorem peel (k k' : ℕ) (hk : k < 64) (hk' : k' = k + 1) (q : PosShare TreeShare) (f : Buf (Elt F) (oLoc d)) :
    (oLoc d ↦[restSet L k]{q} f : sProp 𝕄) ⊣⊢ iprop((oLoc d ↦[blkSet L ⟨k, hk⟩]{q} f) ∗ oLoc d ↦[restSet L k']{q} f) := by
  subst hk'; rw [← rest_sdiff L k hk]; exact pointsTo_split_subset (blk_sub_rest L k hk)

omit [FloatOps F] in
/-- Block k of the tile's rows of the result, addressed through the offset word of its slice. -/
theorem pts_blk (k : ℕ) (hk : k < 64) (c : BitVec 32) (hc : c = BitVec.ofNat 32 (128 * k))
    (h : ∀ a, k0_off3 L c a + S128x128.size a ≤ S262144x128.size a) (q : PosShare TreeShare) (f : Buf (Elt F) (oLoc d)) :
    (((oV).slice (Rect.unit (s := S262144x128) (k0_off3 L c) S128x128.size h) (fun _ => rfl)).view.loc (V d (cV L) (jV L))
        ↦[((oV).slice (Rect.unit (s := S262144x128) (k0_off3 L c) S128x128.size h) (fun _ => rfl)).view.set]{q} f : sProp 𝕄)
      = oLoc d ↦[blkSet L ⟨k, hk⟩]{q} f := by
  subst hc; exact pts_oSl (F := F) d L ⟨k, hk⟩ q f

omit [FloatOps F] in
/-- A read share cut in three: what is left after two read tokens, and the two tokens. -/
theorem two_toks {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ ℓ ↦{Transfers.shareTokN q 1} f) := by
  have h1 : (ℓ ↦{q} f : sProp 𝕄) ⊣⊢ iprop((ℓ ↦{q.left} f) ∗ ℓ ↦{q.right} f) := pointsTo_share (PosShare.mem_left_op_right q)
  have h2 : (ℓ ↦{q.left} f : sProp 𝕄) ⊣⊢ iprop((ℓ ↦{q.left.left} f) ∗ ℓ ↦{q.left.right} f) := pointsTo_share (PosShare.mem_left_op_right q.left)
  constructor
  · iintro H
    ihave H1 := h1.1 $$ H
    icases H1 with ⟨Hl, Hr⟩
    ihave H2 := h2.1 $$ Hl
    icases H2 with ⟨Hll, Hlr⟩
    isplitl [Hll]; · iexact Hll
    isplitl [Hr]; · iexact Hr
    iexact Hlr
  · iintro ⟨Hll, Hr, Hlr⟩
    iapply h1.2
    isplitl [Hll Hlr]
    · iapply h2.2
      isplitl [Hll]; · iexact Hll
      iexact Hlr
    · iexact Hr

omit [FloatOps F] in
theorem pts_rest0 (q : PosShare TreeShare) (f : Buf (Elt F) (oLoc d)) :
    (oLoc d ↦[outSet (wid (cL L) (jL L))]{q} f : sProp 𝕄) = oLoc d ↦[restSet L 0]{q} f := by rw [restSet_zero]

omit [FloatOps F] in
/-- After the copy of the tile's rows of the padded table into the same rows of the shared table, those rows of the
    shared table hold the padded table's. -/
theorem sh_filled (fsh : Buf (Elt F) (shLoc d (cV L))) (pay : S512x128.Idx → Elt F .f32)
    (hpay : pay = ReadAs.same.apply ((tSl L).view.read (Elt F) (tp d))) (q : PosShare TreeShare) :
    ((shSl L).view.loc (V d (cV L) (jV L)) ↦[(shSl L).view.set]{q} (shSl L).view.writes (Elt F) fsh [⟨Rect.whole S512x128, pay⟩] : sProp 𝕄)
      = shLoc d (cV L) ↦[tabSet (jL L)]{q} tp d := by
  rw [pts_shSl]
  refine pointsTo_congr fun i hi => ?_
  rw [← set_shSl L] at hi
  obtain ⟨x, -, rfl⟩ := Finset.mem_map.mp hi
  have h1 : (shSl L).view.writes (Elt F) fsh [⟨Rect.whole S512x128, pay⟩] ((shSl L).view.emb x) = pay x :=
    congrFun (View.read_writes_whole (shSl L).view fsh pay) x
  rw [h1, hpay]; rfl

omit [FloatOps F] in
/-- Reading back a row buffer whose newest piece is whole gives that piece. -/
theorem read_newest {κ : Kind} {sp : Space} {s : Shape} {e : EltTy} (v : View sig κ sp s e) (f : v.ty.Contents (Elt F))
    (g : s.Idx → Elt F e) (rest : List (View.Piece (Elt F) s e)) :
    v.read (Elt F) (v.writes (Elt F) f (⟨Rect.whole s, g⟩ :: rest)) = g := by
  funext y
  have h := View.read_writes_cons_emb v f (Rect.whole s) g rest y
  rwa [Rect.emb_whole_apply] at h

omit [FloatOps F] in
/-- Entry j of a list of one axis, numbered in row-major order, is entry j. -/
theorem rowMajor_symm_one (n : ℕ) (j : Fin (⟨1, ![n]⟩ : Shape).numel) : (((⟨1, ![n]⟩ : Shape).rowMajor.symm j) 0).val = j.val := by
  have h := Shape.rowMajor_val_one ((⟨1, ![n]⟩ : Shape).rowMajor.symm j)
  rw [Equiv.apply_symm_apply] at h
  exact h.symm

omit [FloatOps F] in
/-- THE VALUE, for tile and chunk k: the row a gather delivers at place (p, c) of its row buffer is row
    ix(8192·w + 128·k + p) of the padded table, at column c — row 8192·w + 128·k + p of the rows read through the flat
    indices. -/
theorem gather_value (k : ℕ) (hk : k < 64) (fl : Buf (Elt F) ((lV).view.loc (V d (cV L) (jV L))))
    (pay0 : S8192.Idx → Elt F .i32) (hpay0 : pay0 = ReadAs.same.apply ((iSl L).view.read (Elt F) (ix d)))
    (hin : ∀ j, ((ix d) j).toNat < 8192)
    (hsh : ∀ a, (![0, 0] : Fin 2 → ℕ) a + S8192x128.size a ≤ S8192x128.size a)
    (off : Fin 1 → ℕ) (hoff : off 0 = 128 * k) (h : ∀ a, off a + S128.size a ≤ S8192.size a)
    (hn : S128.numel = S128x128.size gathers_S8192x128_S128x128.axis')
    (hin' : ∀ x, (View.read (Elt F) ((lV).slice (Rect.unit (s := S8192) off S128.size h) (fun _ => rfl)).view
        (View.write (Elt F) (lV).view fl pay0 Finset.univ) x).toNat < S8192x128.size gathers_S8192x128_S128x128.axis)
    (x : S128x128.Idx) :
    SparseCore.gatherPayload gathers_S8192x128_S128x128
        (View.read (Elt F) ((shV).slice (Rect.unit (s := S8192x128) ![0, 0] S8192x128.size hsh) (fun _ => rfl)).view (tp d))
        (SparseCore.rows (View.read (Elt F) ((lV).slice (Rect.unit (s := S8192) off S128.size h) (fun _ => rfl)).view
          (View.write (Elt F) (lV).view fl pay0 Finset.univ)) hn hin') x
      = rowsOf tp ix d ((blkRectK L ⟨k, hk⟩).emb x) := by
  subst hpay0
  have hw : View.write (Elt F) (lV).view fl (ReadAs.same.apply ((iSl L).view.read (Elt F) (ix d))) Finset.univ
      = ReadAs.same.apply ((iSl L).view.read (Elt F) (ix d)) := View.write_whole_univ cc0_scratch0 fl _
  unfold SparseCore.gatherPayload rowsOf Spec.rows
  show (tp d) _ = (tp d) _
  congr 1
  funext a; apply Fin.ext
  have hb := k0_off3_eq L ⟨k, hk⟩
  have hi := k0_off2_eq L
  match a with
  | 0 =>
    have e0 : (gathers_S8192x128_S128x128.idx
        (SparseCore.rows (View.read (Elt F) ((lV).slice (Rect.unit (s := S8192) off S128.size h) (fun _ => rfl)).view
          (View.write (Elt F) (lV).view fl (ReadAs.same.apply ((iSl L).view.read (Elt F) (ix d))) Finset.univ)) hn hin') x 0).val
        = ((View.read (Elt F) ((lV).slice (Rect.unit (s := S8192) off S128.size h) (fun _ => rfl)).view
          (View.write (Elt F) (lV).view fl (ReadAs.same.apply ((iSl L).view.read (Elt F) (ix d))) Finset.univ))
            (S128.rowMajor.symm ((x 0).cast hn.symm))).toNat :=
      congrArg Fin.val (Shape.Gathers.idx_axis gathers_S8192x128_S128x128 _ x)
    have hz := rowMajor_symm_one 128 ((x 0).cast hn.symm)
    have hlt := hin (ValueIdx.ix1 ((blkRectK L ⟨k, hk⟩).emb x 0))
    show 0 + 1 * (gathers_S8192x128_S128x128.idx _ x 0).val = (Spec.rowOf (ix d (ValueIdx.ix1 ((blkRectK L ⟨k, hk⟩).emb x 0)))).val
    rw [e0, hw]
    unfold Spec.rowOf
    show 0 + 1 * (ix d ((iSl L).view.emb (((lV).slice (Rect.unit (s := S8192) off S128.size h) (fun _ => rfl)).view.emb (S128.rowMajor.symm ((x 0).cast hn.symm))))).toNat
      = min (ix d (ValueIdx.ix1 ((blkRectK L ⟨k, hk⟩).emb x 0))).toNat 8191
    rw [Nat.min_eq_left (by omega), Nat.zero_add, Nat.one_mul]
    congr 2
    funext b; apply Fin.ext
    match b with
    | 0 =>
      show (k0_off2 L) 0 + 1 * (off 0 + 1 * ((S128.rowMajor.symm ((x 0).cast hn.symm)) 0).val)
        = (k0_off3 L (BitVec.ofNat 32 (128 * (⟨k, hk⟩ : Fin 64).val))) 0 + 1 * (x 0).val
      rw [hi, hb, hoff, hz]
      show (![16384 * (L 1).val + 8192 * (L 0).val] : Fin 1 → ℕ) 0 + 1 * (128 * k + 1 * (x 0).val)
        = (![16384 * (L 1).val + 8192 * (L 0).val + 128 * k, 0] : Fin 2 → ℕ) 0 + 1 * (x 0).val
      simp only [Matrix.cons_val_zero]
      omega
  | 1 =>
    have e1 := Shape.Gathers.idx_of_ne gathers_S8192x128_S128x128
      (SparseCore.rows (View.read (Elt F) ((lV).slice (Rect.unit (s := S8192) off S128.size h) (fun _ => rfl)).view
          (View.write (Elt F) (lV).view fl (ReadAs.same.apply ((iSl L).view.read (Elt F) (ix d))) Finset.univ)) hn hin') x 1 (by decide)
    show 0 + 1 * (gathers_S8192x128_S128x128.idx _ x 1).val
      = (k0_off3 L (BitVec.ofNat 32 (128 * (⟨k, hk⟩ : Fin 64).val))) 1 + 1 * (x 1).val
    rw [e1, hb]
    simp

omit [FloatOps F] in
/-- Block k of the result after its store: holding, through the block's own view, a piece that is the rows read
    through the flat indices, it holds those rows. -/
theorem blk_value (k : ℕ) (hk : k < 64) (c : BitVec 32) (hc : c = BitVec.ofNat 32 (128 * k))
    (h : ∀ a, k0_off3 L c a + S128x128.size a ≤ S262144x128.size a) (q : PosShare TreeShare)
    (pay : S128x128.Idx → Elt F .f32) (hpay : ∀ x, pay x = rowsOf tp ix d ((blkRectK L ⟨k, hk⟩).emb x)) :
    (((oV).slice (Rect.unit (s := S262144x128) (k0_off3 L c) S128x128.size h) (fun _ => rfl)).view.loc (V d (cV L) (jV L))
        ↦[((oV).slice (Rect.unit (s := S262144x128) (k0_off3 L c) S128x128.size h) (fun _ => rfl)).view.set]{q}
          ((oV).slice (Rect.unit (s := S262144x128) (k0_off3 L c) S128x128.size h) (fun _ => rfl)).view.writes (Elt F) (o₀ d)
            [⟨Rect.whole (Rect.unit (s := S262144x128) (k0_off3 L c) S128x128.size h).shape, pay⟩] : sProp 𝕄)
      = oLoc d ↦[blkSet L ⟨k, hk⟩]{q} rowsOf tp ix d := by
  subst hc
  show ((oSl L ⟨k, hk⟩).view.loc (V d (cV L) (jV L)) ↦[(oSl L ⟨k, hk⟩).view.set]{q}
    (oSl L ⟨k, hk⟩).view.writes (Elt F) (o₀ d) [⟨Rect.whole S128x128, pay⟩] : sProp 𝕄) = _
  rw [pts_oSl (F := F) d L ⟨k, hk⟩]
  refine pointsTo_congr fun i hi => ?_
  rw [← set_oSl L ⟨k, hk⟩] at hi
  obtain ⟨x, -, rfl⟩ := Finset.mem_map.mp hi
  have h1 : (oSl L ⟨k, hk⟩).view.writes (Elt F) (o₀ d) [⟨Rect.whole S128x128, pay⟩] ((oSl L ⟨k, hk⟩).view.emb x) = pay x :=
    congrFun (View.read_writes_whole (oSl L ⟨k, hk⟩).view (o₀ d) pay) x
  rw [h1, hpay]; rfl

omit [FloatOps F] in
/-- Block k at some contents and the rows after it at some contents are the rows from block k on at some contents. -/
theorem unpeel_ex (k k' : ℕ) (hk : k < 64) (hk' : k' = k + 1) :
    iprop((∃ g : Buf (Elt F) (oLoc d), oLoc d ↦[blkSet L ⟨k, hk⟩]{fullShare} g) ∗ (∃ f : Buf (Elt F) (oLoc d), oLoc d ↦[restSet L k']{fullShare} f))
      ⊢ (∃ h : Buf (Elt F) (oLoc d), oLoc d ↦[restSet L k]{fullShare} h : sProp 𝕄) := by
  subst hk'; rw [← rest_sdiff L k hk]
  iintro ⟨⟨%g, Hg⟩, ⟨%f, Hf⟩⟩
  iexists _
  iapply (pointsTo_join_subset (blk_sub_rest L k hk))
  isplitl [Hg]; · iexact Hg
  iexact Hf

omit [FloatOps F] in
theorem rest_ex (k : ℕ) (f : Buf (Elt F) (oLoc d)) :
    (oLoc d ↦[restSet L k]{fullShare} f : sProp 𝕄) ⊢ ∃ g : Buf (Elt F) (oLoc d), oLoc d ↦[restSet L k]{fullShare} g := by
  iintro H; iexists _; iexact H

omit [FloatOps F] in
/-- After the last block nothing is left, at whatever contents. -/
theorem rest_last_any (f g : Buf (Elt F) (oLoc d)) :
    (oLoc d ↦[restSet L 64]{fullShare} f : sProp 𝕄) = oLoc d ↦[restSet L 64]{fullShare} g :=
  pointsTo_congr fun i hi => absurd hi (by rw [restSet_last]; exact Finset.notMem_empty i)

theorem waits_ins {α : Type} [DecidableEq α] {Q : α → Prop} {a : α} {S : Finset α} (h1 : Q a) (h2 : ∀ p ∈ S, Q p) :
    ∀ p ∈ insert a S, Q p :=
  fun p hp => (Finset.mem_insert.mp hp).elim (fun e => e ▸ h1) (h2 p)

/-- What the task hands back, the result's rows at whatever the stores left. -/
def tdResF (d : Dev nD) (c : Fin 2) (s : Fin 16) (cc : Fin τ.nSC) : sProp 𝕄 :=
  iprop((tLoc d ↦[tabSet s]{coreShare c} tp d) ∗ (iLoc d ↦[idxSet (wid c s)]{fullShare} ix d)
    ∗ (∃ f : Buf (Elt F) (oLoc d), oLoc d ↦[outSet (wid c s)]{fullShare} f)
    ∗ (shLoc d cc ↦{tileShare s} tp d) ∗ (shLoc d cc ↦[tabSet s]{keptShare} tp d))

end Tile

end Cert.Proof.KI

end
-- ==== Proof.KIBody.lean ====
/-
  One tile's task, at a symbolic tile.

  The task copies its 512 rows of the padded table into the same rows of its SparseCore's shared table and its 8192
  flat indices into a list of its own, meets the other tiles at the barrier — handing each of them a read share of
  its 512 filled rows, and collecting from them a read share of every piece, that is of the whole shared table —, and
  then, 128 rows at a time through two row buffers in turn, gathers the rows of the shared table its list names and
  copies them to the 64 blocks of 128 rows that make up its 8192 rows of the result.
-/
import proofs.«204540_g20890720928596_cont_8to1_1350_21_alg».proof.Proof.KIBodyLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F]
variable (tp : (d : Dev nD) → Buf (Elt F) (tLoc d)) (ix : (d : Dev nD) → Buf (Elt F) (iLoc d)) (o₀ : (d : Dev nD) → Buf (Elt F) (oLoc d))
variable (d : Dev nD) (L : grid0.Coords)

set_option maxHeartbeats 4000000 in
/-- The task of tile (L 0, L 1): from its rows of the padded table, its flat indices, its rows of the result and its
    rows of the shared table it leaves its rows of the result holding the rows read through its indices, and hands back
    the rest as it was dealt, the shared table's rows filled. -/
theorem tile_body (hF : (K (F := F)).Facts) (hin : ∀ j, ((ix d) j).toNat < 8192)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit tp d (cV L) (jV L)
        ∗ goRes tp ix o₀ d (cL L) (jL L) (cV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_v1_scv) (Memref.isWhole_whole _) (Memref.whole main_v0_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          fun _ => iprop(tdRes tp ix d (cL L) (jL L) (cV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨Rs, hRs⟩ := ownSems0_V (F := F) d L
  obtain ⟨Rb, hRb⟩ := ownBufs_V (F := F) d L
  simp only [cc0_k_eq_skeleton]; unfold cc0_k_skel
  rw [(K (F := F)).scopedBufs_V hF d (cV L) (jV L), SparseCore.Cfg.scopedSems0_V (Val := Elt F) d (cV L) (jV L), hRs, hRb]
  unfold bkit goRes
  iintro ⟨#Hlv, ⟨⟨%κ, #Hinv⟩, Htoks, #Hrch, Hat, Hcred⟩, ⟨Ht, Hi, Ho, %fsh, Hsh⟩, ⟨⟨%fl, Hl⟩, ⟨%f1, Hr1⟩, ⟨%f2, Hr2⟩, Hbufs⟩, ⟨HsT, HsI, HsG1, HsG2, HsS1, HsS2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tSl (F := F) d L _ _).symm) $$ Ht
  ihave Hsh' := (Entails.of_eq (pts_shSl (F := F) d L _ _).symm) $$ Hsh
  ihave Hi' := (Entails.of_eq (pts_iSl (F := F) d L _ _).symm) $$ Hi
  ihave Hl' := (Entails.of_eq (pts_lV (F := F) d L _).symm) $$ Hl
  ihave Hr1' := (Entails.of_eq (pts_r1V (F := F) d L _).symm) $$ Hr1
  ihave Hr2' := (Entails.of_eq (pts_r2V (F := F) d L _).symm) $$ Hr2
  -- the two copies, each waited for
  sl_exec
  -- the barrier: a read share of the filled rows to every tile's round, a read share of every piece from its own
  ihave Hsh2 := (Entails.of_eq (sh_filled (F := F) tp d L fsh (tile_body.sl.dma0 tp d L) rfl fullShare)) $$ Hsh'
  ihave Hpays := (give_shares (F := F) tp d L) $$ Hsh2
  icases Hpays with ⟨Hkept, Hpays⟩
  iapply (SparseCore.wp_subcoreBarrier 𝒱₀ none EB (bRd (F := F) tp) d (sc := cV L) (i := jV L) sc_bar0 (grid0.bound 1) hsub0 (L 1) rfl κ (fun _ => 0) (jV L).val
      (fun j => bRd_duty tp d _ _ _) (fun _ => rfl) (bRd_expect₀ tp d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (take_shares (F := F) tp d L) $$ Hgot
  -- two gathers read the shared table at once: a read token for each, and what is left
  ihave Htk := (two_toks (F := F) (ℓ := shLoc d (cV L)) (tileShare (jL L)) (tp d)).1 $$ Hall
  icases Htk with ⟨Hsrest, Hsrc0, Hsrc1⟩
  ihave Hsrc0 := (Entails.of_eq (pts_shV (F := F) d L _ _).symm) $$ Hsrc0
  ihave Hsrc1 := (Entails.of_eq (pts_shV (F := F) d L _ _).symm) $$ Hsrc1
  have hinb := list_inb (F := F) d L fl (tile_body.sl.dma0_1 ix d L) (fun x => hin _)
  -- the tile's rows of the result, block by block
  ihave Hrest := (Entails.of_eq (pts_rest0 (F := F) d L _ _)) $$ Ho
  ihave Hp := (peel (F := F) d L 0 1 (by decide) rfl _ _).1 $$ Hrest
  icases Hp with ⟨Hb0, Hrest⟩
  ihave Hb0 := (Entails.of_eq (pts_blk (F := F) d L 0 _ (0#32) rfl (k0_off3_inb L 0) _ _).symm) $$ Hb0
  ihave Hp := (peel (F := F) d L 1 2 (by decide) rfl _ _).1 $$ Hrest
  icases Hp with ⟨Hb1, Hrest⟩
  ihave Hb1 := (Entails.of_eq (pts_blk (F := F) d L 1 _ (128#32) rfl (k0_off3_inb L 1) _ _).symm) $$ Hb1
  ihave Hp := (peel (F := F) d L 2 3 (by decide) rfl _ _).1 $$ Hrest
  icases Hp with ⟨Hb2, Hrest⟩
  ihave Hb2 := (Entails.of_eq (pts_blk (F := F) d L 2 _ (256#32) rfl (k0_off3_inb L 2) _ _).symm) $$ Hb2
  ihave Hp := (peel (F := F) d L 3 4 (by decide) rfl _ _).1 $$ Hrest
  icases Hp with ⟨Hb3, Hrest⟩
  ihave Hb3 := (Entails.of_eq (pts_blk (F := F) d L 3 _ (384#32) rfl (k0_off3_inb L 3) _ _).symm) $$ Hb3
  ihave Hp := (peel (F := F) d L 4 5 (by decide) rfl _ _).1 $$ Hrest
  icases Hp with ⟨Hb4, Hrest⟩
  ihave Hb4 := (Entails.of_eq (pts_blk (F := F) d L 4 _ (512#32) rfl (k0_off3_inb L 4) _ _).symm) $$ Hb4
  ihave Hp := (peel (F := F) d L 5 6 (by decide) rfl _ _).1 $$ Hrest
  icases Hp with ⟨Hb5, Hrest⟩
  ihave Hb5 := (Entails.of_eq (pts_blk (F := F) d L 5 _ (640#32) rfl (k0_off3_inb L 5) _ _).symm) $$ Hb5
  ihave Hp := (peel (F := F) d L 6 7 (by decide) rfl _ _).1 $$ Hrest
  icases Hp with ⟨Hb6, Hrest⟩
  ihave Hb6 := (Entails.of_eq (pts_blk (F := F) d L 6 _ (768#32) rfl (k0_off3_inb L 6) _ _).symm) $$ Hb6
  ihave Hp := (peel (F := F) d L 7 8 (by decide) rfl _ _).1 $$ Hrest
  icases Hp with ⟨Hb7, Hrest⟩
  ihave Hb7 := (Entails.of_eq (pts_blk (F := F) d L 7 _ (896#32) rfl (k0_off3_inb L 7) _ _).symm) $$ Hb7
  ihave Hp := (peel (F := F) d L 8 9 (by decide) rfl _ _).1 $$ Hrest
  icases Hp with ⟨Hb8, Hrest⟩
  ihave Hb8 := (Entails.of_eq (pts_blk (F := F) d L 8 _ (1024#32) rfl (k0_off3_inb L 8) _ _).symm) $$ Hb8
  ihave Hp := (peel (F := F) d L 9 10 (by decide) rfl _ _).1 $$ Hrest
  icases Hp with ⟨Hb9, Hrest⟩
  ihave Hb9 := (Entails.of_eq (pts_blk (F := F) d L 9 _ (1152#32) rfl (k0_off3_inb L 9) _ _).symm) $$ Hb9
  ihave Hp := (peel (F := F) d L 10 11 (by decide) rfl _ _).1 $$ Hrest
  icases Hp with ⟨Hb10, Hrest⟩
  ihave Hb10 := (Entails.of_eq (pts_blk (F := F) d L 10 _ (1280#32) rfl (k0_off3_inb L 10) _ _).symm) $$ Hb10
  ihave Hp := (peel (F := F) d L 11 12 (by decide) rfl _ _).1 $$ Hrest
  icases Hp with ⟨Hb11, Hrest⟩
  ihave Hb11 := (Entails.of_eq (pts_blk (F := F) d L 11 _ (1408#32) rfl (k0_off3_inb L 11) _ _).symm) $$ Hb11
  ihave Hp := (peel (F := F) d L 12 13 (by decide) rfl _ _).1 $$ Hrest
  icases Hp with ⟨Hb12, Hrest⟩
  ihave Hb12 := (Entails.of_eq (pts_blk (F := F) d L 12 _ (1536#32) rfl (k0_off3_inb L 12) _ _).symm) $$ Hb12
  ihave Hp := (peel (F := F) d L 13 14 (by decide) rfl _ _).1 $$ Hrest
  icases Hp with ⟨Hb13, Hrest⟩
  ihave Hb13 := (Entails.of_eq (pts_blk (F := F) d L 13 _ (1664#32) rfl (k0_off3_inb L 13) _ _).symm) $$ Hb13
  ihave Hp := (peel (F := F) d L 14 15 (by decide) rfl _ _).1 $$ Hrest
  icases Hp with ⟨Hb14, Hrest⟩
  ihave Hb14 := (Entails.of_eq (pts_blk (F := F) d L 14 _ (1792#32) rfl (k0_off3_inb L 14) _ _).symm) $$ Hb14
  ihave Hp := (peel (F := F) d L 15 16 (by decide) rfl _ _).1 $$ Hrest
  icases Hp with ⟨Hb15, Hrest⟩
  ihave Hb15 := (Entails.of_eq (pts_blk (F := F) d L 15 _ (1920#32) rfl (k0_off3_inb L 15) _ _).symm) $$ Hb15
  ihave Hp := (peel (F := F) d L 16 17 (by decide) rfl _ _).1 $$ Hrest
  icases Hp with ⟨Hb16, Hrest⟩
  ihave Hb16 := (Entails.of_eq (pts_blk (F := F) d L 16 _ (2048#32) rfl (k0_off3_inb L 16) _ _).symm) $$ Hb16
  ihave Hp := (peel (F := F) d L 17 18 (by decide) rfl _ _).1 $$ Hrest
  icases Hp with ⟨Hb17, Hrest⟩
  ihave Hb17 := (Entails.of_eq (pts_blk (F := F) d L 17 _ (2176#32) rfl (k0_off3_inb L 17) _ _).symm) $$ Hb17
  ihave Hp := (peel (F := F) d L 18 19 (by decide) rfl _ _).1 $$ Hrest
  icases Hp with ⟨Hb18, Hrest⟩
  ihave Hb18 := (Entails.of_eq (pts_blk (F := F) d L 18 _ (2304#32) rfl (k0_off3_inb L 18) _ _).symm) $$ Hb18
  ihave Hp := (peel (F := F) d L 19 20 (by decide) rfl _ _).1 $$ Hrest
  icases Hp with ⟨Hb19, Hrest⟩
  ihave Hb19 := (Entails.of_eq (pts_blk (F := F) d L 19 _ (2432#32) rfl (k0_off3_inb L 19) _ _).symm) $$ Hb19
  ihave Hp := (peel (F := F) d L 20 21 (by decide) rfl _ _).1 $$ Hrest
  icases Hp with ⟨Hb20, Hrest⟩
  ihave Hb20 := (Entails.of_eq (pts_blk (F := F) d L 20 _ (2560#32) rfl (k0_off3_inb L 20) _ _).symm) $$ Hb20
  ihave Hp := (peel (F := F) d L 21 22 (by decide) rfl _ _).1 $$ Hrest
  icases Hp with ⟨Hb21, Hrest⟩
  ihave Hb21 := (Entails.of_eq (pts_blk (F := F) d L 21 _ (2688#32) rfl (k0_off3_inb L 21) _ _).symm) $$ Hb21
  ihave Hp := (peel (F := F) d L 22 23 (by decide) rfl _ _).1 $$ Hrest
  icases Hp with ⟨Hb22, Hrest⟩
  ihave Hb22 := (Entails.of_eq (pts_blk (F := F) d L 22 _ (2816#32) rfl (k0_off3_inb L 22) _ _).symm) $$ Hb22
  ihave Hp := (peel (F := F) d L 23 24 (by decide) rfl _ _).1 $$ Hrest
  icases Hp with ⟨Hb23, Hrest⟩
  ihave Hb23 := (Entails.of_eq (pts_blk (F := F) d L 23 _ (2944#32) rfl (k0_off3_inb L 23) _ _).symm) $$ Hb23
  ihave Hp := (peel (F := F) d L 24 25 (by decide) rfl _ _).1 $$ Hrest
  icases Hp with ⟨Hb24, Hrest⟩
  ihave Hb24 := (Entails.of_eq (pts_blk (F := F) d L 24 _ (3072#32) rfl (k0_off3_inb L 24) _ _).symm) $$ Hb24
  ihave Hp := (peel (F := F) d L 25 26 (by decide) rfl _ _).1 $$ Hrest
  icases Hp with ⟨Hb25, Hrest⟩
  ihave Hb25 := (Entails.of_eq (pts_blk (F := F) d L 25 _ (3200#32) rfl (k0_off3_inb L 25) _ _).symm) $$ Hb25
  ihave Hp := (peel (F := F) d L 26 27 (by decide) rfl _ _).1 $$ Hrest
  icases Hp with ⟨Hb26, Hrest⟩
  ihave Hb26 := (Entails.of_eq (pts_blk (F := F) d L 26 _ (3328#32) rfl (k0_off3_inb L 26) _ _).symm) $$ Hb26
  ihave Hp := (peel (F := F) d L 27 28 (by decide) rfl _ _).1 $$ Hrest
  icases Hp with ⟨Hb27, Hrest⟩
  ihave Hb27 := (Entails.of_eq (pts_blk (F := F) d L 27 _ (3456#32) rfl (k0_off3_inb L 27) _ _).symm) $$ Hb27
  ihave Hp := (peel (F := F) d L 28 29 (by decide) rfl _ _).1 $$ Hrest
  icases Hp with ⟨Hb28, Hrest⟩
  ihave Hb28 := (Entails.of_eq (pts_blk (F := F) d L 28 _ (3584#32) rfl (k0_off3_inb L 28) _ _).symm) $$ Hb28
  ihave Hp := (peel (F := F) d L 29 30 (by decide) rfl _ _).1 $$ Hrest
  icases Hp with ⟨Hb29, Hrest⟩
  ihave Hb29 := (Entails.of_eq (pts_blk (F := F) d L 29 _ (3712#32) rfl (k0_off3_inb L 29) _ _).symm) $$ Hb29
  ihave Hp := (peel (F := F) d L 30 31 (by decide) rfl _ _).1 $$ Hrest
  icases Hp with ⟨Hb30, Hrest⟩
  ihave Hb30 := (Entails.of_eq (pts_blk (F := F) d L 30 _ (3840#32) rfl (k0_off3_inb L 30) _ _).symm) $$ Hb30
  ihave Hp := (peel (F := F) d L 31 32 (by decide) rfl _ _).1 $$ Hrest
  icases Hp with ⟨Hb31, Hrest⟩
  ihave Hb31 := (Entails.of_eq (pts_blk (F := F) d L 31 _ (3968#32) rfl (k0_off3_inb L 31) _ _).symm) $$ Hb31
  ihave Hp := (peel (F := F) d L 32 33 (by decide) rfl _ _).1 $$ Hrest
  icases Hp with ⟨Hb32, Hrest⟩
  ihave Hb32 := (Entails.of_eq (pts_blk (F := F) d L 32 _ (4096#32) rfl (k0_off3_inb L 32) _ _).symm) $$ Hb32
  ihave Hp := (peel (F := F) d L 33 34 (by decide) rfl _ _).1 $$ Hrest
  icases Hp with ⟨Hb33, Hrest⟩
  ihave Hb33 := (Entails.of_eq (pts_blk (F := F) d L 33 _ (4224#32) rfl (k0_off3_inb L 33) _ _).symm) $$ Hb33
  ihave Hp := (peel (F := F) d L 34 35 (by decide) rfl _ _).1 $$ Hrest
  icases Hp with ⟨Hb34, Hrest⟩
  ihave Hb34 := (Entails.of_eq (pts_blk (F := F) d L 34 _ (4352#32) rfl (k0_off3_inb L 34) _ _).symm) $$ Hb34
  ihave Hp := (peel (F := F) d L 35 36 (by decide) rfl _ _).1 $$ Hrest
  icases Hp with ⟨Hb35, Hrest⟩
  ihave Hb35 := (Entails.of_eq (pts_blk (F := F) d L 35 _ (4480#32) rfl (k0_off3_inb L 35) _ _).symm) $$ Hb35
  ihave Hp := (peel (F := F) d L 36 37 (by decide) rfl _ _).1 $$ Hrest
  icases Hp with ⟨Hb36, Hrest⟩
  ihave Hb36 := (Entails.of_eq (pts_blk (F := F) d L 36 _ (4608#32) rfl (k0_off3_inb L 36) _ _).symm) $$ Hb36
  ihave Hp := (peel (F := F) d L 37 38 (by decide) rfl _ _).1 $$ Hrest
  icases Hp with ⟨Hb37, Hrest⟩
  ihave Hb37 := (Entails.of_eq (pts_blk (F := F) d L 37 _ (4736#32) rfl (k0_off3_inb L 37) _ _).symm) $$ Hb37
  ihave Hp := (peel (F := F) d L 38 39 (by decide) rfl _ _).1 $$ Hrest
  icases Hp with ⟨Hb38, Hrest⟩
  ihave Hb38 := (Entails.of_eq (pts_blk (F := F) d L 38 _ (4864#32) rfl (k0_off3_inb L 38) _ _).symm) $$ Hb38
  ihave Hp := (peel (F := F) d L 39 40 (by decide) rfl _ _).1 $$ Hrest
  icases Hp with ⟨Hb39, Hrest⟩
  ihave Hb39 := (Entails.of_eq (pts_blk (F := F) d L 39 _ (4992#32) rfl (k0_off3_inb L 39) _ _).symm) $$ Hb39
  ihave Hp := (peel (F := F) d L 40 41 (by decide) rfl _ _).1 $$ Hrest
  icases Hp with ⟨Hb40, Hrest⟩
  ihave Hb40 := (Entails.of_eq (pts_blk (F := F) d L 40 _ (5120#32) rfl (k0_off3_inb L 40) _ _).symm) $$ Hb40
  ihave Hp := (peel (F := F) d L 41 42 (by decide) rfl _ _).1 $$ Hrest
  icases Hp with ⟨Hb41, Hrest⟩
  ihave Hb41 := (Entails.of_eq (pts_blk (F := F) d L 41 _ (5248#32) rfl (k0_off3_inb L 41) _ _).symm) $$ Hb41
  ihave Hp := (peel (F := F) d L 42 43 (by decide) rfl _ _).1 $$ Hrest
  icases Hp with ⟨Hb42, Hrest⟩
  ihave Hb42 := (Entails.of_eq (pts_blk (F := F) d L 42 _ (5376#32) rfl (k0_off3_inb L 42) _ _).symm) $$ Hb42
  ihave Hp := (peel (F := F) d L 43 44 (by decide) rfl _ _).1 $$ Hrest
  icases Hp with ⟨Hb43, Hrest⟩
  ihave Hb43 := (Entails.of_eq (pts_blk (F := F) d L 43 _ (5504#32) rfl (k0_off3_inb L 43) _ _).symm) $$ Hb43
  ihave Hp := (peel (F := F) d L 44 45 (by decide) rfl _ _).1 $$ Hrest
  icases Hp with ⟨Hb44, Hrest⟩
  ihave Hb44 := (Entails.of_eq (pts_blk (F := F) d L 44 _ (5632#32) rfl (k0_off3_inb L 44) _ _).symm) $$ Hb44
  ihave Hp := (peel (F := F) d L 45 46 (by decide) rfl _ _).1 $$ Hrest
  icases Hp with ⟨Hb45, Hrest⟩
  ihave Hb45 := (Entails.of_eq (pts_blk (F := F) d L 45 _ (5760#32) rfl (k0_off3_inb L 45) _ _).symm) $$ Hb45
  ihave Hp := (peel (F := F) d L 46 47 (by decide) rfl _ _).1 $$ Hrest
  icases Hp with ⟨Hb46, Hrest⟩
  ihave Hb46 := (Entails.of_eq (pts_blk (F := F) d L 46 _ (5888#32) rfl (k0_off3_inb L 46) _ _).symm) $$ Hb46
  ihave Hp := (peel (F := F) d L 47 48 (by decide) rfl _ _).1 $$ Hrest
  icases Hp with ⟨Hb47, Hrest⟩
  ihave Hb47 := (Entails.of_eq (pts_blk (F := F) d L 47 _ (6016#32) rfl (k0_off3_inb L 47) _ _).symm) $$ Hb47
  ihave Hp := (peel (F := F) d L 48 49 (by decide) rfl _ _).1 $$ Hrest
  icases Hp with ⟨Hb48, Hrest⟩
  ihave Hb48 := (Entails.of_eq (pts_blk (F := F) d L 48 _ (6144#32) rfl (k0_off3_inb L 48) _ _).symm) $$ Hb48
  ihave Hp := (peel (F := F) d L 49 50 (by decide) rfl _ _).1 $$ Hrest
  icases Hp with ⟨Hb49, Hrest⟩
  ihave Hb49 := (Entails.of_eq (pts_blk (F := F) d L 49 _ (6272#32) rfl (k0_off3_inb L 49) _ _).symm) $$ Hb49
  ihave Hp := (peel (F := F) d L 50 51 (by decide) rfl _ _).1 $$ Hrest
  icases Hp with ⟨Hb50, Hrest⟩
  ihave Hb50 := (Entails.of_eq (pts_blk (F := F) d L 50 _ (6400#32) rfl (k0_off3_inb L 50) _ _).symm) $$ Hb50
  ihave Hp := (peel (F := F) d L 51 52 (by decide) rfl _ _).1 $$ Hrest
  icases Hp with ⟨Hb51, Hrest⟩
  ihave Hb51 := (Entails.of_eq (pts_blk (F := F) d L 51 _ (6528#32) rfl (k0_off3_inb L 51) _ _).symm) $$ Hb51
  ihave Hp := (peel (F := F) d L 52 53 (by decide) rfl _ _).1 $$ Hrest
  icases Hp with ⟨Hb52, Hrest⟩
  ihave Hb52 := (Entails.of_eq (pts_blk (F := F) d L 52 _ (6656#32) rfl (k0_off3_inb L 52) _ _).symm) $$ Hb52
  ihave Hp := (peel (F := F) d L 53 54 (by decide) rfl _ _).1 $$ Hrest
  icases Hp with ⟨Hb53, Hrest⟩
  ihave Hb53 := (Entails.of_eq (pts_blk (F := F) d L 53 _ (6784#32) rfl (k0_off3_inb L 53) _ _).symm) $$ Hb53
  ihave Hp := (peel (F := F) d L 54 55 (by decide) rfl _ _).1 $$ Hrest
  icases Hp with ⟨Hb54, Hrest⟩
  ihave Hb54 := (Entails.of_eq (pts_blk (F := F) d L 54 _ (6912#32) rfl (k0_off3_inb L 54) _ _).symm) $$ Hb54
  ihave Hp := (peel (F := F) d L 55 56 (by decide) rfl _ _).1 $$ Hrest
  icases Hp with ⟨Hb55, Hrest⟩
  ihave Hb55 := (Entails.of_eq (pts_blk (F := F) d L 55 _ (7040#32) rfl (k0_off3_inb L 55) _ _).symm) $$ Hb55
  ihave Hp := (peel (F := F) d L 56 57 (by decide) rfl _ _).1 $$ Hrest
  icases Hp with ⟨Hb56, Hrest⟩
  ihave Hb56 := (Entails.of_eq (pts_blk (F := F) d L 56 _ (7168#32) rfl (k0_off3_inb L 56) _ _).symm) $$ Hb56
  ihave Hp := (peel (F := F) d L 57 58 (by decide) rfl _ _).1 $$ Hrest
  icases Hp with ⟨Hb57, Hrest⟩
  ihave Hb57 := (Entails.of_eq (pts_blk (F := F) d L 57 _ (7296#32) rfl (k0_off3_inb L 57) _ _).symm) $$ Hb57
  ihave Hp := (peel (F := F) d L 58 59 (by decide) rfl _ _).1 $$ Hrest
  icases Hp with ⟨Hb58, Hrest⟩
  ihave Hb58 := (Entails.of_eq (pts_blk (F := F) d L 58 _ (7424#32) rfl (k0_off3_inb L 58) _ _).symm) $$ Hb58
  ihave Hp := (peel (F := F) d L 59 60 (by decide) rfl _ _).1 $$ Hrest
  icases Hp with ⟨Hb59, Hrest⟩
  ihave Hb59 := (Entails.of_eq (pts_blk (F := F) d L 59 _ (7552#32) rfl (k0_off3_inb L 59) _ _).symm) $$ Hb59
  ihave Hp := (peel (F := F) d L 60 61 (by decide) rfl _ _).1 $$ Hrest
  icases Hp with ⟨Hb60, Hrest⟩
  ihave Hb60 := (Entails.of_eq (pts_blk (F := F) d L 60 _ (7680#32) rfl (k0_off3_inb L 60) _ _).symm) $$ Hb60
  ihave Hp := (peel (F := F) d L 61 62 (by decide) rfl _ _).1 $$ Hrest
  icases Hp with ⟨Hb61, Hrest⟩
  ihave Hb61 := (Entails.of_eq (pts_blk (F := F) d L 61 _ (7808#32) rfl (k0_off3_inb L 61) _ _).symm) $$ Hb61
  ihave Hp := (peel (F := F) d L 62 63 (by decide) rfl _ _).1 $$ Hrest
  icases Hp with ⟨Hb62, Hrest⟩
  ihave Hb62 := (Entails.of_eq (pts_blk (F := F) d L 62 _ (7936#32) rfl (k0_off3_inb L 62) _ _).symm) $$ Hb62
  ihave Hp := (peel (F := F) d L 63 64 (by decide) rfl _ _).1 $$ Hrest
  icases Hp with ⟨Hb63, Hrest⟩
  ihave Hb63 := (Entails.of_eq (pts_blk (F := F) d L 63 _ (8064#32) rfl (k0_off3_inb L 63) _ _).symm) $$ Hb63

  sl_exec_parts
  sl_step
  -- the arrays as the task was handed them
  ihave Ht := (Entails.of_eq (pts_tSl (F := F) d L _ _)) $$ Ht'
  ihave Hi := (Entails.of_eq (pts_iSl (F := F) d L _ _)) $$ Hi'
  ihave Hsrc0 := (Entails.of_eq (pts_shV (F := F) d L _ _)) $$ Hsrc0
  ihave Hsrc1 := (Entails.of_eq (pts_shV (F := F) d L _ _)) $$ Hsrc1
  ihave Hall := (two_toks (F := F) (ℓ := shLoc d (cV L)) (tileShare (jL L)) (tp d)).2 $$ [Hsrest Hsrc0 Hsrc1]
  · isplitl [Hsrest]; · iexact Hsrest
    isplitl [Hsrc0]; · iexact Hsrc0
    iexact Hsrc1
  -- the 64 blocks: each holds its rows of the rows read through the flat indices; joined from the last
  ihave Hrest := (Entails.of_eq (rest_last_any (F := F) d L (o₀ d) (rowsOf tp ix d))) $$ Hrest
  ihave Hb63 := (Entails.of_eq (blk_value (F := F) tp ix o₀ d L 63 (by decide) (8064#32) rfl (k0_off3_inb L 63) fullShare
      (tile_body.sl.dma0_65 tp ix d L fl f2 hinb)
      (fun x => (congrFun (read_newest (F := F) _ _ (tile_body.sl.gather125 tp ix d L fl hinb) _) x).trans
        (gather_value (F := F) tp ix d L 63 (by decide) fl (tile_body.sl.dma0_1 ix d L) rfl hin _ _ rfl _ _ _ x)))) $$ Hb63
  ihave Hrest := (peel (F := F) d L 63 64 (by decide) rfl _ _).2 $$ [Hb63 Hrest]
  · isplitl [Hb63]; · iexact Hb63
    iexact Hrest
  ihave Hb62 := (Entails.of_eq (blk_value (F := F) tp ix o₀ d L 62 (by decide) (7936#32) rfl (k0_off3_inb L 62) fullShare
      (tile_body.sl.dma0_64 tp ix d L fl f1 hinb)
      (fun x => (congrFun (read_newest (F := F) _ _ (tile_body.sl.gather123 tp ix d L fl hinb) _) x).trans
        (gather_value (F := F) tp ix d L 62 (by decide) fl (tile_body.sl.dma0_1 ix d L) rfl hin _ _ rfl _ _ _ x)))) $$ Hb62
  ihave Hrest := (peel (F := F) d L 62 63 (by decide) rfl _ _).2 $$ [Hb62 Hrest]
  · isplitl [Hb62]; · iexact Hb62
    iexact Hrest
  ihave Hb61 := (Entails.of_eq (blk_value (F := F) tp ix o₀ d L 61 (by decide) (7808#32) rfl (k0_off3_inb L 61) fullShare
      (tile_body.sl.dma0_63 tp ix d L fl f2 hinb)
      (fun x => (congrFun (read_newest (F := F) _ _ (tile_body.sl.gather121 tp ix d L fl hinb) _) x).trans
        (gather_value (F := F) tp ix d L 61 (by decide) fl (tile_body.sl.dma0_1 ix d L) rfl hin _ _ rfl _ _ _ x)))) $$ Hb61
  ihave Hrest := (peel (F := F) d L 61 62 (by decide) rfl _ _).2 $$ [Hb61 Hrest]
  · isplitl [Hb61]; · iexact Hb61
    iexact Hrest
  ihave Hb60 := (Entails.of_eq (blk_value (F := F) tp ix o₀ d L 60 (by decide) (7680#32) rfl (k0_off3_inb L 60) fullShare
      (tile_body.sl.dma0_62 tp ix d L fl f1 hinb)
      (fun x => (congrFun (read_newest (F := F) _ _ (tile_body.sl.gather119 tp ix d L fl hinb) _) x).trans
        (gather_value (F := F) tp ix d L 60 (by decide) fl (tile_body.sl.dma0_1 ix d L) rfl hin _ _ rfl _ _ _ x)))) $$ Hb60
  ihave Hrest := (peel (F := F) d L 60 61 (by decide) rfl _ _).2 $$ [Hb60 Hrest]
  · isplitl [Hb60]; · iexact Hb60
    iexact Hrest
  ihave Hb59 := (Entails.of_eq (blk_value (F := F) tp ix o₀ d L 59 (by decide) (7552#32) rfl (k0_off3_inb L 59) fullShare
      (tile_body.sl.dma0_61 tp ix d L fl f2 hinb)
      (fun x => (congrFun (read_newest (F := F) _ _ (tile_body.sl.gather117 tp ix d L fl hinb) _) x).trans
        (gather_value (F := F) tp ix d L 59 (by decide) fl (tile_body.sl.dma0_1 ix d L) rfl hin _ _ rfl _ _ _ x)))) $$ Hb59
  ihave Hrest := (peel (F := F) d L 59 60 (by decide) rfl _ _).2 $$ [Hb59 Hrest]
  · isplitl [Hb59]; · iexact Hb59
    iexact Hrest
  ihave Hb58 := (Entails.of_eq (blk_value (F := F) tp ix o₀ d L 58 (by decide) (7424#32) rfl (k0_off3_inb L 58) fullShare
      (tile_body.sl.dma0_60 tp ix d L fl f1 hinb)
      (fun x => (congrFun (read_newest (F := F) _ _ (tile_body.sl.gather115 tp ix d L fl hinb) _) x).trans
        (gather_value (F := F) tp ix d L 58 (by decide) fl (tile_body.sl.dma0_1 ix d L) rfl hin _ _ rfl _ _ _ x)))) $$ Hb58
  ihave Hrest := (peel (F := F) d L 58 59 (by decide) rfl _ _).2 $$ [Hb58 Hrest]
  · isplitl [Hb58]; · iexact Hb58
    iexact Hrest
  ihave Hb57 := (Entails.of_eq (blk_value (F := F) tp ix o₀ d L 57 (by decide) (7296#32) rfl (k0_off3_inb L 57) fullShare
      (tile_body.sl.dma0_59 tp ix d L fl f2 hinb)
      (fun x => (congrFun (read_newest (F := F) _ _ (tile_body.sl.gather113 tp ix d L fl hinb) _) x).trans
        (gather_value (F := F) tp ix d L 57 (by decide) fl (tile_body.sl.dma0_1 ix d L) rfl hin _ _ rfl _ _ _ x)))) $$ Hb57
  ihave Hrest := (peel (F := F) d L 57 58 (by decide) rfl _ _).2 $$ [Hb57 Hrest]
  · isplitl [Hb57]; · iexact Hb57
    iexact Hrest
  ihave Hb56 := (Entails.of_eq (blk_value (F := F) tp ix o₀ d L 56 (by decide) (7168#32) rfl (k0_off3_inb L 56) fullShare
      (tile_body.sl.dma0_58 tp ix d L fl f1 hinb)
      (fun x => (congrFun (read_newest (F := F) _ _ (tile_body.sl.gather111 tp ix d L fl hinb) _) x).trans
        (gather_value (F := F) tp ix d L 56 (by decide) fl (tile_body.sl.dma0_1 ix d L) rfl hin _ _ rfl _ _ _ x)))) $$ Hb56
  ihave Hrest := (peel (F := F) d L 56 57 (by decide) rfl _ _).2 $$ [Hb56 Hrest]
  · isplitl [Hb56]; · iexact Hb56
    iexact Hrest
  ihave Hb55 := (Entails.of_eq (blk_value (F := F) tp ix o₀ d L 55 (by decide) (7040#32) rfl (k0_off3_inb L 55) fullShare
      (tile_body.sl.dma0_57 tp ix d L fl f2 hinb)
      (fun x => (congrFun (read_newest (F := F) _ _ (tile_body.sl.gather109 tp ix d L fl hinb) _) x).trans
        (gather_value (F := F) tp ix d L 55 (by decide) fl (tile_body.sl.dma0_1 ix d L) rfl hin _ _ rfl _ _ _ x)))) $$ Hb55
  ihave Hrest := (peel (F := F) d L 55 56 (by decide) rfl _ _).2 $$ [Hb55 Hrest]
  · isplitl [Hb55]; · iexact Hb55
    iexact Hrest
  ihave Hb54 := (Entails.of_eq (blk_value (F := F) tp ix o₀ d L 54 (by decide) (6912#32) rfl (k0_off3_inb L 54) fullShare
      (tile_body.sl.dma0_56 tp ix d L fl f1 hinb)
      (fun x => (congrFun (read_newest (F := F) _ _ (tile_body.sl.gather107 tp ix d L fl hinb) _) x).trans
        (gather_value (F := F) tp ix d L 54 (by decide) fl (tile_body.sl.dma0_1 ix d L) rfl hin _ _ rfl _ _ _ x)))) $$ Hb54
  ihave Hrest := (peel (F := F) d L 54 55 (by decide) rfl _ _).2 $$ [Hb54 Hrest]
  · isplitl [Hb54]; · iexact Hb54
    iexact Hrest
  ihave Hb53 := (Entails.of_eq (blk_value (F := F) tp ix o₀ d L 53 (by decide) (6784#32) rfl (k0_off3_inb L 53) fullShare
      (tile_body.sl.dma0_55 tp ix d L fl f2 hinb)
      (fun x => (congrFun (read_newest (F := F) _ _ (tile_body.sl.gather105 tp ix d L fl hinb) _) x).trans
        (gather_value (F := F) tp ix d L 53 (by decide) fl (tile_body.sl.dma0_1 ix d L) rfl hin _ _ rfl _ _ _ x)))) $$ Hb53
  ihave Hrest := (peel (F := F) d L 53 54 (by decide) rfl _ _).2 $$ [Hb53 Hrest]
  · isplitl [Hb53]; · iexact Hb53
    iexact Hrest
  ihave Hb52 := (Entails.of_eq (blk_value (F := F) tp ix o₀ d L 52 (by decide) (6656#32) rfl (k0_off3_inb L 52) fullShare
      (tile_body.sl.dma0_54 tp ix d L fl f1 hinb)
      (fun x => (congrFun (read_newest (F := F) _ _ (tile_body.sl.gather103 tp ix d L fl hinb) _) x).trans
        (gather_value (F := F) tp ix d L 52 (by decide) fl (tile_body.sl.dma0_1 ix d L) rfl hin _ _ rfl _ _ _ x)))) $$ Hb52
  ihave Hrest := (peel (F := F) d L 52 53 (by decide) rfl _ _).2 $$ [Hb52 Hrest]
  · isplitl [Hb52]; · iexact Hb52
    iexact Hrest
  ihave Hb51 := (Entails.of_eq (blk_value (F := F) tp ix o₀ d L 51 (by decide) (6528#32) rfl (k0_off3_inb L 51) fullShare
      (tile_body.sl.dma0_53 tp ix d L fl f2 hinb)
      (fun x => (congrFun (read_newest (F := F) _ _ (tile_body.sl.gather101 tp ix d L fl hinb) _) x).trans
        (gather_value (F := F) tp ix d L 51 (by decide) fl (tile_body.sl.dma0_1 ix d L) rfl hin _ _ rfl _ _ _ x)))) $$ Hb51
  ihave Hrest := (peel (F := F) d L 51 52 (by decide) rfl _ _).2 $$ [Hb51 Hrest]
  · isplitl [Hb51]; · iexact Hb51
    iexact Hrest
  ihave Hb50 := (Entails.of_eq (blk_value (F := F) tp ix o₀ d L 50 (by decide) (6400#32) rfl (k0_off3_inb L 50) fullShare
      (tile_body.sl.dma0_52 tp ix d L fl f1 hinb)
      (fun x => (congrFun (read_newest (F := F) _ _ (tile_body.sl.gather99 tp ix d L fl hinb) _) x).trans
        (gather_value (F := F) tp ix d L 50 (by decide) fl (tile_body.sl.dma0_1 ix d L) rfl hin _ _ rfl _ _ _ x)))) $$ Hb50
  ihave Hrest := (peel (F := F) d L 50 51 (by decide) rfl _ _).2 $$ [Hb50 Hrest]
  · isplitl [Hb50]; · iexact Hb50
    iexact Hrest
  ihave Hb49 := (Entails.of_eq (blk_value (F := F) tp ix o₀ d L 49 (by decide) (6272#32) rfl (k0_off3_inb L 49) fullShare
      (tile_body.sl.dma0_51 tp ix d L fl f2 hinb)
      (fun x => (congrFun (read_newest (F := F) _ _ (tile_body.sl.gather97 tp ix d L fl hinb) _) x).trans
        (gather_value (F := F) tp ix d L 49 (by decide) fl (tile_body.sl.dma0_1 ix d L) rfl hin _ _ rfl _ _ _ x)))) $$ Hb49
  ihave Hrest := (peel (F := F) d L 49 50 (by decide) rfl _ _).2 $$ [Hb49 Hrest]
  · isplitl [Hb49]; · iexact Hb49
    iexact Hrest
  ihave Hb48 := (Entails.of_eq (blk_value (F := F) tp ix o₀ d L 48 (by decide) (6144#32) rfl (k0_off3_inb L 48) fullShare
      (tile_body.sl.dma0_50 tp ix d L fl f1 hinb)
      (fun x => (congrFun (read_newest (F := F) _ _ (tile_body.sl.gather95 tp ix d L fl hinb) _) x).trans
        (gather_value (F := F) tp ix d L 48 (by decide) fl (tile_body.sl.dma0_1 ix d L) rfl hin _ _ rfl _ _ _ x)))) $$ Hb48
  ihave Hrest := (peel (F := F) d L 48 49 (by decide) rfl _ _).2 $$ [Hb48 Hrest]
  · isplitl [Hb48]; · iexact Hb48
    iexact Hrest
  ihave Hb47 := (Entails.of_eq (blk_value (F := F) tp ix o₀ d L 47 (by decide) (6016#32) rfl (k0_off3_inb L 47) fullShare
      (tile_body.sl.dma0_49 tp ix d L fl f2 hinb)
      (fun x => (congrFun (read_newest (F := F) _ _ (tile_body.sl.gather93 tp ix d L fl hinb) _) x).trans
        (gather_value (F := F) tp ix d L 47 (by decide) fl (tile_body.sl.dma0_1 ix d L) rfl hin _ _ rfl _ _ _ x)))) $$ Hb47
  ihave Hrest := (peel (F := F) d L 47 48 (by decide) rfl _ _).2 $$ [Hb47 Hrest]
  · isplitl [Hb47]; · iexact Hb47
    iexact Hrest
  ihave Hb46 := (Entails.of_eq (blk_value (F := F) tp ix o₀ d L 46 (by decide) (5888#32) rfl (k0_off3_inb L 46) fullShare
      (tile_body.sl.dma0_48 tp ix d L fl f1 hinb)
      (fun x => (congrFun (read_newest (F := F) _ _ (tile_body.sl.gather91 tp ix d L fl hinb) _) x).trans
        (gather_value (F := F) tp ix d L 46 (by decide) fl (tile_body.sl.dma0_1 ix d L) rfl hin _ _ rfl _ _ _ x)))) $$ Hb46
  ihave Hrest := (peel (F := F) d L 46 47 (by decide) rfl _ _).2 $$ [Hb46 Hrest]
  · isplitl [Hb46]; · iexact Hb46
    iexact Hrest
  ihave Hb45 := (Entails.of_eq (blk_value (F := F) tp ix o₀ d L 45 (by decide) (5760#32) rfl (k0_off3_inb L 45) fullShare
      (tile_body.sl.dma0_47 tp ix d L fl f2 hinb)
      (fun x => (congrFun (read_newest (F := F) _ _ (tile_body.sl.gather89 tp ix d L fl hinb) _) x).trans
        (gather_value (F := F) tp ix d L 45 (by decide) fl (tile_body.sl.dma0_1 ix d L) rfl hin _ _ rfl _ _ _ x)))) $$ Hb45
  ihave Hrest := (peel (F := F) d L 45 46 (by decide) rfl _ _).2 $$ [Hb45 Hrest]
  · isplitl [Hb45]; · iexact Hb45
    iexact Hrest
  ihave Hb44 := (Entails.of_eq (blk_value (F := F) tp ix o₀ d L 44 (by decide) (5632#32) rfl (k0_off3_inb L 44) fullShare
      (tile_body.sl.dma0_46 tp ix d L fl f1 hinb)
      (fun x => (congrFun (read_newest (F := F) _ _ (tile_body.sl.gather87 tp ix d L fl hinb) _) x).trans
        (gather_value (F := F) tp ix d L 44 (by decide) fl (tile_body.sl.dma0_1 ix d L) rfl hin _ _ rfl _ _ _ x)))) $$ Hb44
  ihave Hrest := (peel (F := F) d L 44 45 (by decide) rfl _ _).2 $$ [Hb44 Hrest]
  · isplitl [Hb44]; · iexact Hb44
    iexact Hrest
  ihave Hb43 := (Entails.of_eq (blk_value (F := F) tp ix o₀ d L 43 (by decide) (5504#32) rfl (k0_off3_inb L 43) fullShare
      (tile_body.sl.dma0_45 tp ix d L fl f2 hinb)
      (fun x => (congrFun (read_newest (F := F) _ _ (tile_body.sl.gather85 tp ix d L fl hinb) _) x).trans
        (gather_value (F := F) tp ix d L 43 (by decide) fl (tile_body.sl.dma0_1 ix d L) rfl hin _ _ rfl _ _ _ x)))) $$ Hb43
  ihave Hrest := (peel (F := F) d L 43 44 (by decide) rfl _ _).2 $$ [Hb43 Hrest]
  · isplitl [Hb43]; · iexact Hb43
    iexact Hrest
  ihave Hb42 := (Entails.of_eq (blk_value (F := F) tp ix o₀ d L 42 (by decide) (5376#32) rfl (k0_off3_inb L 42) fullShare
      (tile_body.sl.dma0_44 tp ix d L fl f1 hinb)
      (fun x => (congrFun (read_newest (F := F) _ _ (tile_body.sl.gather83 tp ix d L fl hinb) _) x).trans
        (gather_value (F := F) tp ix d L 42 (by decide) fl (tile_body.sl.dma0_1 ix d L) rfl hin _ _ rfl _ _ _ x)))) $$ Hb42
  ihave Hrest := (peel (F := F) d L 42 43 (by decide) rfl _ _).2 $$ [Hb42 Hrest]
  · isplitl [Hb42]; · iexact Hb42
    iexact Hrest
  ihave Hb41 := (Entails.of_eq (blk_value (F := F) tp ix o₀ d L 41 (by decide) (5248#32) rfl (k0_off3_inb L 41) fullShare
      (tile_body.sl.dma0_43 tp ix d L fl f2 hinb)
      (fun x => (congrFun (read_newest (F := F) _ _ (tile_body.sl.gather81 tp ix d L fl hinb) _) x).trans
        (gather_value (F := F) tp ix d L 41 (by decide) fl (tile_body.sl.dma0_1 ix d L) rfl hin _ _ rfl _ _ _ x)))) $$ Hb41
  ihave Hrest := (peel (F := F) d L 41 42 (by decide) rfl _ _).2 $$ [Hb41 Hrest]
  · isplitl [Hb41]; · iexact Hb41
    iexact Hrest
  ihave Hb40 := (Entails.of_eq (blk_value (F := F) tp ix o₀ d L 40 (by decide) (5120#32) rfl (k0_off3_inb L 40) fullShare
      (tile_body.sl.dma0_42 tp ix d L fl f1 hinb)
      (fun x => (congrFun (read_newest (F := F) _ _ (tile_body.sl.gather79 tp ix d L fl hinb) _) x).trans
        (gather_value (F := F) tp ix d L 40 (by decide) fl (tile_body.sl.dma0_1 ix d L) rfl hin _ _ rfl _ _ _ x)))) $$ Hb40
  ihave Hrest := (peel (F := F) d L 40 41 (by decide) rfl _ _).2 $$ [Hb40 Hrest]
  · isplitl [Hb40]; · iexact Hb40
    iexact Hrest
  ihave Hb39 := (Entails.of_eq (blk_value (F := F) tp ix o₀ d L 39 (by decide) (4992#32) rfl (k0_off3_inb L 39) fullShare
      (tile_body.sl.dma0_41 tp ix d L fl f2 hinb)
      (fun x => (congrFun (read_newest (F := F) _ _ (tile_body.sl.gather77 tp ix d L fl hinb) _) x).trans
        (gather_value (F := F) tp ix d L 39 (by decide) fl (tile_body.sl.dma0_1 ix d L) rfl hin _ _ rfl _ _ _ x)))) $$ Hb39
  ihave Hrest := (peel (F := F) d L 39 40 (by decide) rfl _ _).2 $$ [Hb39 Hrest]
  · isplitl [Hb39]; · iexact Hb39
    iexact Hrest
  ihave Hb38 := (Entails.of_eq (blk_value (F := F) tp ix o₀ d L 38 (by decide) (4864#32) rfl (k0_off3_inb L 38) fullShare
      (tile_body.sl.dma0_40 tp ix d L fl f1 hinb)
      (fun x => (congrFun (read_newest (F := F) _ _ (tile_body.sl.gather75 tp ix d L fl hinb) _) x).trans
        (gather_value (F := F) tp ix d L 38 (by decide) fl (tile_body.sl.dma0_1 ix d L) rfl hin _ _ rfl _ _ _ x)))) $$ Hb38
  ihave Hrest := (peel (F := F) d L 38 39 (by decide) rfl _ _).2 $$ [Hb38 Hrest]
  · isplitl [Hb38]; · iexact Hb38
    iexact Hrest
  ihave Hb37 := (Entails.of_eq (blk_value (F := F) tp ix o₀ d L 37 (by decide) (4736#32) rfl (k0_off3_inb L 37) fullShare
      (tile_body.sl.dma0_39 tp ix d L fl f2 hinb)
      (fun x => (congrFun (read_newest (F := F) _ _ (tile_body.sl.gather73 tp ix d L fl hinb) _) x).trans
        (gather_value (F := F) tp ix d L 37 (by decide) fl (tile_body.sl.dma0_1 ix d L) rfl hin _ _ rfl _ _ _ x)))) $$ Hb37
  ihave Hrest := (peel (F := F) d L 37 38 (by decide) rfl _ _).2 $$ [Hb37 Hrest]
  · isplitl [Hb37]; · iexact Hb37
    iexact Hrest
  ihave Hb36 := (Entails.of_eq (blk_value (F := F) tp ix o₀ d L 36 (by decide) (4608#32) rfl (k0_off3_inb L 36) fullShare
      (tile_body.sl.dma0_38 tp ix d L fl f1 hinb)
      (fun x => (congrFun (read_newest (F := F) _ _ (tile_body.sl.gather71 tp ix d L fl hinb) _) x).trans
        (gather_value (F := F) tp ix d L 36 (by decide) fl (tile_body.sl.dma0_1 ix d L) rfl hin _ _ rfl _ _ _ x)))) $$ Hb36
  ihave Hrest := (peel (F := F) d L 36 37 (by decide) rfl _ _).2 $$ [Hb36 Hrest]
  · isplitl [Hb36]; · iexact Hb36
    iexact Hrest
  ihave Hb35 := (Entails.of_eq (blk_value (F := F) tp ix o₀ d L 35 (by decide) (4480#32) rfl (k0_off3_inb L 35) fullShare
      (tile_body.sl.dma0_37 tp ix d L fl f2 hinb)
      (fun x => (congrFun (read_newest (F := F) _ _ (tile_body.sl.gather69 tp ix d L fl hinb) _) x).trans
        (gather_value (F := F) tp ix d L 35 (by decide) fl (tile_body.sl.dma0_1 ix d L) rfl hin _ _ rfl _ _ _ x)))) $$ Hb35
  ihave Hrest := (peel (F := F) d L 35 36 (by decide) rfl _ _).2 $$ [Hb35 Hrest]
  · isplitl [Hb35]; · iexact Hb35
    iexact Hrest
  ihave Hb34 := (Entails.of_eq (blk_value (F := F) tp ix o₀ d L 34 (by decide) (4352#32) rfl (k0_off3_inb L 34) fullShare
      (tile_body.sl.dma0_36 tp ix d L fl f1 hinb)
      (fun x => (congrFun (read_newest (F := F) _ _ (tile_body.sl.gather67 tp ix d L fl hinb) _) x).trans
        (gather_value (F := F) tp ix d L 34 (by decide) fl (tile_body.sl.dma0_1 ix d L) rfl hin _ _ rfl _ _ _ x)))) $$ Hb34
  ihave Hrest := (peel (F := F) d L 34 35 (by decide) rfl _ _).2 $$ [Hb34 Hrest]
  · isplitl [Hb34]; · iexact Hb34
    iexact Hrest
  ihave Hb33 := (Entails.of_eq (blk_value (F := F) tp ix o₀ d L 33 (by decide) (4224#32) rfl (k0_off3_inb L 33) fullShare
      (tile_body.sl.dma0_35 tp ix d L fl f2 hinb)
      (fun x => (congrFun (read_newest (F := F) _ _ (tile_body.sl.gather65 tp ix d L fl hinb) _) x).trans
        (gather_value (F := F) tp ix d L 33 (by decide) fl (tile_body.sl.dma0_1 ix d L) rfl hin _ _ rfl _ _ _ x)))) $$ Hb33
  ihave Hrest := (peel (F := F) d L 33 34 (by decide) rfl _ _).2 $$ [Hb33 Hrest]
  · isplitl [Hb33]; · iexact Hb33
    iexact Hrest
  ihave Hb32 := (Entails.of_eq (blk_value (F := F) tp ix o₀ d L 32 (by decide) (4096#32) rfl (k0_off3_inb L 32) fullShare
      (tile_body.sl.dma0_34 tp ix d L fl f1 hinb)
      (fun x => (congrFun (read_newest (F := F) _ _ (tile_body.sl.gather63 tp ix d L fl hinb) _) x).trans
        (gather_value (F := F) tp ix d L 32 (by decide) fl (tile_body.sl.dma0_1 ix d L) rfl hin _ _ rfl _ _ _ x)))) $$ Hb32
  ihave Hrest := (peel (F := F) d L 32 33 (by decide) rfl _ _).2 $$ [Hb32 Hrest]
  · isplitl [Hb32]; · iexact Hb32
    iexact Hrest
  ihave Hb31 := (Entails.of_eq (blk_value (F := F) tp ix o₀ d L 31 (by decide) (3968#32) rfl (k0_off3_inb L 31) fullShare
      (tile_body.sl.dma0_33 tp ix d L fl f2 hinb)
      (fun x => (congrFun (read_newest (F := F) _ _ (tile_body.sl.gather61 tp ix d L fl hinb) _) x).trans
        (gather_value (F := F) tp ix d L 31 (by decide) fl (tile_body.sl.dma0_1 ix d L) rfl hin _ _ rfl _ _ _ x)))) $$ Hb31
  ihave Hrest := (peel (F := F) d L 31 32 (by decide) rfl _ _).2 $$ [Hb31 Hrest]
  · isplitl [Hb31]; · iexact Hb31
    iexact Hrest
  ihave Hb30 := (Entails.of_eq (blk_value (F := F) tp ix o₀ d L 30 (by decide) (3840#32) rfl (k0_off3_inb L 30) fullShare
      (tile_body.sl.dma0_32 tp ix d L fl f1 hinb)
      (fun x => (congrFun (read_newest (F := F) _ _ (tile_body.sl.gather59 tp ix d L fl hinb) _) x).trans
        (gather_value (F := F) tp ix d L 30 (by decide) fl (tile_body.sl.dma0_1 ix d L) rfl hin _ _ rfl _ _ _ x)))) $$ Hb30
  ihave Hrest := (peel (F := F) d L 30 31 (by decide) rfl _ _).2 $$ [Hb30 Hrest]
  · isplitl [Hb30]; · iexact Hb30
    iexact Hrest
  ihave Hb29 := (Entails.of_eq (blk_value (F := F) tp ix o₀ d L 29 (by decide) (3712#32) rfl (k0_off3_inb L 29) fullShare
      (tile_body.sl.dma0_31 tp ix d L fl f2 hinb)
      (fun x => (congrFun (read_newest (F := F) _ _ (tile_body.sl.gather57 tp ix d L fl hinb) _) x).trans
        (gather_value (F := F) tp ix d L 29 (by decide) fl (tile_body.sl.dma0_1 ix d L) rfl hin _ _ rfl _ _ _ x)))) $$ Hb29
  ihave Hrest := (peel (F := F) d L 29 30 (by decide) rfl _ _).2 $$ [Hb29 Hrest]
  · isplitl [Hb29]; · iexact Hb29
    iexact Hrest
  ihave Hb28 := (Entails.of_eq (blk_value (F := F) tp ix o₀ d L 28 (by decide) (3584#32) rfl (k0_off3_inb L 28) fullShare
      (tile_body.sl.dma0_30 tp ix d L fl f1 hinb)
      (fun x => (congrFun (read_newest (F := F) _ _ (tile_body.sl.gather55 tp ix d L fl hinb) _) x).trans
        (gather_value (F := F) tp ix d L 28 (by decide) fl (tile_body.sl.dma0_1 ix d L) rfl hin _ _ rfl _ _ _ x)))) $$ Hb28
  ihave Hrest := (peel (F := F) d L 28 29 (by decide) rfl _ _).2 $$ [Hb28 Hrest]
  · isplitl [Hb28]; · iexact Hb28
    iexact Hrest
  ihave Hb27 := (Entails.of_eq (blk_value (F := F) tp ix o₀ d L 27 (by decide) (3456#32) rfl (k0_off3_inb L 27) fullShare
      (tile_body.sl.dma0_29 tp ix d L fl f2 hinb)
      (fun x => (congrFun (read_newest (F := F) _ _ (tile_body.sl.gather53 tp ix d L fl hinb) _) x).trans
        (gather_value (F := F) tp ix d L 27 (by decide) fl (tile_body.sl.dma0_1 ix d L) rfl hin _ _ rfl _ _ _ x)))) $$ Hb27
  ihave Hrest := (peel (F := F) d L 27 28 (by decide) rfl _ _).2 $$ [Hb27 Hrest]
  · isplitl [Hb27]; · iexact Hb27
    iexact Hrest
  ihave Hb26 := (Entails.of_eq (blk_value (F := F) tp ix o₀ d L 26 (by decide) (3328#32) rfl (k0_off3_inb L 26) fullShare
      (tile_body.sl.dma0_28 tp ix d L fl f1 hinb)
      (fun x => (congrFun (read_newest (F := F) _ _ (tile_body.sl.gather51 tp ix d L fl hinb) _) x).trans
        (gather_value (F := F) tp ix d L 26 (by decide) fl (tile_body.sl.dma0_1 ix d L) rfl hin _ _ rfl _ _ _ x)))) $$ Hb26
  ihave Hrest := (peel (F := F) d L 26 27 (by decide) rfl _ _).2 $$ [Hb26 Hrest]
  · isplitl [Hb26]; · iexact Hb26
    iexact Hrest
  ihave Hb25 := (Entails.of_eq (blk_value (F := F) tp ix o₀ d L 25 (by decide) (3200#32) rfl (k0_off3_inb L 25) fullShare
      (tile_body.sl.dma0_27 tp ix d L fl f2 hinb)
      (fun x => (congrFun (read_newest (F := F) _ _ (tile_body.sl.gather49 tp ix d L fl hinb) _) x).trans
        (gather_value (F := F) tp ix d L 25 (by decide) fl (tile_body.sl.dma0_1 ix d L) rfl hin _ _ rfl _ _ _ x)))) $$ Hb25
  ihave Hrest := (peel (F := F) d L 25 26 (by decide) rfl _ _).2 $$ [Hb25 Hrest]
  · isplitl [Hb25]; · iexact Hb25
    iexact Hrest
  ihave Hb24 := (Entails.of_eq (blk_value (F := F) tp ix o₀ d L 24 (by decide) (3072#32) rfl (k0_off3_inb L 24) fullShare
      (tile_body.sl.dma0_26 tp ix d L fl f1 hinb)
      (fun x => (congrFun (read_newest (F := F) _ _ (tile_body.sl.gather47 tp ix d L fl hinb) _) x).trans
        (gather_value (F := F) tp ix d L 24 (by decide) fl (tile_body.sl.dma0_1 ix d L) rfl hin _ _ rfl _ _ _ x)))) $$ Hb24
  ihave Hrest := (peel (F := F) d L 24 25 (by decide) rfl _ _).2 $$ [Hb24 Hrest]
  · isplitl [Hb24]; · iexact Hb24
    iexact Hrest
  ihave Hb23 := (Entails.of_eq (blk_value (F := F) tp ix o₀ d L 23 (by decide) (2944#32) rfl (k0_off3_inb L 23) fullShare
      (tile_body.sl.dma0_25 tp ix d L fl f2 hinb)
      (fun x => (congrFun (read_newest (F := F) _ _ (tile_body.sl.gather45 tp ix d L fl hinb) _) x).trans
        (gather_value (F := F) tp ix d L 23 (by decide) fl (tile_body.sl.dma0_1 ix d L) rfl hin _ _ rfl _ _ _ x)))) $$ Hb23
  ihave Hrest := (peel (F := F) d L 23 24 (by decide) rfl _ _).2 $$ [Hb23 Hrest]
  · isplitl [Hb23]; · iexact Hb23
    iexact Hrest
  ihave Hb22 := (Entails.of_eq (blk_value (F := F) tp ix o₀ d L 22 (by decide) (2816#32) rfl (k0_off3_inb L 22) fullShare
      (tile_body.sl.dma0_24 tp ix d L fl f1 hinb)
      (fun x => (congrFun (read_newest (F := F) _ _ (tile_body.sl.gather43 tp ix d L fl hinb) _) x).trans
        (gather_value (F := F) tp ix d L 22 (by decide) fl (tile_body.sl.dma0_1 ix d L) rfl hin _ _ rfl _ _ _ x)))) $$ Hb22
  ihave Hrest := (peel (F := F) d L 22 23 (by decide) rfl _ _).2 $$ [Hb22 Hrest]
  · isplitl [Hb22]; · iexact Hb22
    iexact Hrest
  ihave Hb21 := (Entails.of_eq (blk_value (F := F) tp ix o₀ d L 21 (by decide) (2688#32) rfl (k0_off3_inb L 21) fullShare
      (tile_body.sl.dma0_23 tp ix d L fl f2 hinb)
      (fun x => (congrFun (read_newest (F := F) _ _ (tile_body.sl.gather41 tp ix d L fl hinb) _) x).trans
        (gather_value (F := F) tp ix d L 21 (by decide) fl (tile_body.sl.dma0_1 ix d L) rfl hin _ _ rfl _ _ _ x)))) $$ Hb21
  ihave Hrest := (peel (F := F) d L 21 22 (by decide) rfl _ _).2 $$ [Hb21 Hrest]
  · isplitl [Hb21]; · iexact Hb21
    iexact Hrest
  ihave Hb20 := (Entails.of_eq (blk_value (F := F) tp ix o₀ d L 20 (by decide) (2560#32) rfl (k0_off3_inb L 20) fullShare
      (tile_body.sl.dma0_22 tp ix d L fl f1 hinb)
      (fun x => (congrFun (read_newest (F := F) _ _ (tile_body.sl.gather39 tp ix d L fl hinb) _) x).trans
        (gather_value (F := F) tp ix d L 20 (by decide) fl (tile_body.sl.dma0_1 ix d L) rfl hin _ _ rfl _ _ _ x)))) $$ Hb20
  ihave Hrest := (peel (F := F) d L 20 21 (by decide) rfl _ _).2 $$ [Hb20 Hrest]
  · isplitl [Hb20]; · iexact Hb20
    iexact Hrest
  ihave Hb19 := (Entails.of_eq (blk_value (F := F) tp ix o₀ d L 19 (by decide) (2432#32) rfl (k0_off3_inb L 19) fullShare
      (tile_body.sl.dma0_21 tp ix d L fl f2 hinb)
      (fun x => (congrFun (read_newest (F := F) _ _ (tile_body.sl.gather37 tp ix d L fl hinb) _) x).trans
        (gather_value (F := F) tp ix d L 19 (by decide) fl (tile_body.sl.dma0_1 ix d L) rfl hin _ _ rfl _ _ _ x)))) $$ Hb19
  ihave Hrest := (peel (F := F) d L 19 20 (by decide) rfl _ _).2 $$ [Hb19 Hrest]
  · isplitl [Hb19]; · iexact Hb19
    iexact Hrest
  ihave Hb18 := (Entails.of_eq (blk_value (F := F) tp ix o₀ d L 18 (by decide) (2304#32) rfl (k0_off3_inb L 18) fullShare
      (tile_body.sl.dma0_20 tp ix d L fl f1 hinb)
      (fun x => (congrFun (read_newest (F := F) _ _ (tile_body.sl.gather35 tp ix d L fl hinb) _) x).trans
        (gather_value (F := F) tp ix d L 18 (by decide) fl (tile_body.sl.dma0_1 ix d L) rfl hin _ _ rfl _ _ _ x)))) $$ Hb18
  ihave Hrest := (peel (F := F) d L 18 19 (by decide) rfl _ _).2 $$ [Hb18 Hrest]
  · isplitl [Hb18]; · iexact Hb18
    iexact Hrest
  ihave Hb17 := (Entails.of_eq (blk_value (F := F) tp ix o₀ d L 17 (by decide) (2176#32) rfl (k0_off3_inb L 17) fullShare
      (tile_body.sl.dma0_19 tp ix d L fl f2 hinb)
      (fun x => (congrFun (read_newest (F := F) _ _ (tile_body.sl.gather33 tp ix d L fl hinb) _) x).trans
        (gather_value (F := F) tp ix d L 17 (by decide) fl (tile_body.sl.dma0_1 ix d L) rfl hin _ _ rfl _ _ _ x)))) $$ Hb17
  ihave Hrest := (peel (F := F) d L 17 18 (by decide) rfl _ _).2 $$ [Hb17 Hrest]
  · isplitl [Hb17]; · iexact Hb17
    iexact Hrest
  ihave Hb16 := (Entails.of_eq (blk_value (F := F) tp ix o₀ d L 16 (by decide) (2048#32) rfl (k0_off3_inb L 16) fullShare
      (tile_body.sl.dma0_18 tp ix d L fl f1 hinb)
      (fun x => (congrFun (read_newest (F := F) _ _ (tile_body.sl.gather31 tp ix d L fl hinb) _) x).trans
        (gather_value (F := F) tp ix d L 16 (by decide) fl (tile_body.sl.dma0_1 ix d L) rfl hin _ _ rfl _ _ _ x)))) $$ Hb16
  ihave Hrest := (peel (F := F) d L 16 17 (by decide) rfl _ _).2 $$ [Hb16 Hrest]
  · isplitl [Hb16]; · iexact Hb16
    iexact Hrest
  ihave Hb15 := (Entails.of_eq (blk_value (F := F) tp ix o₀ d L 15 (by decide) (1920#32) rfl (k0_off3_inb L 15) fullShare
      (tile_body.sl.dma0_17 tp ix d L fl f2 hinb)
      (fun x => (congrFun (read_newest (F := F) _ _ (tile_body.sl.gather29 tp ix d L fl hinb) _) x).trans
        (gather_value (F := F) tp ix d L 15 (by decide) fl (tile_body.sl.dma0_1 ix d L) rfl hin _ _ rfl _ _ _ x)))) $$ Hb15
  ihave Hrest := (peel (F := F) d L 15 16 (by decide) rfl _ _).2 $$ [Hb15 Hrest]
  · isplitl [Hb15]; · iexact Hb15
    iexact Hrest
  ihave Hb14 := (Entails.of_eq (blk_value (F := F) tp ix o₀ d L 14 (by decide) (1792#32) rfl (k0_off3_inb L 14) fullShare
      (tile_body.sl.dma0_16 tp ix d L fl f1 hinb)
      (fun x => (congrFun (read_newest (F := F) _ _ (tile_body.sl.gather27 tp ix d L fl hinb) _) x).trans
        (gather_value (F := F) tp ix d L 14 (by decide) fl (tile_body.sl.dma0_1 ix d L) rfl hin _ _ rfl _ _ _ x)))) $$ Hb14
  ihave Hrest := (peel (F := F) d L 14 15 (by decide) rfl _ _).2 $$ [Hb14 Hrest]
  · isplitl [Hb14]; · iexact Hb14
    iexact Hrest
  ihave Hb13 := (Entails.of_eq (blk_value (F := F) tp ix o₀ d L 13 (by decide) (1664#32) rfl (k0_off3_inb L 13) fullShare
      (tile_body.sl.dma0_15 tp ix d L fl f2 hinb)
      (fun x => (congrFun (read_newest (F := F) _ _ (tile_body.sl.gather25 tp ix d L fl hinb) _) x).trans
        (gather_value (F := F) tp ix d L 13 (by decide) fl (tile_body.sl.dma0_1 ix d L) rfl hin _ _ rfl _ _ _ x)))) $$ Hb13
  ihave Hrest := (peel (F := F) d L 13 14 (by decide) rfl _ _).2 $$ [Hb13 Hrest]
  · isplitl [Hb13]; · iexact Hb13
    iexact Hrest
  ihave Hb12 := (Entails.of_eq (blk_value (F := F) tp ix o₀ d L 12 (by decide) (1536#32) rfl (k0_off3_inb L 12) fullShare
      (tile_body.sl.dma0_14 tp ix d L fl f1 hinb)
      (fun x => (congrFun (read_newest (F := F) _ _ (tile_body.sl.gather23 tp ix d L fl hinb) _) x).trans
        (gather_value (F := F) tp ix d L 12 (by decide) fl (tile_body.sl.dma0_1 ix d L) rfl hin _ _ rfl _ _ _ x)))) $$ Hb12
  ihave Hrest := (peel (F := F) d L 12 13 (by decide) rfl _ _).2 $$ [Hb12 Hrest]
  · isplitl [Hb12]; · iexact Hb12
    iexact Hrest
  ihave Hb11 := (Entails.of_eq (blk_value (F := F) tp ix o₀ d L 11 (by decide) (1408#32) rfl (k0_off3_inb L 11) fullShare
      (tile_body.sl.dma0_13 tp ix d L fl f2 hinb)
      (fun x => (congrFun (read_newest (F := F) _ _ (tile_body.sl.gather21 tp ix d L fl hinb) _) x).trans
        (gather_value (F := F) tp ix d L 11 (by decide) fl (tile_body.sl.dma0_1 ix d L) rfl hin _ _ rfl _ _ _ x)))) $$ Hb11
  ihave Hrest := (peel (F := F) d L 11 12 (by decide) rfl _ _).2 $$ [Hb11 Hrest]
  · isplitl [Hb11]; · iexact Hb11
    iexact Hrest
  ihave Hb10 := (Entails.of_eq (blk_value (F := F) tp ix o₀ d L 10 (by decide) (1280#32) rfl (k0_off3_inb L 10) fullShare
      (tile_body.sl.dma0_12 tp ix d L fl f1 hinb)
      (fun x => (congrFun (read_newest (F := F) _ _ (tile_body.sl.gather19 tp ix d L fl hinb) _) x).trans
        (gather_value (F := F) tp ix d L 10 (by decide) fl (tile_body.sl.dma0_1 ix d L) rfl hin _ _ rfl _ _ _ x)))) $$ Hb10
  ihave Hrest := (peel (F := F) d L 10 11 (by decide) rfl _ _).2 $$ [Hb10 Hrest]
  · isplitl [Hb10]; · iexact Hb10
    iexact Hrest
  ihave Hb9 := (Entails.of_eq (blk_value (F := F) tp ix o₀ d L 9 (by decide) (1152#32) rfl (k0_off3_inb L 9) fullShare
      (tile_body.sl.dma0_11 tp ix d L fl f2 hinb)
      (fun x => (congrFun (read_newest (F := F) _ _ (tile_body.sl.gather17 tp ix d L fl hinb) _) x).trans
        (gather_value (F := F) tp ix d L 9 (by decide) fl (tile_body.sl.dma0_1 ix d L) rfl hin _ _ rfl _ _ _ x)))) $$ Hb9
  ihave Hrest := (peel (F := F) d L 9 10 (by decide) rfl _ _).2 $$ [Hb9 Hrest]
  · isplitl [Hb9]; · iexact Hb9
    iexact Hrest
  ihave Hb8 := (Entails.of_eq (blk_value (F := F) tp ix o₀ d L 8 (by decide) (1024#32) rfl (k0_off3_inb L 8) fullShare
      (tile_body.sl.dma0_10 tp ix d L fl f1 hinb)
      (fun x => (congrFun (read_newest (F := F) _ _ (tile_body.sl.gather15 tp ix d L fl hinb) _) x).trans
        (gather_value (F := F) tp ix d L 8 (by decide) fl (tile_body.sl.dma0_1 ix d L) rfl hin _ _ rfl _ _ _ x)))) $$ Hb8
  ihave Hrest := (peel (F := F) d L 8 9 (by decide) rfl _ _).2 $$ [Hb8 Hrest]
  · isplitl [Hb8]; · iexact Hb8
    iexact Hrest
  ihave Hb7 := (Entails.of_eq (blk_value (F := F) tp ix o₀ d L 7 (by decide) (896#32) rfl (k0_off3_inb L 7) fullShare
      (tile_body.sl.dma0_9 tp ix d L fl f2 hinb)
      (fun x => (congrFun (read_newest (F := F) _ _ (tile_body.sl.gather13 tp ix d L fl hinb) _) x).trans
        (gather_value (F := F) tp ix d L 7 (by decide) fl (tile_body.sl.dma0_1 ix d L) rfl hin _ _ rfl _ _ _ x)))) $$ Hb7
  ihave Hrest := (peel (F := F) d L 7 8 (by decide) rfl _ _).2 $$ [Hb7 Hrest]
  · isplitl [Hb7]; · iexact Hb7
    iexact Hrest
  ihave Hb6 := (Entails.of_eq (blk_value (F := F) tp ix o₀ d L 6 (by decide) (768#32) rfl (k0_off3_inb L 6) fullShare
      (tile_body.sl.dma0_8 tp ix d L fl f1 hinb)
      (fun x => (congrFun (read_newest (F := F) _ _ (tile_body.sl.gather11 tp ix d L fl hinb) _) x).trans
        (gather_value (F := F) tp ix d L 6 (by decide) fl (tile_body.sl.dma0_1 ix d L) rfl hin _ _ rfl _ _ _ x)))) $$ Hb6
  ihave Hrest := (peel (F := F) d L 6 7 (by decide) rfl _ _).2 $$ [Hb6 Hrest]
  · isplitl [Hb6]; · iexact Hb6
    iexact Hrest
  ihave Hb5 := (Entails.of_eq (blk_value (F := F) tp ix o₀ d L 5 (by decide) (640#32) rfl (k0_off3_inb L 5) fullShare
      (tile_body.sl.dma0_7 tp ix d L fl f2 hinb)
      (fun x => (congrFun (read_newest (F := F) _ _ (tile_body.sl.gather9 tp ix d L fl hinb) _) x).trans
        (gather_value (F := F) tp ix d L 5 (by decide) fl (tile_body.sl.dma0_1 ix d L) rfl hin _ _ rfl _ _ _ x)))) $$ Hb5
  ihave Hrest := (peel (F := F) d L 5 6 (by decide) rfl _ _).2 $$ [Hb5 Hrest]
  · isplitl [Hb5]; · iexact Hb5
    iexact Hrest
  ihave Hb4 := (Entails.of_eq (blk_value (F := F) tp ix o₀ d L 4 (by decide) (512#32) rfl (k0_off3_inb L 4) fullShare
      (tile_body.sl.dma0_6 tp ix d L fl f1 hinb)
      (fun x => (congrFun (read_newest (F := F) _ _ (tile_body.sl.gather7 tp ix d L fl hinb) _) x).trans
        (gather_value (F := F) tp ix d L 4 (by decide) fl (tile_body.sl.dma0_1 ix d L) rfl hin _ _ rfl _ _ _ x)))) $$ Hb4
  ihave Hrest := (peel (F := F) d L 4 5 (by decide) rfl _ _).2 $$ [Hb4 Hrest]
  · isplitl [Hb4]; · iexact Hb4
    iexact Hrest
  ihave Hb3 := (Entails.of_eq (blk_value (F := F) tp ix o₀ d L 3 (by decide) (384#32) rfl (k0_off3_inb L 3) fullShare
      (tile_body.sl.dma0_5 tp ix d L fl f2 hinb)
      (fun x => (congrFun (read_newest (F := F) _ _ (tile_body.sl.gather5 tp ix d L fl hinb) _) x).trans
        (gather_value (F := F) tp ix d L 3 (by decide) fl (tile_body.sl.dma0_1 ix d L) rfl hin _ _ rfl _ _ _ x)))) $$ Hb3
  ihave Hrest := (peel (F := F) d L 3 4 (by decide) rfl _ _).2 $$ [Hb3 Hrest]
  · isplitl [Hb3]; · iexact Hb3
    iexact Hrest
  ihave Hb2 := (Entails.of_eq (blk_value (F := F) tp ix o₀ d L 2 (by decide) (256#32) rfl (k0_off3_inb L 2) fullShare
      (tile_body.sl.dma0_4 tp ix d L fl f1 hinb)
      (fun x => (congrFun (read_newest (F := F) _ _ (tile_body.sl.gather3 tp ix d L fl hinb) _) x).trans
        (gather_value (F := F) tp ix d L 2 (by decide) fl (tile_body.sl.dma0_1 ix d L) rfl hin _ _ rfl _ _ _ x)))) $$ Hb2
  ihave Hrest := (peel (F := F) d L 2 3 (by decide) rfl _ _).2 $$ [Hb2 Hrest]
  · isplitl [Hb2]; · iexact Hb2
    iexact Hrest
  ihave Hb1 := (Entails.of_eq (blk_value (F := F) tp ix o₀ d L 1 (by decide) (128#32) rfl (k0_off3_inb L 1) fullShare
      (tile_body.sl.dma0_3 tp ix d L fl f2 hinb)
      (fun x => (congrFun (read_newest (F := F) _ _ (tile_body.sl.gather1 tp ix d L fl hinb) _) x).trans
        (gather_value (F := F) tp ix d L 1 (by decide) fl (tile_body.sl.dma0_1 ix d L) rfl hin _ _ rfl _ _ _ x)))) $$ Hb1
  ihave Hrest := (peel (F := F) d L 1 2 (by decide) rfl _ _).2 $$ [Hb1 Hrest]
  · isplitl [Hb1]; · iexact Hb1
    iexact Hrest
  ihave Hb0 := (Entails.of_eq (blk_value (F := F) tp ix o₀ d L 0 (by decide) (0#32) rfl (k0_off3_inb L 0) fullShare
      (tile_body.sl.dma0_2 tp ix d L fl f1 hinb)
      (fun x => (congrFun (read_newest (F := F) _ _ (tile_body.sl.gather0 tp ix d L fl hinb) _) x).trans
        (gather_value (F := F) tp ix d L 0 (by decide) fl (tile_body.sl.dma0_1 ix d L) rfl hin _ _ rfl _ _ _ x)))) $$ Hb0
  ihave Hrest := (peel (F := F) d L 0 1 (by decide) rfl _ _).2 $$ [Hb0 Hrest]
  · isplitl [Hb0]; · iexact Hb0
    iexact Hrest
  ihave Ho := (Entails.of_eq (pts_rest0 (F := F) d L _ _).symm) $$ Hrest
  isplitl [Ht Hi Ho Hall Hkept]
  · unfold tdRes
    isplitl [Ht]; · iexact Ht
    isplitl [Hi]; · iexact Hi
    isplitl [Ho]; · iexact Ho
    isplitl [Hall]; · iexact Hall
    iexact Hkept
  isplitl [Hl' Hr1' Hr2' Hbufs]
  · isplitl [Hl']; · iexists _; iexact Hl'
    isplitl [Hr1']; · iexists _; iexact Hr1'
    isplitl [Hr2']; · iexists _; iexact Hr2'
    iexact Hbufs
  isplitl [HsT HsI HsG1 HsG2 HsS1 HsS2 Hsems]
  · isplitl [HsT]; · iexact HsT
    isplitl [HsI]; · iexact HsI
    isplitl [HsG1]; · iexact HsG1
    isplitl [HsG2]; · iexact HsG2
    isplitl [HsS1]; · iexact HsS1
    isplitl [HsS2]; · iexact HsS2
    iexact Hsems
  iexists _; isplitr
  swap; · iexact HO
  ipureintro
  repeat (refine waits_ins (by first | exact Or.inr (Or.inl rfl) | exact Or.inr (Or.inr rfl)) ?_)
  exact fun p hp => Or.inl hp

end Tile

end Cert.Proof.KI

end
-- ==== Proof.KIMain.lean ====
/-
  @main on the TensorCore, and how the final memory reads the claim.

  Before the SparseCores are started the TensorCore flattens the index array and pads the table: four host operations
  over the arguments and four values of their own. The padded table is then cut into two read shares, one per
  SparseCore; the flat indices and the rows of the result are cut into the thirty-two pieces of 8192 the workers own,
  worker 2·s + c being task s of SparseCore c. When the SparseCores are done the thirty-two pieces of the result, each
  holding the rows read through its indices, make the whole array of gathered rows again; it is cut back to 64 columns
  and folded, and what the fold holds is the lookup. The arguments are only read: they end as they began.
-/
import proofs.«204540_g20890720928596_cont_8to1_1350_21_alg».proof.Proof.KICommon
import proofs.«204540_g20890720928596_cont_8to1_1350_21_alg».proof.Proof.HostValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The thirty-two workers as two SparseCores of sixteen tasks -/

/-- Worker 2·s + c is task s of SparseCore c: a bijection. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-- A family over the workers, taken SparseCore by SparseCore and task by task. -/
theorem bigSep_workers (Φ : Fin 32 → sProp 𝕄) :
    (bigSep Finset.univ fun c : Fin 2 => bigSep Finset.univ fun s : Fin 16 => Φ (wid c s)) = bigSep Finset.univ Φ := by
  rw [← bigSep_univ_prod (fun p : Fin 2 × Fin 16 => Φ (wid p.1 p.2)), bigSep_univ_equiv widEquiv Φ]
  rfl

/-- A family over the call's core numbers is one over the two SparseCores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The flat indices and the gathered rows, whole and in the workers' pieces -/

theorem idx_disjoint : ∀ w ∈ (Finset.univ : Finset (Fin 32)), ∀ w' ∈ (Finset.univ : Finset (Fin 32)), w ≠ w' → Disjoint (idxSet w) (idxSet w') :=
  fun _ _ _ _ h => Rect.part_disjoint hdivI h
theorem idx_cover : (Finset.univ : Finset (Fin 32)).biUnion idxSet = Finset.univ := Rect.biUnion_part hdivI
theorem out_disjoint : ∀ w ∈ (Finset.univ : Finset (Fin 32)), ∀ w' ∈ (Finset.univ : Finset (Fin 32)), w ≠ w' → Disjoint (outSet w) (outSet w') :=
  fun _ _ _ _ h => Rect.part_disjoint hdivO h
theorem out_cover : (Finset.univ : Finset (Fin 32)).biUnion outSet = Finset.univ := Rect.biUnion_part hdivO

theorem iPts_parts (d : Dev nD) (f : Buf (Elt F) (iLoc d)) :
    (iLoc d ↦{fullShare} f : sProp 𝕄) = bigSep Finset.univ fun w : Fin 32 => iLoc d ↦[idxSet w]{fullShare} f := by
  rw [← pointsTo_biUnion Finset.univ (ℓ := iLoc d) idxSet idx_disjoint, idx_cover]; try rfl
theorem oPts_parts (d : Dev nD) (f : Buf (Elt F) (oLoc d)) :
    (oLoc d ↦{fullShare} f : sProp 𝕄) = bigSep Finset.univ fun w : Fin 32 => oLoc d ↦[outSet w]{fullShare} f := by
  rw [← pointsTo_biUnion Finset.univ (ℓ := oLoc d) outSet out_disjoint, out_cover]; try rfl

variable [FloatOps F]

variable (tp : (d : Dev nD) → Buf (Elt F) (tLoc d)) (ix : (d : Dev nD) → Buf (Elt F) (iLoc d))
variable (o₀ : (d : Dev nD) → Buf (Elt F) (oLoc d))

/-- What the two SparseCores hold between them, the result's rows at o: the two read shares of the padded table, the
    flat indices whole and the result whole. -/
theorem cores_eq (d : Dev nD) (o : Buf (Elt F) (oLoc d)) :
    (bigSep Finset.univ fun c : Fin 2 => iprop((tLoc d ↦{coreShare c} tp d) ∗ bigSep Finset.univ fun s : Fin 16 =>
        iprop((iLoc d ↦[idxSet (wid c s)]{fullShare} ix d) ∗ (oLoc d ↦[outSet (wid c s)]{fullShare} o))) : sProp 𝕄)
      = iprop((bigSep Finset.univ fun c : Fin 2 => tLoc d ↦{coreShare c} tp d) ∗ (iLoc d ↦{fullShare} ix d) ∗ (oLoc d ↦{fullShare} o)) := by
  rw [bigSep_sep', bigSep_workers (fun w => iprop((iLoc d ↦[idxSet w]{fullShare} ix d) ∗ (oLoc d ↦[outSet w]{fullShare} o))),
    bigSep_sep', ← iPts_parts, ← oPts_parts]

/-- What the call takes for the two SparseCores, and what it hands back. -/
theorem st0_eq (d : Dev nD) :
    (bigSep Finset.univ fun c : Fin ((K (F := F)).nCore 0) => (P tp ix o₀).st 0 d c)
      = iprop((bigSep Finset.univ fun c : Fin 2 => tLoc d ↦{coreShare c} tp d) ∗ (iLoc d ↦{fullShare} ix d) ∗ (oLoc d ↦{fullShare} o₀ d)) := by
  show (bigSep Finset.univ fun c : Fin ((K (F := F)).nCore 0) => stRes tp ix o₀ d (Fin.cast nCore_zero c)) = _
  rw [bigSep_cores (F := F) (fun c => stRes tp ix o₀ d c)]
  exact cores_eq tp ix d (o₀ d)
theorem dn0_eq (d : Dev nD) :
    (bigSep Finset.univ fun c : Fin ((K (F := F)).nCore 0) => (P tp ix o₀).dn 0 d c)
      = iprop((bigSep Finset.univ fun c : Fin 2 => tLoc d ↦{coreShare c} tp d) ∗ (iLoc d ↦{fullShare} ix d) ∗ (oLoc d ↦{fullShare} rowsOf tp ix d)) := by
  show (bigSep Finset.univ fun c : Fin ((K (F := F)).nCore 0) => dnRes tp ix d (Fin.cast nCore_zero c)) = _
  rw [bigSep_cores (F := F) (fun c => dnRes tp ix d c)]
  exact cores_eq tp ix d (rowsOf tp ix d)

/-! ## @main on the TensorCore -/

section Main

variable (m : (ℓ : Loc nD τ sig) → Buf (Elt F) ℓ) (ρ : Dev nD → PrngReg)

abbrev sLoc (d : Dev nD) : Loc nD τ sig := (SparseCore.T d).loc main_v3
abbrev rLoc (d : Dev nD) : Loc nD τ sig := (SparseCore.T d).loc main_v4

/-- The TensorCore's nine arrays: the arguments, the flat indices, the padding constant as a word and as a number, the
    padded table, the gathered rows, their cut to 64 columns, the result. -/
abbrev dA : DevRef τ sig := Proc.devRef .tc (main_arg0 : Ref sig .tc)
abbrev dB : DevRef τ sig := Proc.devRef .tc (main_arg1 : Ref sig .tc)
abbrev dI : DevRef τ sig := Proc.devRef .tc (main_v0 : Ref sig .tc)
abbrev dC : DevRef τ sig := Proc.devRef .tc (main_c : Ref sig .tc)
abbrev dZ : DevRef τ sig := Proc.devRef .tc (main_call0_v0 : Ref sig .tc)
abbrev dT : DevRef τ sig := Proc.devRef .tc (main_v1 : Ref sig .tc)
abbrev dO : DevRef τ sig := Proc.devRef .tc (main_v2 : Ref sig .tc)
abbrev dS : DevRef τ sig := Proc.devRef .tc (main_v3 : Ref sig .tc)
abbrev dR : DevRef τ sig := Proc.devRef .tc (main_v4 : Ref sig .tc)

/-- The six the operations before the call touch, and the three those after it touch. -/
abbrev S6 : Finset (DevRef τ sig) := {dA, dB, dI, dC, dZ, dT}
abbrev S3 : Finset (DevRef τ sig) := {dO, dS, dR}

/-- The operations, as @main and the padding function's body spell them. -/
abbrev opFlat : HloOp τ sig (Elt F) := StableHlo.reshape main_arg1 main_v0 rfl shapeCasts_S256x32x32_S262144
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) :=
  StableHlo.TRef.binary (.of main_arg0 : StableHlo.TRef sig ⟨S8192x64, .f32⟩) main_call0.v0 main_call0.v1
    (fun x v => pad S8192x128 ![0, 0] ![0, 64] ![0, 0] x v pads_S8192x64_S8192x128_000_0640 h_S_)
abbrev opCut : HloOp τ sig (Elt F) :=
  StableHlo.unary main_v2 main_v3 ((extractStridedSlice S262144x64 ![0, 0] · slices_S262144x128_S262144x64_0_0) :
    (⟨S262144x128, .f32⟩ : BufTy).Contents (Elt F) → (⟨S262144x64, .f32⟩ : BufTy).Contents (Elt F))
abbrev opFold : HloOp τ sig (Elt F) := StableHlo.reshape main_v3 main_v4 rfl shapeCasts_S262144x64_S256x32x32x64

theorem hFlat : (opFlat (F := F)).bufs ⊆ S6 := show ({dB, dI} : Finset (DevRef τ sig)) ⊆ S6 by decide
theorem hZero : (opZero (F := F)).bufs ⊆ S6 := show ({dC} : Finset (DevRef τ sig)) ⊆ S6 by decide
theorem hConv : (opConv (F := F)).bufs ⊆ S6 := show ({dC, dZ} : Finset (DevRef τ sig)) ⊆ S6 by decide
theorem hPad : (opPad (F := F)).bufs ⊆ S6 := show ({dA, dZ, dT} : Finset (DevRef τ sig)) ⊆ S6 by decide
theorem hCut : (opCut (F := F)).bufs ⊆ S3 := show ({dO, dS} : Finset (DevRef τ sig)) ⊆ S3 by decide
theorem hFold : (opFold (F := F)).bufs ⊆ S3 := show ({dS, dR} : Finset (DevRef τ sig)) ⊆ S3 by decide

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_v0)
      ∗ ((SparseCore.T d).loc main_c ↦{fullShare} W main_c) ∗ ((SparseCore.T d).loc main_call0_v0 ↦{fullShare} W main_call0_v0)
      ∗ (tLoc d ↦{fullShare} W main_v1) ∗ (oLoc d ↦{fullShare} W main_v2) ∗ (sLoc d ↦{fullShare} W main_v3) ∗ rLoc d ↦{fullShare} W main_v4) := by
  unfold unscopedBufs
  rw [show (Finset.univ.filter fun b : Ref sig .tc => ¬ b.isScoped)
      = {main_arg0, main_arg1, main_v0, main_c, main_call0_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S6 (d : Dev nD) (W : Valuation τ sig (Elt F)) :
    (held (T d) S6 W : sProp 𝕄) = iprop((aLoc d ↦{fullShare} W dA) ∗ (bLoc d ↦{fullShare} W dB) ∗ (iLoc d ↦{fullShare} W dI)
      ∗ ((SparseCore.T d).loc main_c ↦{fullShare} W dC) ∗ ((SparseCore.T d).loc main_call0_v0 ↦{fullShare} W dZ) ∗ (tLoc d ↦{fullShare} W dT)) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S3 (d : Dev nD) (W : Valuation τ sig (Elt F)) :
    (held (T d) S3 W : sProp 𝕄) = iprop((oLoc d ↦{fullShare} W dO) ∗ (sLoc d ↦{fullShare} W dS) ∗ (rLoc d ↦{fullShare} W dR)) := by
  unfold held S3
  rw [SparseCore.bigSep_insert' (by decide), SparseCore.bigSep_insert' (by decide), bigSep_singleton]

/-- The launch contents; what the six arrays hold once the four operations before the call have run; what the three
    hold when the SparseCores are done, and once the two operations after the call have run. -/
def V0 (d : Dev nD) : Valuation τ sig (Elt F) := fun b => m (d, b)
def V4 (d : Dev nD) : Valuation τ sig (Elt F) :=
  (opPad (F := F)).result ((opConv (F := F)).result ((opZero (F := F)).result ((opFlat (F := F)).result (V0 m d))))
def V5 (d : Dev nD) : Valuation τ sig (Elt F) := Function.update (V0 m d) dO (rowsOf (tpOf m) (ixOf m) d)
def V7 (d : Dev nD) : Valuation τ sig (Elt F) := (opFold (F := F)).result ((opCut (F := F)).result (V5 m d))

theorem V4_a (d : Dev nD) : V4 m d dA = m (aLoc d) := by
  unfold V4
  rw [StableHlo.binary_result_ne (h := by decide), StableHlo.unary_result_ne (h := by decide), StableHlo.nullary_result_ne (h := by decide),
    StableHlo.reshape_result_ne (h := by decide)]
  rfl
theorem V4_b (d : Dev nD) : V4 m d dB = m (bLoc d) := by
  unfold V4
  rw [StableHlo.binary_result_ne (h := by decide), StableHlo.unary_result_ne (h := by decide), StableHlo.nullary_result_ne (h := by decide),
    StableHlo.reshape_result_ne (h := by decide)]
  rfl
theorem V4_i (d : Dev nD) : V4 m d dI = ixOf m d := by
  unfold V4
  rw [StableHlo.binary_result_ne (h := by decide), StableHlo.unary_result_ne (h := by decide), StableHlo.nullary_result_ne (h := by decide),
    StableHlo.reshape_result]
  rfl
theorem V4_t (d : Dev nD) : V4 m d dT = tpOf m d := by
  unfold V4
  rw [StableHlo.binary_result, StableHlo.unary_result_ne (h := by decide), StableHlo.nullary_result_ne (h := by decide),
    StableHlo.reshape_result_ne (h := by decide), StableHlo.unary_result, StableHlo.nullary_result]
  rfl

theorem V5_o (d : Dev nD) : V5 m d dO = rowsOf (tpOf m) (ixOf m) d := Function.update_self _ _ _
theorem V5_s (d : Dev nD) : V5 m d dS = m (sLoc d) := Function.update_of_ne (show dS ≠ dO by decide) _ _
theorem V5_r (d : Dev nD) : V5 m d dR = m (rLoc d) := Function.update_of_ne (show dR ≠ dO by decide) _ _

/-- The fold of the cut-back gathered rows is the lookup. -/
theorem V7_r (d : Dev nD) : V7 m d dR = Spec.lookup (α := Elt F .f32) (m (aLoc d)) (m (bLoc d)) := by
  unfold V7
  rw [StableHlo.reshape_result, StableHlo.unary_result, V5_o]
  exact Cert.Proof.HostValue.out_eq pads_S8192x64_S8192x128_000_0640 h_S_ shapeCasts_S256x32x32_S262144
    slices_S262144x128_S262144x64_0_0 shapeCasts_S262144x64_S256x32x32x64 (m (aLoc d)) (sitofp .f32 (constantI S_ 32 0#32)) (m (bLoc d))

/-- what the TensorCore ends with: the arguments whole at their launch contents, the result whole at the lookup -/
abbrev FIN (d : Dev nD) : sProp 𝕄 :=
  iprop((aLoc d ↦{fullShare} m (aLoc d)) ∗ (bLoc d ↦{fullShare} m (bLoc d)) ∗ (rLoc d ↦{fullShare} (Spec.lookup (α := Elt F .f32) (m (aLoc d)) (m (bLoc d)))))

def fq (d : Dev nD) (s' : Phys nD τ sig (Elt F)) : Prop :=
  s'.mem.mem (rLoc d) = Spec.lookup (α := Elt F .f32) (m (aLoc d)) (m (bLoc d)) ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare)
    (f := Spec.lookup (α := Elt F .f32) (m (aLoc d)) (m (bLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Main

section Run

variable (m : (ℓ : Loc nD τ sig) → Buf (Elt F) ℓ) (ρ : Dev nD → PrngReg)

/-- The six arrays once the four operations before the call have run: the arguments as they were, the flat indices and
    the padded table as the SparseCores are handed them. -/
theorem held_V4 (d : Dev nD) :
    (held (T d) S6 ((opPad (F := F)).result ((opConv (F := F)).result ((opZero (F := F)).result ((opFlat (F := F)).result (V0 m d))))) : sProp 𝕄)
      = iprop((aLoc d ↦{fullShare} m (aLoc d)) ∗ (bLoc d ↦{fullShare} m (bLoc d)) ∗ (iLoc d ↦{fullShare} ixOf m d)
        ∗ ((SparseCore.T d).loc main_c ↦{fullShare} V4 m d dC) ∗ ((SparseCore.T d).loc main_call0_v0 ↦{fullShare} V4 m d dZ) ∗ (tLoc d ↦{fullShare} tpOf m d)) := by
  show (held (T d) S6 (V4 m d) : sProp 𝕄) = _
  rw [held_S6, V4_a, V4_b, V4_i, V4_t]

/-- The three arrays once the two operations after the call have run: the result at the lookup. -/
theorem held_V7 (d : Dev nD) :
    (held (T d) S3 ((opFold (F := F)).result ((opCut (F := F)).result (V5 m d))) : sProp 𝕄)
      = iprop((oLoc d ↦{fullShare} V7 m d dO) ∗ (sLoc d ↦{fullShare} V7 m d dS) ∗ (rLoc d ↦{fullShare} (Spec.lookup (α := Elt F .f32) (m (aLoc d)) (m (bLoc d))))) := by
  show (held (T d) S3 (V7 m d) : sProp 𝕄) = _
  rw [held_S3, V7_r]

/-- @main on device d's TensorCore: the flattening and the padding (four operations over six arrays held whole); the
    call, which takes the padded table in two read shares, the flat indices and the result, and hands the result back at
    the rows read through the indices; the cut and the fold (two operations over three arrays held whole). -/
theorem hmain (κ : GSem nD τ sig → ℕ) (d : Dev nD) :
    iprop((K (F := F)).ctx EH (P (tpOf m) (ixOf m) (o₀Of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha, Hbb, Hi, Hc, Hz, Ht, Ho, Hs, Hr⟩, -, -⟩, -⟩
  -- the four operations before the call
  iapply (wp_hlo_within 𝒱 (SparseCore.T d) none Set.univ (op := opFlat) (S := S6) hFlat (V := V0 m d)) $$ [Hb Ha Hbb Hi Hc Hz Ht]
  · isplitl [Hb]; · iexact Hb
    rw [held_S6]
    isplitl [Ha]; · iexact Ha
    isplitl [Hbb]; · iexact Hbb
    isplitl [Hi]; · iexact Hi
    isplitl [Hc]; · iexact Hc
    isplitl [Hz]; · iexact Hz
    iexact Ht
  iintro ⟨Hb, Hheld⟩
  rw [wp_ret]; imodintro
  iapply (wp_hlo_within 𝒱 (SparseCore.T d) none Set.univ (op := opZero) (S := S6) hZero) $$ [Hb Hheld]
  · isplitl [Hb]; · iexact Hb
    iexact Hheld
  iintro ⟨Hb, Hheld⟩
  rw [wp_ret]; imodintro
  iapply (wp_hlo_within 𝒱 (SparseCore.T d) none Set.univ (op := opConv) (S := S6) hConv) $$ [Hb Hheld]
  · isplitl [Hb]; · iexact Hb
    iexact Hheld
  iintro ⟨Hb, Hheld⟩
  rw [wp_ret]; imodintro
  iapply (wp_hlo_within 𝒱 (SparseCore.T d) none Set.univ (op := opPad) (S := S6) hPad) $$ [Hb Hheld]
  · isplitl [Hb]; · iexact Hb
    iexact Hheld
  iintro ⟨Hb, Hheld⟩
  rw [wp_ret]; imodintro
  ihave Hh := (Entails.of_eq (held_V4 m d)) $$ Hheld
  icases Hh with ⟨Ha, Hbb, Hi, -, -, Ht⟩
  -- the padded table in two read shares; what is left of it is not read again
  ihave Ht2 := (Transfers.pointsTo_toks_split (ℓ := tLoc d) (S := Finset.univ) (f := tpOf m d) fullShare 2) $$ Ht
  icases Ht2 with ⟨-, Ht⟩
  -- the call
  iapply ((K (F := F)).wp_run (D (F := F)) 𝒱 (EH := EH) (P := P (tpOf m) (ixOf m) (o₀Of m)) κ d 0) $$ [Hst Ht Hi Ho Hb Ha Hbb Hs Hr]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq (tpOf m) (ixOf m) (o₀Of m) d)) $$ Hdn
  icases Hdn' with ⟨-, -, Ho⟩
  -- the two operations after the call
  iapply (wp_hlo_within 𝒱 (SparseCore.T d) none Set.univ (op := opCut) (S := S3) hCut (V := V5 m d)) $$ [Hb Ho Hs Hr]
  · isplitl [Hb]; · iexact Hb
    rw [held_S3, V5_o, V5_s, V5_r]
    isplitl [Ho]; · iexact Ho
    isplitl [Hs]; · iexact Hs
    iexact Hr
  iintro ⟨Hb, Hheld⟩
  rw [wp_ret]; imodintro
  iapply (wp_hlo_within 𝒱 (SparseCore.T d) none Set.univ (op := opFold) (S := S3) hFold) $$ [Hb Hheld]
  · isplitl [Hb]; · iexact Hb
    iexact Hheld
  iintro ⟨Hb, Hheld⟩
  ihave Hh := (Entails.of_eq (held_V7 m d)) $$ Hheld
  icases Hh with ⟨-, -, Hr⟩
  rw [wp_ret]; imodintro; imodintro
  isplitl [Hst]; · iexact Hst
  isplitl [Ha]; · iexact Ha
  isplitl [Hbb]; · iexact Hbb
  iexact Hr

end Run

end Cert.Proof.KI

end
-- ==== Proof.KIRun.lean ====
/-
  The kernel program's run: every weakly fair execution of the TensorCore, the two sequencers and the thirty-two tiles
  ends, faults nowhere, and leaves the result array holding the lookup and the two arguments as they were — provided
  every flat index names a row of the table.

  It is the launch theorem applied to: the tile's body (one theorem at a symbolic tile), the split of a SparseCore's
  operands among its tasks, the launch element, @main on the TensorCore, and how the TensorCore's final holdings read
  the memory. Beside them here only what makes them fit: that the record's payloads can be stored, and the body's
  statement respelt as the launch theorem states a task.
-/
import proofs.«204540_g20890720928596_cont_8to1_1350_21_alg».proof.Proof.KICommon
import proofs.«204540_g20890720928596_cont_8to1_1350_21_alg».proof.Proof.KISplit
import proofs.«204540_g20890720928596_cont_8to1_1350_21_alg».proof.Proof.KIElem
import proofs.«204540_g20890720928596_cont_8to1_1350_21_alg».proof.Proof.KIBody
import proofs.«204540_g20890720928596_cont_8to1_1350_21_alg».proof.Proof.KIMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The record's payloads can be stored -/

instance P_storable (tp : (d : Dev nD) → Buf (Elt F) (tLoc d)) (ix : (d : Dev nD) → Buf (Elt F) (iLoc d)) (o₀ : (d : Dev nD) → Buf (Elt F) (oLoc d)) :
    (P (F := F) tp ix o₀).IsStorable where
  st q d c := by
    obtain rfl : q = 0 := Subsingleton.elim _ _
    show BI.Storable (upEmb : UEmb _ 𝕄) (stRes tp ix o₀ d (Fin.cast nCore_zero c)); unfold stRes; infer_instance
  dn q d c := by
    obtain rfl : q = 0 := Subsingleton.elim _ _
    show BI.Storable (upEmb : UEmb _ 𝕄) (dnRes tp ix d (Fin.cast nCore_zero c)); unfold dnRes; infer_instance
  go q d c i := by
    obtain rfl : q = 0 := Subsingleton.elim _ _
    show BI.Storable (upEmb : UEmb _ 𝕄) (goRes tp ix o₀ d (Fin.cast nCore_zero c) (Fin.cast nSub_zero i) (coreOf c)); unfold goRes; infer_instance
  td q d c i := by
    obtain rfl : q = 0 := Subsingleton.elim _ _
    show BI.Storable (upEmb : UEmb _ 𝕄) (tdRes tp ix d (Fin.cast nCore_zero c) (Fin.cast nSub_zero i) (coreOf c)); unfold tdRes; infer_instance

/-! ## The task, as the launch theorem asks for it -/

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scoped0 cc0_scoped1) ⟨⟩ c s := rfl

theorem tileObl (hF : (K (F := F)).Facts) (hin : ∀ d j, ((ixOf m d) j).toNat < 8192) :
    (K (F := F)).TileObl (D (F := F)) 𝒱 (P (tpOf m) (ixOf m) (o₀Of m)) v₀ 0 := by
  intro d c i O W hO hOlev _
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body (tpOf m) (ixOf m) (o₀Of m) d (coordsV ⟨_, hc.1⟩ ⟨_, hc.2⟩) hF (hin d) O W hO hOlev

/-! ## The program's run -/

/-- Every device ends with the result the lookup and the two arguments as they were. -/
def QC : PUnit × MemSt nD τ sig (Elt F) → Prop := fun r => ∀ c : Dev nD,
  r.2.mem (rLoc c) = Spec.lookup (α := Elt F .f32) (m (aLoc c)) (m (bLoc c)) ∧ r.2.mem (aLoc c) = m (aLoc c) ∧ r.2.mem (bLoc c) = m (bLoc c)

theorem run_main [∀ e, Nonempty (Elt F e)] (hin : ∀ d j, ((ixOf m d) j).toNat < 8192) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (tpOf m) (ixOf m) (o₀Of m)) facts v₀
    (fun q hq => match q with | 0 => nomatch hq)
    (fun q _ => match q with | 0 => tileObl m facts hin)
    (fun q _ => match q with | 0 => vecSplit (tpOf m) (ixOf m) (o₀Of m))
    m ρ main (fun _ => iprop(emp)) (FIN m) (u₀ (F := F)) (hu₀ (tpOf m) (ixOf m) (o₀Of m)) (hmain m ρ) (fq m) (hfin m) (QC m) (fun _ h => h)

end Cert.Proof.KI

end
-- ==== Proof.KBCommon.lean ====
/-
  What the kernel program's frame and value are proved over, stated once.

  The program: on the TensorCore the index array is flattened to 262144 row numbers and the table padded to 128 columns;
  then both SparseCores run one task on each of their sixteen tiles; then the 262144 gathered rows are cut back to 64
  columns and folded. Task s of SparseCore c is worker w = 2·s + c. It copies rows [512·s, 512·s + 512) of the padded
  table into the same rows of its SparseCore's shared table, and entries [8192·w, 8192·w + 8192) of the flat indices
  into a list of its own; meets the other fifteen tiles of its SparseCore at the barrier; then, 128 rows at a time and
  through two row buffers in turn, gathers the rows of the shared table its list names and writes them to rows
  [8192·w + 128·r, 8192·w + 128·r + 128) of the result.

  Who holds what. Each SparseCore reads the whole padded table, so each gets one of two read shares of it and deals its
  tiles their 512 rows of that share. A tile holds its 512 rows of the shared table outright while it fills them; at
  the barrier its arrival in tile j's round hands tile j one of sixteen read shares of those rows, filled; leaving the
  barrier a tile has collected a read share of all sixteen pieces — the whole shared table, equal to the padded one —
  and that is what its gathers read. At its end a task gives back its share of the whole shared table and what it kept
  of its own rows, and the sixteen returns make the shared table whole again.
-/
import proofs.«204540_g20890720928596_cont_8to1_1350_21_alg».proof.Defs
import proofs.«204540_g20890720928596_cont_8to1_1350_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204540_g20890720928596_cont_8to1_1350_21_alg».proof.Proof.Gen.Kernel
import proofs.«204540_g20890720928596_cont_8to1_1350_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the barrier cells' rounds, the copies' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The table and the index array (the arguments); the padded table, the flat indices and the gathered rows (what the
    SparseCores read and write); the SparseCore's shared table. -/
abbrev aLoc (d : Dev nD) : Loc nD τ sig := (SparseCore.T d).loc main_arg0
abbrev bLoc (d : Dev nD) : Loc nD τ sig := (SparseCore.T d).loc main_arg1
abbrev tLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v2
abbrev shRef (c : Fin τ.nSC) : DevRef τ sig := ⟨.shared, ⟨0, by decide⟩, c⟩
abbrev shLoc (d : Dev nD) (c : Fin τ.nSC) : Loc nD τ sig := (d, shRef c)

/-- The sixteen pieces of 512 rows of the (padded or shared) table; the thirty-two pieces of 8192 flat indices and of
    8192 gathered rows. -/
theorem hdivT : 16 ∣ S8192x128.size 0 := ⟨512, rfl⟩
theorem hdivI : 32 ∣ S262144.size 0 := ⟨8192, rfl⟩
theorem hdivO : 32 ∣ S262144x128.size 0 := ⟨8192, rfl⟩
abbrev tabPart (s : Fin 16) : Rect S8192x128 := Rect.part (s := S8192x128) (a₀ := 0) hdivT s
abbrev idxPart (w : Fin 32) : Rect S262144 := Rect.part (s := S262144) (a₀ := 0) hdivI w
abbrev outPart (w : Fin 32) : Rect S262144x128 := Rect.part (s := S262144x128) (a₀ := 0) hdivO w
abbrev tabSet (s : Fin 16) : Finset S8192x128.Idx := (tabPart s).set
abbrev idxSet (w : Fin 32) : Finset S262144.Idx := (idxPart w).set
abbrev outSet (w : Fin 32) : Finset S262144x128.Idx := (outPart w).set

/-- The worker number of task s of SparseCore c. -/
def wid (c : Fin 2) (s : Fin 16) : Fin 32 := ⟨2 * s.val + c.val, by omega⟩

/-- One of two read shares of the padded table, a SparseCore's; one of sixteen read shares of the shared table, a
    tile's, and what is left of the full share once the sixteen are taken. -/
abbrev coreShare (c : Fin 2) : PosShare TreeShare := Transfers.shareTok fullShare 2 c
abbrev tileShare (j : Fin 16) : PosShare TreeShare := Transfers.shareTok fullShare 16 j
abbrev keptShare : PosShare TreeShare := Transfers.shareDrop fullShare 16

variable [FloatOps F]

/- The values the SparseCores work on: per device the padded table and the flat indices (whatever @main computed), and
   what the result held before; what their work must leave is the rows read through the indices. -/
variable (tp : (d : Dev nD) → Buf (Elt F) (tLoc d)) (ix : (d : Dev nD) → Buf (Elt F) (iLoc d))
variable (o₀ : (d : Dev nD) → Buf (Elt F) (oLoc d))

def rowsOf (d : Dev nD) : Buf (Elt F) (oLoc d) := Spec.rows (α := Elt F .f32) (tp d) (ix d)

/-! ## The barrier cells -/

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile n's arrival in tile j's round hands tile j: tile j's read share of piece n of the shared table, filled
    with the padded table's rows. -/
def bPay (g : GSem nD τ sig) (n : ℕ) : sProp 𝕄 :=
  match g with
  | ((d, .scVector c j), _) =>
      if h : n < 16 then iprop(shLoc d c ↦[tabSet ⟨n, h⟩]{tileShare (Fin.cast nSub_eq j)} tp d) else iprop(emp)
  | _ => iprop(emp)

/-- One round on each tile's barrier cell: a unit from each of the sixteen tiles (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay tp g n
  amount_pos _ _ _ _ := Nat.one_pos

instance bRd_payload_storable (g : GSem nD τ sig) (r n : ℕ) : BI.Storable (upEmb : UEmb _ 𝕄) ((bRd (F := F) tp).payload g r n) := by
  show BI.Storable upEmb (bPay tp g n)
  unfold bPay
  rcases g with ⟨⟨d, _ | c | ⟨c, i⟩⟩, sm⟩ <;> dsimp only <;> (repeat' split) <;> infer_instance

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

/-- A tile's barrier kit: every tile's cell invariant of its SparseCore, its duty token in every tile's round and that
    each has reached it, its own position at the round's origin, and the credit for its own round's sixteen units. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) tp) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What a task is handed: its 512 rows of its SparseCore's share of the padded table, its 8192 flat indices, its 8192
    rows of the result (at what they held), and its 512 rows of the shared table outright, at anything. -/
def goRes (d : Dev nD) (c : Fin 2) (s : Fin 16) (cc : Fin τ.nSC) : sProp 𝕄 :=
  iprop((tLoc d ↦[tabSet s]{coreShare c} tp d) ∗ (iLoc d ↦[idxSet (wid c s)]{fullShare} ix d) ∗ (oLoc d ↦[outSet (wid c s)]{fullShare} o₀ d)
    ∗ ∃ f, shLoc d cc ↦[tabSet s]{fullShare} f)

/-- What it hands back: the same of the padded table and the indices; its rows of the result, now the rows read through
    its indices; its read share of the whole shared table and the rest of its own 512 rows, both filled. -/
def tdRes (d : Dev nD) (c : Fin 2) (s : Fin 16) (cc : Fin τ.nSC) : sProp 𝕄 :=
  iprop((tLoc d ↦[tabSet s]{coreShare c} tp d) ∗ (iLoc d ↦[idxSet (wid c s)]{fullShare} ix d) ∗ (oLoc d ↦[outSet (wid c s)]{fullShare} rowsOf tp ix d)
    ∗ (shLoc d cc ↦{tileShare s} tp d) ∗ (shLoc d cc ↦[tabSet s]{keptShare} tp d))

/-- What a SparseCore is handed and hands back: its share of the padded table, and its sixteen workers' indices and rows. -/
def stRes (d : Dev nD) (c : Fin 2) : sProp 𝕄 :=
  iprop((tLoc d ↦{coreShare c} tp d) ∗ bigSep Finset.univ fun s : Fin 16 =>
    iprop((iLoc d ↦[idxSet (wid c s)]{fullShare} ix d) ∗ (oLoc d ↦[outSet (wid c s)]{fullShare} o₀ d)))
def dnRes (d : Dev nD) (c : Fin 2) : sProp 𝕄 :=
  iprop((tLoc d ↦{coreShare c} tp d) ∗ bigSep Finset.univ fun s : Fin 16 =>
    iprop((iLoc d ↦[idxSet (wid c s)]{fullShare} ix d) ∗ (oLoc d ↦[outSet (wid c s)]{fullShare} rowsOf tp ix d)))

def P : (K (F := F)).Pay (nD := nD) (Val := Elt F) (Name := ℕ) (U := UU) where
  st := fun q d c => match q with | 0 => stRes tp ix o₀ d (Fin.cast nCore_zero c)
  dn := fun q d c => match q with | 0 => dnRes tp ix d (Fin.cast nCore_zero c)
  go := fun q d c i => match q with | 0 => goRes tp ix o₀ d (Fin.cast nCore_zero c) (Fin.cast nSub_zero i) (coreOf c)
  td := fun q d c i => match q with | 0 => tdRes tp ix d (Fin.cast nCore_zero c) (Fin.cast nSub_zero i) (coreOf c)
  x := fun _ thr => match thr with
    | (d, .scVector c i) => bkit tp d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      unfold oxV at h
      rw [Finset.sum_apply, Finsupp.finsetSum_apply] at h
      obtain ⟨j, -, hj⟩ := Finset.exists_ne_zero_of_sum_ne_zero (Nat.pos_iff_ne_zero.mp h)
      rw [tallyAt_apply] at hj
      split at hj
      · next e =>
        obtain ⟨rfl, rfl⟩ := e
        rw [(K (F := F)).lev_V_reg d c (j.castLE hsub0) (show (sc_bar0 : Sem sig) ≠ (K (F := F)).go from sc_bar0_ne_go)]; exact ⟨le_rfl, by decide⟩
      · exact absurd rfl hj
  ox_tc := fun _ _ => rfl
  ox_sc := fun _ _ _ h => absurd rfl h
  ox_vc := by
    intro q d c i h
    obtain rfl : q = 0 := Subsingleton.elim _ _
    exact ⟨rfl, c.isLt, i.isLt⟩

/-! ## The values @main hands the SparseCores, and the task's coordinates -/

section Host

variable (m : (ℓ : Loc nD τ sig) → Buf (Elt F) ℓ)

/-- The padded table and the flat indices, as @main computes them from the arguments; the result's rows before the call. -/
def tpOf (d : Dev nD) : Buf (Elt F) (tLoc d) :=
  pad S8192x128 ![0, 0] ![0, 64] ![0, 0] (m (aLoc d)) (sitofp .f32 (constantI S_ 32 0#32)) pads_S8192x64_S8192x128_000_0640 h_S_
def ixOf (d : Dev nD) : Buf (Elt F) (iLoc d) := shapeCast S262144 (m (bLoc d)) shapeCasts_S256x32x32_S262144
def o₀Of (d : Dev nD) : Buf (Elt F) (oLoc d) := m (oLoc d)

end Host

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

end Cert.Proof.KB

end
-- ==== Proof.KBSplit.lean ====
/-
  How a SparseCore's operands split among its sixteen tasks, and how the tasks' returns make them whole again.

  The 8192 rows of a table are sixteen pieces of 512 rows, pairwise disjoint, covering it: an array held whole is held
  piece by piece, at any share. Going out: the SparseCore's read share of the padded table goes piece s to task s; its
  workers' indices and result rows are already stated per task; the sequencer's own shared table, held outright at
  whatever it contains, goes piece s to task s. Coming back: task s returns a sixteenth read share of the WHOLE shared
  table and what it kept of piece s, all filled with the padded table. Read piece by piece, the sixteen read shares of
  piece n together with the kept share of piece n are piece n outright; the sixteen pieces are the table outright.
-/
import proofs.«204540_g20890720928596_cont_8to1_1350_21_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tp : (d : Dev nD) → Buf (Elt F) (tLoc d)) (ix : (d : Dev nD) → Buf (Elt F) (iLoc d)) (o₀ : (d : Dev nD) → Buf (Elt F) (oLoc d))

/-! ## The sixteen pieces of a table -/

omit [FloatOps F] in
theorem tabSets_disjoint : ∀ i ∈ (Finset.univ : Finset (Fin 16)), ∀ j ∈ (Finset.univ : Finset (Fin 16)), i ≠ j → Disjoint (tabSet i) (tabSet j) :=
  fun _ _ _ _ h => Rect.part_disjoint hdivT h
omit [FloatOps F] in
theorem tabSets_cover : (Finset.univ : Finset (Fin 16)).biUnion tabSet = Finset.univ := Rect.biUnion_part hdivT

omit [FloatOps F] in
theorem tPts_pieces (d : Dev nD) (q : PosShare TreeShare) (f : Buf (Elt F) (tLoc d)) :
    (tLoc d ↦{q} f : sProp 𝕄) = bigSep Finset.univ fun s : Fin 16 => tLoc d ↦[tabSet s]{q} f := by
  rw [← pointsTo_biUnion Finset.univ (ℓ := tLoc d) tabSet tabSets_disjoint, tabSets_cover]; try rfl
omit [FloatOps F] in
theorem shPts_pieces (d : Dev nD) (cc : Fin τ.nSC) (q : PosShare TreeShare) (f : Buf (Elt F) (shLoc d cc)) :
    (shLoc d cc ↦{q} f : sProp 𝕄) = bigSep Finset.univ fun s : Fin 16 => shLoc d cc ↦[tabSet s]{q} f := by
  rw [← pointsTo_biUnion Finset.univ (ℓ := shLoc d cc) tabSet tabSets_disjoint, tabSets_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The shared table: out of the sequencer's own buffers, and back -/

omit [FloatOps F] in
/-- The sequencer's own buffers are its SparseCore's shared table, at some contents, and the others. -/
theorem ownBufs_S (d : Dev nD) (cc : Fin τ.nSC) :
    (ownBufs (S d cc) : sProp 𝕄)
      = iprop((∃ f, shLoc d cc ↦{fullShare} f) ∗ bigSep ((ownRefs (τ := τ) (.scScalar cc)).erase (shRef cc)) fun b => iprop(∃ f, ((d, b) : Loc nD τ sig) ↦{fullShare} f)) := by
  unfold SparseCore.Cfg.ownBufs
  exact SparseCore.bigSep_erase' ((mem_ownRefs (p := Proc.scScalar cc) (b := shRef cc)).mpr rfl)

omit [FloatOps F] in
theorem piece_some (d : Dev nD) (cc : Fin τ.nSC) (s : Fin 16) (f : Buf (Elt F) (shLoc d cc)) :
    (shLoc d cc ↦[tabSet s]{fullShare} f : sProp 𝕄) ⊢ iprop(∃ g, shLoc d cc ↦[tabSet s]{fullShare} g) := by
  iintro H; iexists f; iexact H

omit [FloatOps F] in
/-- Held outright at any contents, the shared table is held outright piece by piece, each at some contents. -/
theorem sh_deal (d : Dev nD) (cc : Fin τ.nSC) (f : Buf (Elt F) (shLoc d cc)) :
    (shLoc d cc ↦{fullShare} f : sProp 𝕄) ⊢ bigSep Finset.univ fun s : Fin 16 => iprop(∃ g, shLoc d cc ↦[tabSet s]{fullShare} g) := by
  rw [shPts_pieces]
  exact SparseCore.ent (bigSep_mono fun s _ => piece_some d cc s f)

/-- The sixteen read shares of a piece and its kept share, at one contents, are the piece outright. -/
theorem piece_join (d : Dev nD) (cc : Fin τ.nSC) (n : Fin 16) :
    iprop((bigSep Finset.univ fun s : Fin 16 => shLoc d cc ↦[tabSet n]{tileShare s} tp d) ∗ shLoc d cc ↦[tabSet n]{keptShare} tp d)
      ⊢ (shLoc d cc ↦[tabSet n]{fullShare} tp d : sProp 𝕄) := by
  iintro ⟨Htoks, Hkept⟩
  iapply (Transfers.pointsTo_toks_join fullShare 16)
  isplitl [Hkept]; · iexact Hkept
  iexact Htoks

/-- The sixteen read shares of the whole table and the sixteen kept shares of its pieces, all at one contents, are the
    table outright. -/
theorem sh_rejoin (d : Dev nD) (cc : Fin τ.nSC) :
    iprop((bigSep Finset.univ fun s : Fin 16 => shLoc d cc ↦{tileShare s} tp d) ∗ bigSep Finset.univ fun s : Fin 16 => shLoc d cc ↦[tabSet s]{keptShare} tp d)
      ⊢ (shLoc d cc ↦{fullShare} tp d : sProp 𝕄) := by
  rw [bigSep_congr (fun s _ => shPts_pieces (F := F) d cc (tileShare s) (tp d)), bigSep_univ_comm, shPts_pieces (F := F) d cc fullShare (tp d), ← bigSep_sep']
  exact SparseCore.ent (bigSep_mono fun n _ => piece_join tp d cc n)

/-! ## The split -/

theorem vecSplit : (K (F := F)).VecSplit (P tp ix o₀) 0 := by
  intro d c
  show iprop(stRes tp ix o₀ d (Fin.cast nCore_zero c) ∗ ownBufs (S d (coreOf c))) ⊢ |={Set.univ}=> iprop(
      (bigSep Finset.univ fun i : Fin ((K (F := F)).nSub 0) => goRes tp ix o₀ d (Fin.cast nCore_zero c) (Fin.cast nSub_zero i) (coreOf c))
      ∗ ((bigSep Finset.univ fun i : Fin ((K (F := F)).nSub 0) => tdRes tp ix d (Fin.cast nCore_zero c) (Fin.cast nSub_zero i) (coreOf c))
          -∗ iprop(dnRes tp ix d (Fin.cast nCore_zero c) ∗ ownBufs (S d (coreOf c)))))
  generalize Fin.cast nCore_zero c = c'
  rw [bigSep_tasks (F := F) (fun i => goRes tp ix o₀ d c' i (coreOf c)), bigSep_tasks (F := F) (fun i => tdRes tp ix d c' i (coreOf c)), ownBufs_S]
  unfold stRes goRes tdRes dnRes
  simp only [bigSep_sep']
  rw [tPts_pieces]
  iintro ⟨⟨Ht, Hi, Ho⟩, ⟨%fsh, Hsh⟩, Hrest⟩; imodintro
  isplitl [Ht Hi Ho Hsh]
  · isplitl [Ht]; · iexact Ht
    isplitl [Hi]; · iexact Hi
    isplitl [Ho]; · iexact Ho
    iapply (sh_deal d (coreOf c) fsh); iexact Hsh
  iintro ⟨Ht, Hi, Ho, He, Hg⟩
  isplitl [Ht Hi Ho]
  · isplitl [Ht]; · iexact Ht
    isplitl [Hi]; · iexact Hi
    iexact Ho
  isplitl [He Hg]
  · iexists (tp d)
    iapply (sh_rejoin tp d (coreOf c))
    isplitl [He]; · iexact He
    iexact Hg
  iexact Hrest

end Cert.Proof.KB

end
-- ==== Proof.KBElem.lean ====
/-
  The launch element: what the ghost state holds before anything runs, and how it becomes each tile's barrier kit.

  There are thirty-two barrier cells, one per tile (two SparseCores of sixteen tiles). Each cell has one round of
  sixteen unit duties, one per tile of its SparseCore. The element funds every cell's round state, position and the
  duty tokens (tile i's in tile j's cell, i and j on one SparseCore). The launch hands over every barrier counter at
  zero (a barrier counter is a free semaphore of its tile: unscoped, and not the go signal's) and the credit for what
  the tiles owe: tile i owes one unit on each of the sixteen cells of its SparseCore, so, summed over i, each cell is
  credited sixteen units — exactly its own round, which its own tile waits for. Counters and round states make the
  cells' invariants. Invariants and "has reached round 0" are persistent and go to every tile; position, tokens and
  credit go to their own tile.
-/
import proofs.«204540_g20890720928596_cont_8to1_1350_21_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (tp : (d : Dev nD) → Buf (Elt F) (tLoc d)) (ix : (d : Dev nD) → Buf (Elt F) (iLoc d)) (o₀ : (d : Dev nD) → Buf (Elt F) (oLoc d))

/-! ## Cells and tokens, indexed by tiles -/

abbrev Tile : Type := Dev nD × Fin τ.nSC × Fin τ.nSub
abbrev cellOf (x : Tile) : GSem nD τ sig := bcell x.1 x.2.1 x.2.2
/-- Tile x's token in the cell of tile j of its own SparseCore. -/
abbrev tokOf (p : Tile × Fin (grid0.bound 1)) : GSem nD τ sig × ℕ × ℕ := (bcell p.1.1 p.1.2.1 (p.2.castLE hsub0), 0, p.1.2.2.val)

omit [FloatOps F] in
theorem cellOf_inj : Function.Injective (cellOf : Tile → GSem nD τ sig) := by
  rintro ⟨d, c, i⟩ ⟨d', c', i'⟩ e
  simp only [cellOf, bcell, SparseCore.V, Prod.mk.injEq, Proc.scVector.injEq, and_true] at e
  obtain ⟨rfl, rfl, rfl⟩ := e
  rfl
omit [FloatOps F] in
theorem tokOf_inj : Function.Injective (tokOf : Tile × Fin (grid0.bound 1) → GSem nD τ sig × ℕ × ℕ) := by
  rintro ⟨⟨d, c, i⟩, j⟩ ⟨⟨d', c', i'⟩, j'⟩ e
  simp only [tokOf, bcell, SparseCore.V, Prod.mk.injEq, Proc.scVector.injEq, and_true, true_and] at e
  obtain ⟨⟨rfl, rfl, hj⟩, hi⟩ := e
  obtain rfl : j = j' := Fin.ext (congrArg Fin.val hj)
  obtain rfl : i = i' := Fin.ext hi
  rfl

def barCells : Finset (GSem nD τ sig) := Finset.univ.map ⟨cellOf, cellOf_inj⟩
def barToks : Finset (GSem nD τ sig × ℕ × ℕ) := Finset.univ.map ⟨tokOf, tokOf_inj⟩
def u₀ : UU := (initOf (K (F := F)).hsCells (K (F := F)).hsToks, (initOf barCells barToks, 1))

omit [FloatOps F] in
theorem on_cells (Φ : GSem nD τ sig → sProp 𝕄) : bigSep barCells Φ = bigSep Finset.univ fun x : Tile => Φ (cellOf x) := bigSep_map _
omit [FloatOps F] in
theorem on_toks : (bigSep barToks fun p => (dutyTok EB p.1 p.2.1 p.2.2 : sProp 𝕄))
    = bigSep Finset.univ fun x : Tile => bigSep Finset.univ fun j : Fin (grid0.bound 1) => dutyTok EB (bcell x.1 x.2.1 (j.castLE hsub0)) 0 x.2.2.val := by
  unfold barToks; rw [bigSep_map, bigSep_univ_prod]; rfl

omit [FloatOps F] in
theorem ownU_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## Counters and invariants -/

omit [FloatOps F] in
/-- A tile's barrier counter is among its free semaphores. -/
theorem bar_free : (SemLoc.reg sc_bar0 : SemLoc sig) ∈ ((Finset.univ.filter fun sm : SemLoc sig => ¬sm.isScoped .scVector).erase (.reg (K (F := F)).go)) :=
  Finset.mem_erase.mpr ⟨fun h => sc_bar0_ne_go (SemLoc.reg.inj h), Finset.mem_filter.mpr ⟨Finset.mem_univ _, by decide⟩⟩

theorem one_counter (x : Tile) : ((K (F := F)).vcSems0 x.1 x.2.1 x.2.2 : sProp 𝕄) ⊢ semVal (cellOf x) 0 := by
  unfold SparseCore.Cfg.vcSems0
  exact bigSep_elim (Φ := fun sm : SemLoc sig => (semVal (V x.1 x.2.1 x.2.2, sm) 0 : sProp 𝕄)) bar_free

theorem counters : ((K (F := F)).freeSems0 : sProp 𝕄) ⊢ bigSep barCells fun g => semVal g 0 := by
  rw [on_cells]; unfold SparseCore.Cfg.freeSems0
  iintro ⟨-, Hv⟩
  iapply (SparseCore.ent (bigSep_mono fun x _ => one_counter (F := F) x)); iexact Hv

theorem invariants : iprop((bigSep barCells fun g => (semVal g 0 : sProp 𝕄)) ∗ bigSep barCells fun g => roundState EB (bRd (F := F) tp) g 0)
    ⊢ |={Set.univ}=> iprop(∃ κ : GSem nD τ sig → ℕ, bigSep barCells fun g => cellInv EB (bRd (F := F) tp) (κ g) g) := by
  iintro H
  ihave Hb := (Rounds.bodies_intro EB (bRd (F := F) tp) barCells) $$ H
  imod (inv_alloc_family barCells (Rounds.body EB (bRd (F := F) tp)) ∅ (E := Set.univ)) $$ Hb with ⟨%κ, -, Hinv⟩
  imodintro; iexists κ; iexact Hinv

/-! ## The credit, cell by cell -/

omit [FloatOps F] in
/-- n single units on one cell are n units on it. -/
theorem units (g : GSem nD τ sig) (ι : HIx 1) (n : ℕ) : ∑ _ : Fin n, tallyAt g ι 1 = (tallyAt g ι n : CellTallies nD τ sig (HIx 1)) := by
  induction n with
  | zero => simp
  | succ n ih => rw [Fin.sum_univ_succ, ih, tallyAt_add, Nat.add_comm]

/-- From the launch a tile owes exactly its sixteen arrivals. -/
theorem owed (d : Dev nD) (c : Fin τ.nSC) (i : Fin τ.nSub) : (P (F := F) tp ix o₀).oxFrom 0 (V d c i) = oxV d c := by
  have h := (P (F := F) tp ix o₀).oxFrom_step (0 : Fin 1) (V d c i)
  rw [(P tp ix o₀).oxFrom_end _ (n := (0 : Fin 1).val + 1) le_rfl, add_zero] at h
  exact h

omit [FloatOps F] in
/-- On one SparseCore: every tile's sixteen single units, one per cell, are every cell's sixteen units. -/
theorem by_cell (d : Dev nD) (c : Fin τ.nSC) :
    (bigSep Finset.univ fun _ : Fin τ.nSub => (cred (oxV d c) : sProp 𝕄))
      ⊢ bigSep Finset.univ fun i : Fin τ.nSub => cred (tallyAt (bcell d c i) (some 0) (grid0.bound 1)) := by
  have e : (bigSep Finset.univ fun _ : Fin τ.nSub => (cred (oxV d c) : sProp 𝕄))
      = bigSep Finset.univ fun j : Fin (grid0.bound 1) => cred (∑ _ : Fin τ.nSub, tallyAt (bcell d c (j.castLE hsub0)) (some 0) 1) := by
    unfold oxV
    rw [bigSep_congr (fun _ _ => SparseCore.Cfg.cred_finsum Finset.univ _), bigSep_univ_comm]
    exact bigSep_congr fun j _ => (SparseCore.Cfg.cred_finsum Finset.univ _).symm
  rw [e]
  exact Entails.of_eq (bigSep_congr fun j _ => by rw [units]; rfl)

theorem credit : ((P (F := F) tp ix o₀).oxCred : sProp 𝕄) ⊢ bigSep Finset.univ fun x : Tile => cred (tallyAt (cellOf x) (some 0) (grid0.bound 1)) := by
  unfold SparseCore.Cfg.Pay.oxCred
  rw [SparseCore.Cfg.bigSep_threads (fun thr : Thread nD τ => (cred ((P (F := F) tp ix o₀).oxFrom 0 thr) : sProp 𝕄))]
  simp only [owed]
  refine sep_elim_right.trans (sep_elim_right.trans ?_)
  rw [bigSep_univ_prod, bigSep_univ_prod (fun x : Tile => (cred (tallyAt (cellOf x) (some 0) (grid0.bound 1)) : sProp 𝕄))]
  refine bigSep_mono fun d _ => ?_
  rw [bigSep_univ_prod, bigSep_univ_prod (fun ci : Fin τ.nSC × Fin τ.nSub => (cred (tallyAt (cellOf (d, ci)) (some 0) (grid0.bound 1)) : sProp 𝕄))]
  exact bigSep_mono fun c _ => by_cell (F := F) d c

/-! ## Each tile its kit -/

theorem Px_T (d : Dev nD) : (bigSep Finset.univ fun q : Fin 1 => (P (F := F) tp ix o₀).x q (SparseCore.T d)) = iprop(emp) :=
  bigSep_univ_of_subsingleton (0 : Fin 1)
theorem Px_S (d : Dev nD) (c : Fin τ.nSC) : (bigSep Finset.univ fun q : Fin 1 => (P (F := F) tp ix o₀).x q (S d c)) = iprop(emp) :=
  bigSep_univ_of_subsingleton (0 : Fin 1)
theorem Px_V (d : Dev nD) (c : Fin τ.nSC) (i : Fin τ.nSub) :
    (bigSep Finset.univ fun q : Fin 1 => (P (F := F) tp ix o₀).x q (V d c i)) = bkit tp d c i :=
  bigSep_univ_of_subsingleton (0 : Fin 1)

omit [FloatOps F] in
theorem bigSep_emp' {I : Type} (s : Finset I) : (bigSep s fun _ => iprop(emp)) = (iprop(emp) : sProp 𝕄) := bigSep_emp_const s

/-- The persistent part, the same for every tile. -/
abbrev common (κ : GSem nD τ sig → ℕ) : sProp 𝕄 :=
  iprop((bigSep Finset.univ fun x : Tile => cellInv EB (bRd (F := F) tp) (κ (cellOf x)) (cellOf x)) ∗ bigSep Finset.univ fun x : Tile => reached EB (cellOf x) 0)
/-- A tile's own part. -/
abbrev own1 (x : Tile) : sProp 𝕄 :=
  iprop(atPos EB (cellOf x) 0 ∅ 0
    ∗ (bigSep Finset.univ fun j : Fin (grid0.bound 1) => dutyTok EB (bcell x.1 x.2.1 (j.castLE hsub0)) 0 x.2.2.val)
    ∗ cred (tallyAt (cellOf x) (some 0) (grid0.bound 1)))

theorem kit_of (κ : GSem nD τ sig → ℕ) (x : Tile) : iprop(common (F := F) tp κ ∗ own1 x) ⊢ (bkit (F := F) tp x.1 x.2.1 x.2.2 : sProp 𝕄) := by
  obtain ⟨d, c, i⟩ := x
  unfold bkit
  iintro ⟨⟨#Hinv, #Hr⟩, Hat, Htok, Hcred⟩
  isplitr
  · iexists κ
    iapply (bigSep_intro_persistent (S := (Finset.univ : Finset (Fin (grid0.bound 1))))
      (R := bigSep Finset.univ fun x : Tile => cellInv EB (bRd (F := F) tp) (κ (cellOf x)) (cellOf x))
      fun j _ => bigSep_elim (Φ := fun x : Tile => (cellInv EB (bRd (F := F) tp) (κ (cellOf x)) (cellOf x) : sProp 𝕄)) (i := (d, c, j.castLE hsub0)) (Finset.mem_univ _))
    iexact Hinv
  isplitl [Htok]; · iexact Htok
  isplitr
  · iapply (bigSep_intro_persistent (S := (Finset.univ : Finset (Fin (grid0.bound 1)))) (R := bigSep Finset.univ fun x : Tile => reached EB (cellOf x) 0)
      fun j _ => bigSep_elim (Φ := fun x : Tile => (reached EB (cellOf x) 0 : sProp 𝕄)) (i := (d, c, j.castLE hsub0)) (Finset.mem_univ _))
    iexact Hr
  isplitl [Hat]; · iexact Hat
  iexact Hcred

theorem hu₀ : iprop(ownU (u₀ (F := F)) ∗ (P (F := F) tp ix o₀).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P tp ix o₀).x q thr) : sProp 𝕄) := by
  unfold u₀
  iintro ⟨Hu, Hcred, Hfree⟩
  ihave H := (ownU_parts _ _) $$ Hu
  icases H with ⟨HH, HB⟩
  imod (Rounds.fund EB (bRd (F := F) tp) barCells barToks) $$ HB with ⟨Hst, Hr, Hat, Htok⟩
  ihave Hsems := (counters (F := F)) $$ Hfree
  imod (invariants (F := F) tp) $$ [Hsems Hst] with ⟨%κ, Hinv⟩
  · isplitl [Hsems] <;> iassumption
  ihave Hcr := (credit tp ix o₀) $$ Hcred
  ihave Hinv' := (Entails.of_eq (on_cells (F := F) fun g => cellInv EB (bRd (F := F) tp) (κ g) g)) $$ Hinv
  ihave Hr' := (Entails.of_eq (on_cells (F := F) fun g => reached EB g 0)) $$ Hr
  ihave Hat' := (Entails.of_eq (on_cells (F := F) fun g => atPos EB g 0 ∅ 0)) $$ Hat
  ihave Htok' := (Entails.of_eq (on_toks (F := F))) $$ Htok
  imodintro
  isplitl [HH]; · iexact HH
  isplitr; · rw [bigSep_emp']; iempintro
  rw [SparseCore.Cfg.bigSep_threads (fun thr : Thread nD τ => bigSep Finset.univ fun q : Fin 1 => (P tp ix o₀).x q thr)]
  simp only [Px_T, Px_S, Px_V, bigSep_emp']
  isplitr; · iempintro
  isplitr; · iempintro
  iapply (bigSep_with_persistent (R := common (F := F) tp κ) (Φ := own1 (F := F)) fun x _ => kit_of (F := F) tp κ x)
  isplitl [Hinv' Hr']
  · isplitl [Hinv']; · iexact Hinv'
    iexact Hr'
  unfold own1
  rw [bigSep_sep', bigSep_sep']
  isplitl [Hat']; · iexact Hat'
  isplitl [Htok']; · iexact Htok'
  iexact Hcr

end Cert.Proof.KB

end
-- ==== Proof.KBBodyLemmas.lean ====
/-
  What one tile's task is proved from, at a symbolic tile.

  The geometry: the tile's 512 rows of the padded and of the shared table, its 8192 flat indices and the 64 blocks of
  128 rows that make up its 8192 rows of the result are the pieces the arrays are dealt in. The tile's own semaphores
  and buffers among those it is handed. The barrier's round: a read share of the tile's filled rows goes to every
  tile, a read share of every piece comes back, together a read share of the whole shared table. The value: the row a
  gather delivers at place (p, c) of chunk k is row ix(8192·w + 128·k + p) of the padded table at column c, which is
  what the rows read through the flat indices hold at row 8192·w + 128·k + p.
-/
import proofs.«204540_g20890720928596_cont_8to1_1350_21_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays as the task's program names them -/

abbrev tV : Memref sig .scVector .hbm S8192x128 .f32 := Memref.whole main_v1_scv
abbrev iV : Memref sig .scVector .hbm S262144 .i32 := Memref.whole main_v0_scv
abbrev oV : Memref sig .scVector .hbm S262144x128 .f32 := Memref.whole main_v2_scv
abbrev lV : Memref sig .scVector .vmem S8192 .i32 := Memref.whole cc0_scratch0
abbrev r1V : Memref sig .scVector .vmem S128x128 .f32 := Memref.whole cc0_scratch1
abbrev r2V : Memref sig .scVector .vmem S128x128 .f32 := Memref.whole cc0_scratch2
abbrev shV : Memref sig .scVector .shared S8192x128 .f32 := Memref.whole cc0_scratch3

/-- The tile's 512 rows of the padded table and of the shared table, its 8192 flat indices, and block r of 128 rows of
    its 8192 rows of the result, as the program slices them. -/
abbrev tabRectK (L : grid0.Coords) : Rect S8192x128 := Rect.unit (s := S8192x128) (k0_off1 L) S512x128.size (k0_off1_inb L)
abbrev idxRectK (L : grid0.Coords) : Rect S262144 := Rect.unit (s := S262144) (k0_off2 L) S8192.size (k0_off2_inb L)
abbrev blkRectK (L : grid0.Coords) (r : Fin 64) : Rect S262144x128 :=
  Rect.unit (s := S262144x128) (k0_off3 L (BitVec.ofNat 32 (128 * r.val))) S128x128.size (k0_off3_inb L r)
abbrev tSl (L : grid0.Coords) : Memref sig .scVector .hbm S512x128 .f32 := (tV).slice (tabRectK L) (fun _ => rfl)
abbrev shSl (L : grid0.Coords) : Memref sig .scVector .shared S512x128 .f32 := (shV).slice (tabRectK L) (fun _ => rfl)
abbrev iSl (L : grid0.Coords) : Memref sig .scVector .hbm S8192 .i32 := (iV).slice (idxRectK L) (fun _ => rfl)
abbrev oSl (L : grid0.Coords) (r : Fin 64) : Memref sig .scVector .hbm S128x128 .f32 := (oV).slice (blkRectK L r) (fun _ => rfl)

/-- Block r of the tile's rows of the result; the rows from block k on. -/
abbrev blkSet (L : grid0.Coords) (r : Fin 64) : Finset S262144x128.Idx := (blkRectK L r).set
def restSet (L : grid0.Coords) (k : ℕ) : Finset S262144x128.Idx :=
  (outSet (wid (cL L) (jL L))).filter fun j => 8192 * (wid (cL L) (jL L)).val + 128 * k ≤ (j 0).val

section Geometry

variable (L : grid0.Coords)

theorem tabRectK_eq : tabRectK L = tabPart (jL L) := by
  unfold tabRectK tabPart Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

theorem idxRectK_eq : idxRectK L = idxPart (wid (cL L) (jL L)) := by
  unfold idxRectK idxPart Rect.part Rect.block
  congr 1 <;> funext a
  · rw [k0_off2_eq]
    match a with
    | 0 => simp [Shape.partIx, Shape.partSize, wid]; omega
  · match a with
    | 0 => simp [Shape.partSize]

theorem set_tSl : (tSl L).view.set = tabSet (jL L) := by
  show ((tV).view.slice (tabRectK L)).set = (tabPart (jL L)).set
  rw [View.set_slice, tabRectK_eq]; exact Finset.map_refl
theorem set_shSl : (shSl L).view.set = tabSet (jL L) := by
  show ((shV).view.slice (tabRectK L)).set = (tabPart (jL L)).set
  rw [View.set_slice, tabRectK_eq]; exact Finset.map_refl
theorem set_iSl : (iSl L).view.set = idxSet (wid (cL L) (jL L)) := by
  show ((iV).view.slice (idxRectK L)).set = (idxPart (wid (cL L) (jL L))).set
  rw [View.set_slice, idxRectK_eq]; exact Finset.map_refl
theorem set_oSl (r : Fin 64) : (oSl L r).view.set = blkSet L r := by
  show ((oV).view.slice (blkRectK L r)).set = (blkRectK L r).set
  rw [View.set_slice]; exact Finset.map_refl

end Geometry

/-! ## The 64 blocks of the tile's rows of the result -/

section OutGeometry

variable (L : grid0.Coords)

theorem wid_val : (wid (cL L) (jL L)).val = 2 * (L 1).val + (L 0).val := rfl

theorem mem_outSet (w : Fin 32) (j : S262144x128.Idx) :
    j ∈ outSet w ↔ 8192 * w.val ≤ (j 0).val ∧ (j 0).val < 8192 * w.val + 8192 := by
  show j ∈ (Rect.unit _ _ _).set ↔ _
  rw [Rect.mem_set_unit]
  constructor
  · intro h; have h0 := h 0; simp [Shape.partIx, Shape.partSize] at h0; omega
  · intro h a
    match a with
    | 0 => simp [Shape.partIx, Shape.partSize]; omega
    | 1 => simp [Shape.partIx, Shape.partSize]; exact (j 1).isLt

theorem mem_blkSet (r : Fin 64) (j : S262144x128.Idx) :
    j ∈ blkSet L r ↔ 16384 * (L 1).val + 8192 * (L 0).val + 128 * r.val ≤ (j 0).val
      ∧ (j 0).val < 16384 * (L 1).val + 8192 * (L 0).val + 128 * r.val + 128 := by
  show j ∈ (Rect.unit _ _ _).set ↔ _
  rw [Rect.mem_set_unit, k0_off3_eq]
  constructor
  · intro h; have h0 := h 0; simp at h0; omega
  · intro h a
    match a with
    | 0 => simp; omega
    | 1 => simp; exact (j 1).isLt

theorem mem_restSet (k : ℕ) (j : S262144x128.Idx) :
    j ∈ restSet L k ↔ 16384 * (L 1).val + 8192 * (L 0).val + 128 * k ≤ (j 0).val
      ∧ (j 0).val < 16384 * (L 1).val + 8192 * (L 0).val + 8192 := by
  unfold restSet; rw [Finset.mem_filter, mem_outSet, wid_val]; omega

theorem restSet_zero : restSet L 0 = outSet (wid (cL L) (jL L)) := by
  ext j; rw [mem_restSet, mem_outSet, wid_val]; omega
theorem restSet_last : restSet L 64 = ∅ :=
  Finset.eq_empty_of_forall_notMem fun j hj => by rw [mem_restSet] at hj; omega
theorem mem_blkSet' (k : ℕ) (hk : k < 64) (j : S262144x128.Idx) :
    j ∈ blkSet L ⟨k, hk⟩ ↔ 16384 * (L 1).val + 8192 * (L 0).val + 128 * k ≤ (j 0).val
      ∧ (j 0).val < 16384 * (L 1).val + 8192 * (L 0).val + 128 * k + 128 := mem_blkSet L ⟨k, hk⟩ j
theorem blk_sub_rest (k : ℕ) (hk : k < 64) : blkSet L ⟨k, hk⟩ ⊆ restSet L k := fun j hj => by
  rw [mem_blkSet'] at hj; rw [mem_restSet]; omega
theorem rest_sdiff (k : ℕ) (hk : k < 64) : restSet L k \ blkSet L ⟨k, hk⟩ = restSet L (k + 1) := by
  ext j; rw [Finset.mem_sdiff, mem_restSet, mem_blkSet', mem_restSet]; omega

end OutGeometry

/-! ## The tile's own semaphores and buffers -/

section Own

variable (d : Dev nD) (L : grid0.Coords)

/-- The six transfer semaphores of the task: the two synchronous copies', the two gathers', the two stores'. -/
abbrev cTab (d : Dev nD) (c : Fin τ.nSC) (i : Fin τ.nSub) : GSem nD τ sig := (V d c i, .dma cc0_scoped0.sem)
abbrev cIdx (d : Dev nD) (c : Fin τ.nSC) (i : Fin τ.nSub) : GSem nD τ sig := (V d c i, .dma cc0_scoped1.sem)
abbrev cG1 (d : Dev nD) (c : Fin τ.nSC) (i : Fin τ.nSub) : GSem nD τ sig := (V d c i, .dma cc0_scratch4.sem)
abbrev cG2 (d : Dev nD) (c : Fin τ.nSC) (i : Fin τ.nSub) : GSem nD τ sig := (V d c i, .dma cc0_scratch5.sem)
abbrev cS1 (d : Dev nD) (c : Fin τ.nSC) (i : Fin τ.nSub) : GSem nD τ sig := (V d c i, .dma cc0_scratch6.sem)
abbrev cS2 (d : Dev nD) (c : Fin τ.nSC) (i : Fin τ.nSub) : GSem nD τ sig := (V d c i, .dma cc0_scratch7.sem)

theorem dcell_mem (s : DmaSem sig) (hs : (SemLoc.dma s : SemLoc sig).isScoped .scVector = true) :
    ((V d (cV L) (jV L), SemLoc.dma s) : GSem nD τ sig) ∈ ownCells (V d (cV L) (jV L)) :=
  (mem_ownCells (g := ((V d (cV L) (jV L), SemLoc.dma s) : GSem nD τ sig))).mpr ⟨rfl, hs⟩

theorem dcell_ne {thr : Thread nD τ} {s s' : DmaSem sig} (h : s ≠ s') :
    ((thr, SemLoc.dma s) : GSem nD τ sig) ≠ (thr, SemLoc.dma s') :=
  fun e => h (SemLoc.dma.inj (Prod.mk.inj e).2)

/-- The tile's own semaphores at zero: the six the task names, and the rest. -/
theorem ownSems0_V : ∃ R : sProp 𝕄,
    (ownSems0 (V d (cV L) (jV L)) : sProp 𝕄)
      = iprop(semVal (cTab d (cV L) (jV L)) 0 ∗ semVal (cIdx d (cV L) (jV L)) 0 ∗ semVal (cG1 d (cV L) (jV L)) 0 ∗ semVal (cG2 d (cV L) (jV L)) 0
          ∗ semVal (cS1 d (cV L) (jV L)) 0 ∗ semVal (cS2 d (cV L) (jV L)) 0 ∗ R) := by
  apply Exists.intro
  unfold SparseCore.Cfg.ownSems0
  rw [SparseCore.bigSep_erase' (dcell_mem d L cc0_scoped0.sem (by decide)),
    SparseCore.bigSep_erase' (Finset.mem_erase.mpr ⟨dcell_ne (show cc0_scoped1.sem ≠ cc0_scoped0.sem by decide), dcell_mem d L cc0_scoped1.sem (by decide)⟩),
    SparseCore.bigSep_erase' (Finset.mem_erase.mpr ⟨dcell_ne (show cc0_scratch4.sem ≠ cc0_scoped1.sem by decide),
      Finset.mem_erase.mpr ⟨dcell_ne (show cc0_scratch4.sem ≠ cc0_scoped0.sem by decide), dcell_mem d L cc0_scratch4.sem (by decide)⟩⟩),
    SparseCore.bigSep_erase' (Finset.mem_erase.mpr ⟨dcell_ne (show cc0_scratch5.sem ≠ cc0_scratch4.sem by decide),
      Finset.mem_erase.mpr ⟨dcell_ne (show cc0_scratch5.sem ≠ cc0_scoped1.sem by decide),
      Finset.mem_erase.mpr ⟨dcell_ne (show cc0_scratch5.sem ≠ cc0_scoped0.sem by decide), dcell_mem d L cc0_scratch5.sem (by decide)⟩⟩⟩),
    SparseCore.bigSep_erase' (Finset.mem_erase.mpr ⟨dcell_ne (show cc0_scratch6.sem ≠ cc0_scratch5.sem by decide),
      Finset.mem_erase.mpr ⟨dcell_ne (show cc0_scratch6.sem ≠ cc0_scratch4.sem by decide),
      Finset.mem_erase.mpr ⟨dcell_ne (show cc0_scratch6.sem ≠ cc0_scoped1.sem by decide),
      Finset.mem_erase.mpr ⟨dcell_ne (show cc0_scratch6.sem ≠ cc0_scoped0.sem by decide), dcell_mem d L cc0_scratch6.sem (by decide)⟩⟩⟩⟩),
    SparseCore.bigSep_erase' (Finset.mem_erase.mpr ⟨dcell_ne (show cc0_scratch7.sem ≠ cc0_scratch6.sem by decide),
      Finset.mem_erase.mpr ⟨dcell_ne (show cc0_scratch7.sem ≠ cc0_scratch5.sem by decide),
      Finset.mem_erase.mpr ⟨dcell_ne (show cc0_scratch7.sem ≠ cc0_scratch4.sem by decide),
      Finset.mem_erase.mpr ⟨dcell_ne (show cc0_scratch7.sem ≠ cc0_scoped1.sem by decide),
      Finset.mem_erase.mpr ⟨dcell_ne (show cc0_scratch7.sem ≠ cc0_scoped0.sem by decide), dcell_mem d L cc0_scratch7.sem (by decide)⟩⟩⟩⟩⟩)]

theorem ref_ne {p : Proc τ} {b b' : Ref sig p.kind} (h : b ≠ b') : p.devRef b ≠ p.devRef b' :=
  fun e => h (Proc.devRef_injective _ e)

/-- The tile's own buffers: the index list and the two row buffers, each at some contents, and the rest. -/
theorem ownBufs_V : ∃ R : sProp 𝕄,
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ R) := by
  apply Exists.intro
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- What the launch has the tile owe for the barrier is owed at the call's index, never at the index of the task's own
    waits. -/
theorem oxV_none (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

end Own

/-! ## The task -/

section Tile

variable [FloatOps F]
variable (tp : (d : Dev nD) → Buf (Elt F) (tLoc d)) (ix : (d : Dev nD) → Buf (Elt F) (iLoc d)) (o₀ : (d : Dev nD) → Buf (Elt F) (oLoc d))
variable (d : Dev nD) (L : grid0.Coords)

omit [FloatOps F] in
theorem pts_tSl (q : PosShare TreeShare) (f : Buf (Elt F) (tLoc d)) :
    ((tSl L).view.loc (V d (cV L) (jV L)) ↦[(tSl L).view.set]{q} f : sProp 𝕄) = tLoc d ↦[tabSet (jL L)]{q} f := by
  rw [set_tSl]
omit [FloatOps F] in
theorem pts_shSl (q : PosShare TreeShare) (f : Buf (Elt F) (shLoc d (cV L))) :
    ((shSl L).view.loc (V d (cV L) (jV L)) ↦[(shSl L).view.set]{q} f : sProp 𝕄) = shLoc d (cV L) ↦[tabSet (jL L)]{q} f := by
  rw [set_shSl]; rfl
omit [FloatOps F] in
theorem pts_iSl (q : PosShare TreeShare) (f : Buf (Elt F) (iLoc d)) :
    ((iSl L).view.loc (V d (cV L) (jV L)) ↦[(iSl L).view.set]{q} f : sProp 𝕄) = iLoc d ↦[idxSet (wid (cL L) (jL L))]{q} f := by
  rw [set_iSl]
omit [FloatOps F] in
theorem pts_oSl (r : Fin 64) (q : PosShare TreeShare) (f : Buf (Elt F) (oLoc d)) :
    ((oSl L r).view.loc (V d (cV L) (jV L)) ↦[(oSl L r).view.set]{q} f : sProp 𝕄) = oLoc d ↦[blkSet L r]{q} f := by
  rw [set_oSl]
omit [FloatOps F] in
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl
omit [FloatOps F] in
theorem pts_r1V (f : Buf (Elt F) ((V d (cV L) (jV L)).loc cc0_scratch1)) :
    ((r1V).view.loc (V d (cV L) (jV L)) ↦{fullShare} f : sProp 𝕄) = (V d (cV L) (jV L)).loc cc0_scratch1 ↦{fullShare} f := rfl
omit [FloatOps F] in
theorem pts_r2V (f : Buf (Elt F) ((V d (cV L) (jV L)).loc cc0_scratch2)) :
    ((r2V).view.loc (V d (cV L) (jV L)) ↦{fullShare} f : sProp 𝕄) = (V d (cV L) (jV L)).loc cc0_scratch2 ↦{fullShare} f := rfl
omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-! ## The barrier's round -/

omit [FloatOps F] in
theorem bRd_duties₀ (c : Fin τ.nSC) (j : Fin τ.nSub) :
    (bRd (F := F) tp).duties (bcell d c j) 0 = (Finset.univ : Finset (Fin τ.nSub)).image Fin.val := by
  show (if isBar (bcell d c j) ∧ (0 : ℕ) = 0 then (Finset.univ : Finset (Fin τ.nSub)).image Fin.val else ∅) = _
  exact if_pos ⟨isBar_bcell d c j, rfl⟩
omit [FloatOps F] in
theorem bRd_duty (c : Fin τ.nSC) (j i : Fin τ.nSub) : i.val ∈ (bRd (F := F) tp).duties (bcell d c j) 0 := by
  rw [bRd_duties₀]; exact Finset.mem_image_of_mem _ (Finset.mem_univ i)
omit [FloatOps F] in
theorem bRd_expect₀ (c : Fin τ.nSC) (j : Fin τ.nSub) : 0 + grid0.bound 1 = (bRd (F := F) tp).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

omit [FloatOps F] in
/-- The tile's filled rows of the shared table, dealt: what it keeps, and a read share for each tile's round. -/
theorem give_shares :
    (shLoc d (cV L) ↦[tabSet (jL L)]{fullShare} tp d : sProp 𝕄)
      ⊢ iprop((shLoc d (cV L) ↦[tabSet (jL L)]{keptShare} tp d)
          ∗ bigSep Finset.univ fun j : Fin (grid0.bound 1) => (bRd (F := F) tp).payload (bcell d (cV L) (j.castLE hsub0)) 0 (jV L).val) := by
  refine (Transfers.pointsTo_toks_split fullShare 16).trans (sep_mono_r (Entails.of_eq (bigSep_congr fun j _ => ?_)))
  show _ = bPay tp (bcell d (cV L) (j.castLE hsub0)) (jV L).val
  unfold bPay; dsimp only
  rw [dif_pos (show (jV L).val < 16 from (jV L).isLt)]; rfl

omit [FloatOps F] in
theorem tabSets_disjoint : ∀ i ∈ (Finset.univ : Finset (Fin 16)), ∀ j ∈ (Finset.univ : Finset (Fin 16)), i ≠ j → Disjoint (tabSet i) (tabSet j) :=
  fun i _ j _ h => Rect.part_disjoint hdivT h
omit [FloatOps F] in
theorem tabSets_cover : (Finset.univ : Finset (Fin 16)).biUnion tabSet = Finset.univ := Rect.biUnion_part hdivT

omit [FloatOps F] in
/-- What the tile's own round hands it: a read share of each of the sixteen pieces, that is of the whole shared table. -/
theorem take_shares :
    (bigSep ((bRd (F := F) tp).duties (bcell d (cV L) (jV L)) 0 \ ∅) fun m => (bRd (F := F) tp).payload (bcell d (cV L) (jV L)) 0 m)
      ⊢ (shLoc d (cV L) ↦{tileShare (jL L)} tp d : sProp 𝕄) := by
  rw [Finset.sdiff_empty, bRd_duties₀,
    show (Finset.univ : Finset (Fin τ.nSub)).image Fin.val = Finset.univ.map ⟨Fin.val, Fin.val_injective⟩ from (Finset.map_eq_image ⟨Fin.val, Fin.val_injective⟩ _).symm, bigSep_map,
    ← tabSets_cover, pointsTo_biUnion Finset.univ (ℓ := shLoc d (cV L)) tabSet tabSets_disjoint]
  refine Entails.of_eq (bigSep_congr fun n _ => ?_)
  show bPay tp (bcell d (cV L) (jV L)) n.val = _
  unfold bPay; dsimp only
  rw [dif_pos (show n.val < 16 from n.isLt)]; rfl

/-- The words the gathers read are row numbers: whatever window of the list a gather reads, after the copy that filled
    the list with the tile's entries of the flat indices, each word is one of those entries, below 8192. -/
theorem list_inb (fl : Buf (Elt F) ((lV).view.loc (V d (cV L) (jV L)))) (pay : S8192.Idx → Elt F .i32)
    (hpay : ∀ x, (pay x).toNat < 8192) (off : Fin 1 → Nat) (h : ∀ a, off a + S128.size a ≤ S8192.size a) :
    ∀ x, (((lV).slice (Rect.unit (s := S8192) off S128.size h) (fun _ => rfl)).view.read (Elt F)
        (View.write (Elt F) (lV).view fl pay Finset.univ) x).toNat < S8192x128.size gathers_S8192x128_S128x128.axis := by
  intro x
  rw [show View.write (Elt F) (lV).view fl pay Finset.univ = pay from View.write_whole_univ cc0_scratch0 fl pay]
  exact hpay _

omit [FloatOps F] in
/-- The rows from block r on are block r and the rows from the next block on. -/
theorem peel (k k' : ℕ) (hk : k < 64) (hk' : k' = k + 1) (q : PosShare TreeShare) (f : Buf (Elt F) (oLoc d)) :
    (oLoc d ↦[restSet L k]{q} f : sProp 𝕄) ⊣⊢ iprop((oLoc d ↦[blkSet L ⟨k, hk⟩]{q} f) ∗ oLoc d ↦[restSet L k']{q} f) := by
  subst hk'; rw [← rest_sdiff L k hk]; exact pointsTo_split_subset (blk_sub_rest L k hk)

omit [FloatOps F] in
/-- Block k of the tile's rows of the result, addressed through the offset word of its slice. -/
theorem pts_blk (k : ℕ) (hk : k < 64) (c : BitVec 32) (hc : c = BitVec.ofNat 32 (128 * k))
    (h : ∀ a, k0_off3 L c a + S128x128.size a ≤ S262144x128.size a) (q : PosShare TreeShare) (f : Buf (Elt F) (oLoc d)) :
    (((oV).slice (Rect.unit (s := S262144x128) (k0_off3 L c) S128x128.size h) (fun _ => rfl)).view.loc (V d (cV L) (jV L))
        ↦[((oV).slice (Rect.unit (s := S262144x128) (k0_off3 L c) S128x128.size h) (fun _ => rfl)).view.set]{q} f : sProp 𝕄)
      = oLoc d ↦[blkSet L ⟨k, hk⟩]{q} f := by
  subst hc; exact pts_oSl (F := F) d L ⟨k, hk⟩ q f

omit [FloatOps F] in
/-- A read share cut in three: what is left after two read tokens, and the two tokens. -/
theorem two_toks {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ ℓ ↦{Transfers.shareTokN q 1} f) := by
  have h1 : (ℓ ↦{q} f : sProp 𝕄) ⊣⊢ iprop((ℓ ↦{q.left} f) ∗ ℓ ↦{q.right} f) := pointsTo_share (PosShare.mem_left_op_right q)
  have h2 : (ℓ ↦{q.left} f : sProp 𝕄) ⊣⊢ iprop((ℓ ↦{q.left.left} f) ∗ ℓ ↦{q.left.right} f) := pointsTo_share (PosShare.mem_left_op_right q.left)
  constructor
  · iintro H
    ihave H1 := h1.1 $$ H
    icases H1 with ⟨Hl, Hr⟩
    ihave H2 := h2.1 $$ Hl
    icases H2 with ⟨Hll, Hlr⟩
    isplitl [Hll]; · iexact Hll
    isplitl [Hr]; · iexact Hr
    iexact Hlr
  · iintro ⟨Hll, Hr, Hlr⟩
    iapply h1.2
    isplitl [Hll Hlr]
    · iapply h2.2
      isplitl [Hll]; · iexact Hll
      iexact Hlr
    · iexact Hr

omit [FloatOps F] in
theorem pts_rest0 (q : PosShare TreeShare) (f : Buf (Elt F) (oLoc d)) :
    (oLoc d ↦[outSet (wid (cL L) (jL L))]{q} f : sProp 𝕄) = oLoc d ↦[restSet L 0]{q} f := by rw [restSet_zero]

omit [FloatOps F] in
/-- After the copy of the tile's rows of the padded table into the same rows of the shared table, those rows of the
    shared table hold the padded table's. -/
theorem sh_filled (fsh : Buf (Elt F) (shLoc d (cV L))) (pay : S512x128.Idx → Elt F .f32)
    (hpay : pay = ReadAs.same.apply ((tSl L).view.read (Elt F) (tp d))) (q : PosShare TreeShare) :
    ((shSl L).view.loc (V d (cV L) (jV L)) ↦[(shSl L).view.set]{q} (shSl L).view.writes (Elt F) fsh [⟨Rect.whole S512x128, pay⟩] : sProp 𝕄)
      = shLoc d (cV L) ↦[tabSet (jL L)]{q} tp d := by
  rw [pts_shSl]
  refine pointsTo_congr fun i hi => ?_
  rw [← set_shSl L] at hi
  obtain ⟨x, -, rfl⟩ := Finset.mem_map.mp hi
  have h1 : (shSl L).view.writes (Elt F) fsh [⟨Rect.whole S512x128, pay⟩] ((shSl L).view.emb x) = pay x :=
    congrFun (View.read_writes_whole (shSl L).view fsh pay) x
  rw [h1, hpay]; rfl

omit [FloatOps F] in
/-- Reading back a row buffer whose newest piece is whole gives that piece. -/
theorem read_newest {κ : Kind} {sp : Space} {s : Shape} {e : EltTy} (v : View sig κ sp s e) (f : v.ty.Contents (Elt F))
    (g : s.Idx → Elt F e) (rest : List (View.Piece (Elt F) s e)) :
    v.read (Elt F) (v.writes (Elt F) f (⟨Rect.whole s, g⟩ :: rest)) = g := by
  funext y
  have h := View.read_writes_cons_emb v f (Rect.whole s) g rest y
  rwa [Rect.emb_whole_apply] at h

omit [FloatOps F] in
/-- Entry j of a list of one axis, numbered in row-major order, is entry j. -/
theorem rowMajor_symm_one (n : ℕ) (j : Fin (⟨1, ![n]⟩ : Shape).numel) : (((⟨1, ![n]⟩ : Shape).rowMajor.symm j) 0).val = j.val := by
  have h := Shape.rowMajor_val_one ((⟨1, ![n]⟩ : Shape).rowMajor.symm j)
  rw [Equiv.apply_symm_apply] at h
  exact h.symm

omit [FloatOps F] in
/-- THE VALUE, for tile and chunk k: the row a gather delivers at place (p, c) of its row buffer is row
    ix(8192·w + 128·k + p) of the padded table, at column c — row 8192·w + 128·k + p of the rows read through the flat
    indices. -/
theorem gather_value (k : ℕ) (hk : k < 64) (fl : Buf (Elt F) ((lV).view.loc (V d (cV L) (jV L))))
    (pay0 : S8192.Idx → Elt F .i32) (hpay0 : pay0 = ReadAs.same.apply ((iSl L).view.read (Elt F) (ix d)))
    (hin : ∀ j, ((ix d) j).toNat < 8192)
    (hsh : ∀ a, (![0, 0] : Fin 2 → ℕ) a + S8192x128.size a ≤ S8192x128.size a)
    (off : Fin 1 → ℕ) (hoff : off 0 = 128 * k) (h : ∀ a, off a + S128.size a ≤ S8192.size a)
    (hn : S128.numel = S128x128.size gathers_S8192x128_S128x128.axis')
    (hin' : ∀ x, (View.read (Elt F) ((lV).slice (Rect.unit (s := S8192) off S128.size h) (fun _ => rfl)).view
        (View.write (Elt F) (lV).view fl pay0 Finset.univ) x).toNat < S8192x128.size gathers_S8192x128_S128x128.axis)
    (x : S128x128.Idx) :
    SparseCore.gatherPayload gathers_S8192x128_S128x128
        (View.read (Elt F) ((shV).slice (Rect.unit (s := S8192x128) ![0, 0] S8192x128.size hsh) (fun _ => rfl)).view (tp d))
        (SparseCore.rows (View.read (Elt F) ((lV).slice (Rect.unit (s := S8192) off S128.size h) (fun _ => rfl)).view
          (View.write (Elt F) (lV).view fl pay0 Finset.univ)) hn hin') x
      = rowsOf tp ix d ((blkRectK L ⟨k, hk⟩).emb x) := by
  subst hpay0
  have hw : View.write (Elt F) (lV).view fl (ReadAs.same.apply ((iSl L).view.read (Elt F) (ix d))) Finset.univ
      = ReadAs.same.apply ((iSl L).view.read (Elt F) (ix d)) := View.write_whole_univ cc0_scratch0 fl _
  unfold SparseCore.gatherPayload rowsOf Spec.rows
  show (tp d) _ = (tp d) _
  congr 1
  funext a; apply Fin.ext
  have hb := k0_off3_eq L ⟨k, hk⟩
  have hi := k0_off2_eq L
  match a with
  | 0 =>
    have e0 : (gathers_S8192x128_S128x128.idx
        (SparseCore.rows (View.read (Elt F) ((lV).slice (Rect.unit (s := S8192) off S128.size h) (fun _ => rfl)).view
          (View.write (Elt F) (lV).view fl (ReadAs.same.apply ((iSl L).view.read (Elt F) (ix d))) Finset.univ)) hn hin') x 0).val
        = ((View.read (Elt F) ((lV).slice (Rect.unit (s := S8192) off S128.size h) (fun _ => rfl)).view
          (View.write (Elt F) (lV).view fl (ReadAs.same.apply ((iSl L).view.read (Elt F) (ix d))) Finset.univ))
            (S128.rowMajor.symm ((x 0).cast hn.symm))).toNat :=
      congrArg Fin.val (Shape.Gathers.idx_axis gathers_S8192x128_S128x128 _ x)
    have hz := rowMajor_symm_one 128 ((x 0).cast hn.symm)
    have hlt := hin (ValueIdx.ix1 ((blkRectK L ⟨k, hk⟩).emb x 0))
    show 0 + 1 * (gathers_S8192x128_S128x128.idx _ x 0).val = (Spec.rowOf (ix d (ValueIdx.ix1 ((blkRectK L ⟨k, hk⟩).emb x 0)))).val
    rw [e0, hw]
    unfold Spec.rowOf
    show 0 + 1 * (ix d ((iSl L).view.emb (((lV).slice (Rect.unit (s := S8192) off S128.size h) (fun _ => rfl)).view.emb (S128.rowMajor.symm ((x 0).cast hn.symm))))).toNat
      = min (ix d (ValueIdx.ix1 ((blkRectK L ⟨k, hk⟩).emb x 0))).toNat 8191
    rw [Nat.min_eq_left (by omega), Nat.zero_add, Nat.one_mul]
    congr 2
    funext b; apply Fin.ext
    match b with
    | 0 =>
      show (k0_off2 L) 0 + 1 * (off 0 + 1 * ((S128.rowMajor.symm ((x 0).cast hn.symm)) 0).val)
        = (k0_off3 L (BitVec.ofNat 32 (128 * (⟨k, hk⟩ : Fin 64).val))) 0 + 1 * (x 0).val
      rw [hi, hb, hoff, hz]
      show (![16384 * (L 1).val + 8192 * (L 0).val] : Fin 1 → ℕ) 0 + 1 * (128 * k + 1 * (x 0).val)
        = (![16384 * (L 1).val + 8192 * (L 0).val + 128 * k, 0] : Fin 2 → ℕ) 0 + 1 * (x 0).val
      simp only [Matrix.cons_val_zero]
      omega
  | 1 =>
    have e1 := Shape.Gathers.idx_of_ne gathers_S8192x128_S128x128
      (SparseCore.rows (View.read (Elt F) ((lV).slice (Rect.unit (s := S8192) off S128.size h) (fun _ => rfl)).view
          (View.write (Elt F) (lV).view fl (ReadAs.same.apply ((iSl L).view.read (Elt F) (ix d))) Finset.univ)) hn hin') x 1 (by decide)
    show 0 + 1 * (gathers_S8192x128_S128x128.idx _ x 1).val
      = (k0_off3 L (BitVec.ofNat 32 (128 * (⟨k, hk⟩ : Fin 64).val))) 1 + 1 * (x 1).val
    rw [e1, hb]
    simp

omit [FloatOps F] in
/-- Block k of the result after its store: holding, through the block's own view, a piece that is the rows read
    through the flat indices, it holds those rows. -/
theorem blk_value (k : ℕ) (hk : k < 64) (c : BitVec 32) (hc : c = BitVec.ofNat 32 (128 * k))
    (h : ∀ a, k0_off3 L c a + S128x128.size a ≤ S262144x128.size a) (q : PosShare TreeShare)
    (pay : S128x128.Idx → Elt F .f32) (hpay : ∀ x, pay x = rowsOf tp ix d ((blkRectK L ⟨k, hk⟩).emb x)) :
    (((oV).slice (Rect.unit (s := S262144x128) (k0_off3 L c) S128x128.size h) (fun _ => rfl)).view.loc (V d (cV L) (jV L))
        ↦[((oV).slice (Rect.unit (s := S262144x128) (k0_off3 L c) S128x128.size h) (fun _ => rfl)).view.set]{q}
          ((oV).slice (Rect.unit (s := S262144x128) (k0_off3 L c) S128x128.size h) (fun _ => rfl)).view.writes (Elt F) (o₀ d)
            [⟨Rect.whole (Rect.unit (s := S262144x128) (k0_off3 L c) S128x128.size h).shape, pay⟩] : sProp 𝕄)
      = oLoc d ↦[blkSet L ⟨k, hk⟩]{q} rowsOf tp ix d := by
  subst hc
  show ((oSl L ⟨k, hk⟩).view.loc (V d (cV L) (jV L)) ↦[(oSl L ⟨k, hk⟩).view.set]{q}
    (oSl L ⟨k, hk⟩).view.writes (Elt F) (o₀ d) [⟨Rect.whole S128x128, pay⟩] : sProp 𝕄) = _
  rw [pts_oSl (F := F) d L ⟨k, hk⟩]
  refine pointsTo_congr fun i hi => ?_
  rw [← set_oSl L ⟨k, hk⟩] at hi
  obtain ⟨x, -, rfl⟩ := Finset.mem_map.mp hi
  have h1 : (oSl L ⟨k, hk⟩).view.writes (Elt F) (o₀ d) [⟨Rect.whole S128x128, pay⟩] ((oSl L ⟨k, hk⟩).view.emb x) = pay x :=
    congrFun (View.read_writes_whole (oSl L ⟨k, hk⟩).view (o₀ d) pay) x
  rw [h1, hpay]; rfl

omit [FloatOps F] in
/-- Block k at some contents and the rows after it at some contents are the rows from block k on at some contents. -/
theorem unpeel_ex (k k' : ℕ) (hk : k < 64) (hk' : k' = k + 1) :
    iprop((∃ g : Buf (Elt F) (oLoc d), oLoc d ↦[blkSet L ⟨k, hk⟩]{fullShare} g) ∗ (∃ f : Buf (Elt F) (oLoc d), oLoc d ↦[restSet L k']{fullShare} f))
      ⊢ (∃ h : Buf (Elt F) (oLoc d), oLoc d ↦[restSet L k]{fullShare} h : sProp 𝕄) := by
  subst hk'; rw [← rest_sdiff L k hk]
  iintro ⟨⟨%g, Hg⟩, ⟨%f, Hf⟩⟩
  iexists _
  iapply (pointsTo_join_subset (blk_sub_rest L k hk))
  isplitl [Hg]; · iexact Hg
  iexact Hf

omit [FloatOps F] in
theorem rest_ex (k : ℕ) (f : Buf (Elt F) (oLoc d)) :
    (oLoc d ↦[restSet L k]{fullShare} f : sProp 𝕄) ⊢ ∃ g : Buf (Elt F) (oLoc d), oLoc d ↦[restSet L k]{fullShare} g := by
  iintro H; iexists _; iexact H

omit [FloatOps F] in
/-- After the last block nothing is left, at whatever contents. -/
theorem rest_last_any (f g : Buf (Elt F) (oLoc d)) :
    (oLoc d ↦[restSet L 64]{fullShare} f : sProp 𝕄) = oLoc d ↦[restSet L 64]{fullShare} g :=
  pointsTo_congr fun i hi => absurd hi (by rw [restSet_last]; exact Finset.notMem_empty i)

theorem waits_ins {α : Type} [DecidableEq α] {Q : α → Prop} {a : α} {S : Finset α} (h1 : Q a) (h2 : ∀ p ∈ S, Q p) :
    ∀ p ∈ insert a S, Q p :=
  fun p hp => (Finset.mem_insert.mp hp).elim (fun e => e ▸ h1) (h2 p)

/-- What the task hands back, the result's rows at whatever the stores left. -/
def tdResF (d : Dev nD) (c : Fin 2) (s : Fin 16) (cc : Fin τ.nSC) : sProp 𝕄 :=
  iprop((tLoc d ↦[tabSet s]{coreShare c} tp d) ∗ (iLoc d ↦[idxSet (wid c s)]{fullShare} ix d)
    ∗ (∃ f : Buf (Elt F) (oLoc d), oLoc d ↦[outSet (wid c s)]{fullShare} f)
    ∗ (shLoc d cc ↦{tileShare s} tp d) ∗ (shLoc d cc ↦[tabSet s]{keptShare} tp d))

end Tile

end Cert.Proof.KB

end
-- ==== Proof.KBBody.lean ====
/-
  One tile's task, at a symbolic tile.

  The task copies its 512 rows of the padded table into the same rows of its SparseCore's shared table and its 8192
  flat indices into a list of its own, meets the other tiles at the barrier — handing each of them a read share of
  its 512 filled rows, and collecting from them a read share of every piece, that is of the whole shared table —, and
  then, 128 rows at a time through two row buffers in turn, gathers the rows of the shared table its list names and
  copies them to the 64 blocks of 128 rows that make up its 8192 rows of the result.
-/
import proofs.«204540_g20890720928596_cont_8to1_1350_21_alg».proof.Proof.KBBodyLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F]
variable (tp : (d : Dev nD) → Buf (Elt F) (tLoc d)) (ix : (d : Dev nD) → Buf (Elt F) (iLoc d)) (o₀ : (d : Dev nD) → Buf (Elt F) (oLoc d))
variable (d : Dev nD) (L : grid0.Coords)

set_option maxHeartbeats 4000000 in
/-- The task of tile (L 0, L 1): from its rows of the padded table, its flat indices, its rows of the result and its
    rows of the shared table it leaves its rows of the result holding the rows read through its indices, and hands back
    the rest as it was dealt, the shared table's rows filled. -/
theorem tile_body (hF : (K (F := F)).Facts) (hin : ∀ j, ((ix d) j).toNat < 8192)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit tp d (cV L) (jV L)
        ∗ goRes tp ix o₀ d (cL L) (jL L) (cV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L (Memref.whole main_v1_scv) (Memref.isWhole_whole _) (Memref.whole main_v0_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scoped0 cc0_scoped1)
          fun _ => iprop(tdRes tp ix d (cL L) (jL L) (cV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨Rs, hRs⟩ := ownSems0_V (F := F) d L
  obtain ⟨Rb, hRb⟩ := ownBufs_V (F := F) d L
  simp only [cc0_k_eq_skeleton]; unfold cc0_k_skel
  rw [(K (F := F)).scopedBufs_V hF d (cV L) (jV L), SparseCore.Cfg.scopedSems0_V (Val := Elt F) d (cV L) (jV L), hRs, hRb]
  unfold bkit goRes
  iintro ⟨#Hlv, ⟨⟨%κ, #Hinv⟩, Htoks, #Hrch, Hat, Hcred⟩, ⟨Ht, Hi, Ho, %fsh, Hsh⟩, ⟨⟨%fl, Hl⟩, ⟨%f1, Hr1⟩, ⟨%f2, Hr2⟩, Hbufs⟩, ⟨HsT, HsI, HsG1, HsG2, HsS1, HsS2, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tSl (F := F) d L _ _).symm) $$ Ht
  ihave Hsh' := (Entails.of_eq (pts_shSl (F := F) d L _ _).symm) $$ Hsh
  ihave Hi' := (Entails.of_eq (pts_iSl (F := F) d L _ _).symm) $$ Hi
  ihave Hl' := (Entails.of_eq (pts_lV (F := F) d L _).symm) $$ Hl
  ihave Hr1' := (Entails.of_eq (pts_r1V (F := F) d L _).symm) $$ Hr1
  ihave Hr2' := (Entails.of_eq (pts_r2V (F := F) d L _).symm) $$ Hr2
  -- the two copies, each waited for
  sl_exec
  -- the barrier: a read share of the filled rows to every tile's round, a read share of every piece from its own
  ihave Hsh2 := (Entails.of_eq (sh_filled (F := F) tp d L fsh (tile_body.sl.dma0 tp d L) rfl fullShare)) $$ Hsh'
  ihave Hpays := (give_shares (F := F) tp d L) $$ Hsh2
  icases Hpays with ⟨Hkept, Hpays⟩
  iapply (SparseCore.wp_subcoreBarrier 𝒱₀ none EB (bRd (F := F) tp) d (sc := cV L) (i := jV L) sc_bar0 (grid0.bound 1) hsub0 (L 1) rfl κ (fun _ => 0) (jV L).val
      (fun j => bRd_duty tp d _ _ _) (fun _ => rfl) (bRd_expect₀ tp d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (take_shares (F := F) tp d L) $$ Hgot
  -- two gathers read the shared table at once: a read token for each, and what is left
  ihave Htk := (two_toks (F := F) (ℓ := shLoc d (cV L)) (tileShare (jL L)) (tp d)).1 $$ Hall
  icases Htk with ⟨Hsrest, Hsrc0, Hsrc1⟩
  ihave Hsrc0 := (Entails.of_eq (pts_shV (F := F) d L _ _).symm) $$ Hsrc0
  ihave Hsrc1 := (Entails.of_eq (pts_shV (F := F) d L _ _).symm) $$ Hsrc1
  have hinb := list_inb (F := F) d L fl (tile_body.sl.dma0_1 ix d L) (fun x => hin _)
  -- the tile's rows of the result, block by block
  ihave Hrest := (Entails.of_eq (pts_rest0 (F := F) d L _ _)) $$ Ho
  ihave Hp := (peel (F := F) d L 0 1 (by decide) rfl _ _).1 $$ Hrest
  icases Hp with ⟨Hb0, Hrest⟩
  ihave Hb0 := (Entails.of_eq (pts_blk (F := F) d L 0 _ (0#32) rfl (k0_off3_inb L 0) _ _).symm) $$ Hb0
  ihave Hp := (peel (F := F) d L 1 2 (by decide) rfl _ _).1 $$ Hrest
  icases Hp with ⟨Hb1, Hrest⟩
  ihave Hb1 := (Entails.of_eq (pts_blk (F := F) d L 1 _ (128#32) rfl (k0_off3_inb L 1) _ _).symm) $$ Hb1
  ihave Hp := (peel (F := F) d L 2 3 (by decide) rfl _ _).1 $$ Hrest
  icases Hp with ⟨Hb2, Hrest⟩
  ihave Hb2 := (Entails.of_eq (pts_blk (F := F) d L 2 _ (256#32) rfl (k0_off3_inb L 2) _ _).symm) $$ Hb2
  ihave Hp := (peel (F := F) d L 3 4 (by decide) rfl _ _).1 $$ Hrest
  icases Hp with ⟨Hb3, Hrest⟩
  ihave Hb3 := (Entails.of_eq (pts_blk (F := F) d L 3 _ (384#32) rfl (k0_off3_inb L 3) _ _).symm) $$ Hb3
  ihave Hp := (peel (F := F) d L 4 5 (by decide) rfl _ _).1 $$ Hrest
  icases Hp with ⟨Hb4, Hrest⟩
  ihave Hb4 := (Entails.of_eq (pts_blk (F := F) d L 4 _ (512#32) rfl (k0_off3_inb L 4) _ _).symm) $$ Hb4
  ihave Hp := (peel (F := F) d L 5 6 (by decide) rfl _ _).1 $$ Hrest
  icases Hp with ⟨Hb5, Hrest⟩
  ihave Hb5 := (Entails.of_eq (pts_blk (F := F) d L 5 _ (640#32) rfl (k0_off3_inb L 5) _ _).symm) $$ Hb5
  ihave Hp := (peel (F := F) d L 6 7 (by decide) rfl _ _).1 $$ Hrest
  icases Hp with ⟨Hb6, Hrest⟩
  ihave Hb6 := (Entails.of_eq (pts_blk (F := F) d L 6 _ (768#32) rfl (k0_off3_inb L 6) _ _).symm) $$ Hb6
  ihave Hp := (peel (F := F) d L 7 8 (by decide) rfl _ _).1 $$ Hrest
  icases Hp with ⟨Hb7, Hrest⟩
  ihave Hb7 := (Entails.of_eq (pts_blk (F := F) d L 7 _ (896#32) rfl (k0_off3_inb L 7) _ _).symm) $$ Hb7
  ihave Hp := (peel (F := F) d L 8 9 (by decide) rfl _ _).1 $$ Hrest
  icases Hp with ⟨Hb8, Hrest⟩
  ihave Hb8 := (Entails.of_eq (pts_blk (F := F) d L 8 _ (1024#32) rfl (k0_off3_inb L 8) _ _).symm) $$ Hb8
  ihave Hp := (peel (F := F) d L 9 10 (by decide) rfl _ _).1 $$ Hrest
  icases Hp with ⟨Hb9, Hrest⟩
  ihave Hb9 := (Entails.of_eq (pts_blk (F := F) d L 9 _ (1152#32) rfl (k0_off3_inb L 9) _ _).symm) $$ Hb9
  ihave Hp := (peel (F := F) d L 10 11 (by decide) rfl _ _).1 $$ Hrest
  icases Hp with ⟨Hb10, Hrest⟩
  ihave Hb10 := (Entails.of_eq (pts_blk (F := F) d L 10 _ (1280#32) rfl (k0_off3_inb L 10) _ _).symm) $$ Hb10
  ihave Hp := (peel (F := F) d L 11 12 (by decide) rfl _ _).1 $$ Hrest
  icases Hp with ⟨Hb11, Hrest⟩
  ihave Hb11 := (Entails.of_eq (pts_blk (F := F) d L 11 _ (1408#32) rfl (k0_off3_inb L 11) _ _).symm) $$ Hb11
  ihave Hp := (peel (F := F) d L 12 13 (by decide) rfl _ _).1 $$ Hrest
  icases Hp with ⟨Hb12, Hrest⟩
  ihave Hb12 := (Entails.of_eq (pts_blk (F := F) d L 12 _ (1536#32) rfl (k0_off3_inb L 12) _ _).symm) $$ Hb12
  ihave Hp := (peel (F := F) d L 13 14 (by decide) rfl _ _).1 $$ Hrest
  icases Hp with ⟨Hb13, Hrest⟩
  ihave Hb13 := (Entails.of_eq (pts_blk (F := F) d L 13 _ (1664#32) rfl (k0_off3_inb L 13) _ _).symm) $$ Hb13
  ihave Hp := (peel (F := F) d L 14 15 (by decide) rfl _ _).1 $$ Hrest
  icases Hp with ⟨Hb14, Hrest⟩
  ihave Hb14 := (Entails.of_eq (pts_blk (F := F) d L 14 _ (1792#32) rfl (k0_off3_inb L 14) _ _).symm) $$ Hb14
  ihave Hp := (peel (F := F) d L 15 16 (by decide) rfl _ _).1 $$ Hrest
  icases Hp with ⟨Hb15, Hrest⟩
  ihave Hb15 := (Entails.of_eq (pts_blk (F := F) d L 15 _ (1920#32) rfl (k0_off3_inb L 15) _ _).symm) $$ Hb15
  ihave Hp := (peel (F := F) d L 16 17 (by decide) rfl _ _).1 $$ Hrest
  icases Hp with ⟨Hb16, Hrest⟩
  ihave Hb16 := (Entails.of_eq (pts_blk (F := F) d L 16 _ (2048#32) rfl (k0_off3_inb L 16) _ _).symm) $$ Hb16
  ihave Hp := (peel (F := F) d L 17 18 (by decide) rfl _ _).1 $$ Hrest
  icases Hp with ⟨Hb17, Hrest⟩
  ihave Hb17 := (Entails.of_eq (pts_blk (F := F) d L 17 _ (2176#32) rfl (k0_off3_inb L 17) _ _).symm) $$ Hb17
  ihave Hp := (peel (F := F) d L 18 19 (by decide) rfl _ _).1 $$ Hrest
  icases Hp with ⟨Hb18, Hrest⟩
  ihave Hb18 := (Entails.of_eq (pts_blk (F := F) d L 18 _ (2304#32) rfl (k0_off3_inb L 18) _ _).symm) $$ Hb18
  ihave Hp := (peel (F := F) d L 19 20 (by decide) rfl _ _).1 $$ Hrest
  icases Hp with ⟨Hb19, Hrest⟩
  ihave Hb19 := (Entails.of_eq (pts_blk (F := F) d L 19 _ (2432#32) rfl (k0_off3_inb L 19) _ _).symm) $$ Hb19
  ihave Hp := (peel (F := F) d L 20 21 (by decide) rfl _ _).1 $$ Hrest
  icases Hp with ⟨Hb20, Hrest⟩
  ihave Hb20 := (Entails.of_eq (pts_blk (F := F) d L 20 _ (2560#32) rfl (k0_off3_inb L 20) _ _).symm) $$ Hb20
  ihave Hp := (peel (F := F) d L 21 22 (by decide) rfl _ _).1 $$ Hrest
  icases Hp with ⟨Hb21, Hrest⟩
  ihave Hb21 := (Entails.of_eq (pts_blk (F := F) d L 21 _ (2688#32) rfl (k0_off3_inb L 21) _ _).symm) $$ Hb21
  ihave Hp := (peel (F := F) d L 22 23 (by decide) rfl _ _).1 $$ Hrest
  icases Hp with ⟨Hb22, Hrest⟩
  ihave Hb22 := (Entails.of_eq (pts_blk (F := F) d L 22 _ (2816#32) rfl (k0_off3_inb L 22) _ _).symm) $$ Hb22
  ihave Hp := (peel (F := F) d L 23 24 (by decide) rfl _ _).1 $$ Hrest
  icases Hp with ⟨Hb23, Hrest⟩
  ihave Hb23 := (Entails.of_eq (pts_blk (F := F) d L 23 _ (2944#32) rfl (k0_off3_inb L 23) _ _).symm) $$ Hb23
  ihave Hp := (peel (F := F) d L 24 25 (by decide) rfl _ _).1 $$ Hrest
  icases Hp with ⟨Hb24, Hrest⟩
  ihave Hb24 := (Entails.of_eq (pts_blk (F := F) d L 24 _ (3072#32) rfl (k0_off3_inb L 24) _ _).symm) $$ Hb24
  ihave Hp := (peel (F := F) d L 25 26 (by decide) rfl _ _).1 $$ Hrest
  icases Hp with ⟨Hb25, Hrest⟩
  ihave Hb25 := (Entails.of_eq (pts_blk (F := F) d L 25 _ (3200#32) rfl (k0_off3_inb L 25) _ _).symm) $$ Hb25
  ihave Hp := (peel (F := F) d L 26 27 (by decide) rfl _ _).1 $$ Hrest
  icases Hp with ⟨Hb26, Hrest⟩
  ihave Hb26 := (Entails.of_eq (pts_blk (F := F) d L 26 _ (3328#32) rfl (k0_off3_inb L 26) _ _).symm) $$ Hb26
  ihave Hp := (peel (F := F) d L 27 28 (by decide) rfl _ _).1 $$ Hrest
  icases Hp with ⟨Hb27, Hrest⟩
  ihave Hb27 := (Entails.of_eq (pts_blk (F := F) d L 27 _ (3456#32) rfl (k0_off3_inb L 27) _ _).symm) $$ Hb27
  ihave Hp := (peel (F := F) d L 28 29 (by decide) rfl _ _).1 $$ Hrest
  icases Hp with ⟨Hb28, Hrest⟩
  ihave Hb28 := (Entails.of_eq (pts_blk (F := F) d L 28 _ (3584#32) rfl (k0_off3_inb L 28) _ _).symm) $$ Hb28
  ihave Hp := (peel (F := F) d L 29 30 (by decide) rfl _ _).1 $$ Hrest
  icases Hp with ⟨Hb29, Hrest⟩
  ihave Hb29 := (Entails.of_eq (pts_blk (F := F) d L 29 _ (3712#32) rfl (k0_off3_inb L 29) _ _).symm) $$ Hb29
  ihave Hp := (peel (F := F) d L 30 31 (by decide) rfl _ _).1 $$ Hrest
  icases Hp with ⟨Hb30, Hrest⟩
  ihave Hb30 := (Entails.of_eq (pts_blk (F := F) d L 30 _ (3840#32) rfl (k0_off3_inb L 30) _ _).symm) $$ Hb30
  ihave Hp := (peel (F := F) d L 31 32 (by decide) rfl _ _).1 $$ Hrest
  icases Hp with ⟨Hb31, Hrest⟩
  ihave Hb31 := (Entails.of_eq (pts_blk (F := F) d L 31 _ (3968#32) rfl (k0_off3_inb L 31) _ _).symm) $$ Hb31
  ihave Hp := (peel (F := F) d L 32 33 (by decide) rfl _ _).1 $$ Hrest
  icases Hp with ⟨Hb32, Hrest⟩
  ihave Hb32 := (Entails.of_eq (pts_blk (F := F) d L 32 _ (4096#32) rfl (k0_off3_inb L 32) _ _).symm) $$ Hb32
  ihave Hp := (peel (F := F) d L 33 34 (by decide) rfl _ _).1 $$ Hrest
  icases Hp with ⟨Hb33, Hrest⟩
  ihave Hb33 := (Entails.of_eq (pts_blk (F := F) d L 33 _ (4224#32) rfl (k0_off3_inb L 33) _ _).symm) $$ Hb33
  ihave Hp := (peel (F := F) d L 34 35 (by decide) rfl _ _).1 $$ Hrest
  icases Hp with ⟨Hb34, Hrest⟩
  ihave Hb34 := (Entails.of_eq (pts_blk (F := F) d L 34 _ (4352#32) rfl (k0_off3_inb L 34) _ _).symm) $$ Hb34
  ihave Hp := (peel (F := F) d L 35 36 (by decide) rfl _ _).1 $$ Hrest
  icases Hp with ⟨Hb35, Hrest⟩
  ihave Hb35 := (Entails.of_eq (pts_blk (F := F) d L 35 _ (4480#32) rfl (k0_off3_inb L 35) _ _).symm) $$ Hb35
  ihave Hp := (peel (F := F) d L 36 37 (by decide) rfl _ _).1 $$ Hrest
  icases Hp with ⟨Hb36, Hrest⟩
  ihave Hb36 := (Entails.of_eq (pts_blk (F := F) d L 36 _ (4608#32) rfl (k0_off3_inb L 36) _ _).symm) $$ Hb36
  ihave Hp := (peel (F := F) d L 37 38 (by decide) rfl _ _).1 $$ Hrest
  icases Hp with ⟨Hb37, Hrest⟩
  ihave Hb37 := (Entails.of_eq (pts_blk (F := F) d L 37 _ (4736#32) rfl (k0_off3_inb L 37) _ _).symm) $$ Hb37
  ihave Hp := (peel (F := F) d L 38 39 (by decide) rfl _ _).1 $$ Hrest
  icases Hp with ⟨Hb38, Hrest⟩
  ihave Hb38 := (Entails.of_eq (pts_blk (F := F) d L 38 _ (4864#32) rfl (k0_off3_inb L 38) _ _).symm) $$ Hb38
  ihave Hp := (peel (F := F) d L 39 40 (by decide) rfl _ _).1 $$ Hrest
  icases Hp with ⟨Hb39, Hrest⟩
  ihave Hb39 := (Entails.of_eq (pts_blk (F := F) d L 39 _ (4992#32) rfl (k0_off3_inb L 39) _ _).symm) $$ Hb39
  ihave Hp := (peel (F := F) d L 40 41 (by decide) rfl _ _).1 $$ Hrest
  icases Hp with ⟨Hb40, Hrest⟩
  ihave Hb40 := (Entails.of_eq (pts_blk (F := F) d L 40 _ (5120#32) rfl (k0_off3_inb L 40) _ _).symm) $$ Hb40
  ihave Hp := (peel (F := F) d L 41 42 (by decide) rfl _ _).1 $$ Hrest
  icases Hp with ⟨Hb41, Hrest⟩
  ihave Hb41 := (Entails.of_eq (pts_blk (F := F) d L 41 _ (5248#32) rfl (k0_off3_inb L 41) _ _).symm) $$ Hb41
  ihave Hp := (peel (F := F) d L 42 43 (by decide) rfl _ _).1 $$ Hrest
  icases Hp with ⟨Hb42, Hrest⟩
  ihave Hb42 := (Entails.of_eq (pts_blk (F := F) d L 42 _ (5376#32) rfl (k0_off3_inb L 42) _ _).symm) $$ Hb42
  ihave Hp := (peel (F := F) d L 43 44 (by decide) rfl _ _).1 $$ Hrest
  icases Hp with ⟨Hb43, Hrest⟩
  ihave Hb43 := (Entails.of_eq (pts_blk (F := F) d L 43 _ (5504#32) rfl (k0_off3_inb L 43) _ _).symm) $$ Hb43
  ihave Hp := (peel (F := F) d L 44 45 (by decide) rfl _ _).1 $$ Hrest
  icases Hp with ⟨Hb44, Hrest⟩
  ihave Hb44 := (Entails.of_eq (pts_blk (F := F) d L 44 _ (5632#32) rfl (k0_off3_inb L 44) _ _).symm) $$ Hb44
  ihave Hp := (peel (F := F) d L 45 46 (by decide) rfl _ _).1 $$ Hrest
  icases Hp with ⟨Hb45, Hrest⟩
  ihave Hb45 := (Entails.of_eq (pts_blk (F := F) d L 45 _ (5760#32) rfl (k0_off3_inb L 45) _ _).symm) $$ Hb45
  ihave Hp := (peel (F := F) d L 46 47 (by decide) rfl _ _).1 $$ Hrest
  icases Hp with ⟨Hb46, Hrest⟩
  ihave Hb46 := (Entails.of_eq (pts_blk (F := F) d L 46 _ (5888#32) rfl (k0_off3_inb L 46) _ _).symm) $$ Hb46
  ihave Hp := (peel (F := F) d L 47 48 (by decide) rfl _ _).1 $$ Hrest
  icases Hp with ⟨Hb47, Hrest⟩
  ihave Hb47 := (Entails.of_eq (pts_blk (F := F) d L 47 _ (6016#32) rfl (k0_off3_inb L 47) _ _).symm) $$ Hb47
  ihave Hp := (peel (F := F) d L 48 49 (by decide) rfl _ _).1 $$ Hrest
  icases Hp with ⟨Hb48, Hrest⟩
  ihave Hb48 := (Entails.of_eq (pts_blk (F := F) d L 48 _ (6144#32) rfl (k0_off3_inb L 48) _ _).symm) $$ Hb48
  ihave Hp := (peel (F := F) d L 49 50 (by decide) rfl _ _).1 $$ Hrest
  icases Hp with ⟨Hb49, Hrest⟩
  ihave Hb49 := (Entails.of_eq (pts_blk (F := F) d L 49 _ (6272#32) rfl (k0_off3_inb L 49) _ _).symm) $$ Hb49
  ihave Hp := (peel (F := F) d L 50 51 (by decide) rfl _ _).1 $$ Hrest
  icases Hp with ⟨Hb50, Hrest⟩
  ihave Hb50 := (Entails.of_eq (pts_blk (F := F) d L 50 _ (6400#32) rfl (k0_off3_inb L 50) _ _).symm) $$ Hb50
  ihave Hp := (peel (F := F) d L 51 52 (by decide) rfl _ _).1 $$ Hrest
  icases Hp with ⟨Hb51, Hrest⟩
  ihave Hb51 := (Entails.of_eq (pts_blk (F := F) d L 51 _ (6528#32) rfl (k0_off3_inb L 51) _ _).symm) $$ Hb51
  ihave Hp := (peel (F := F) d L 52 53 (by decide) rfl _ _).1 $$ Hrest
  icases Hp with ⟨Hb52, Hrest⟩
  ihave Hb52 := (Entails.of_eq (pts_blk (F := F) d L 52 _ (6656#32) rfl (k0_off3_inb L 52) _ _).symm) $$ Hb52
  ihave Hp := (peel (F := F) d L 53 54 (by decide) rfl _ _).1 $$ Hrest
  icases Hp with ⟨Hb53, Hrest⟩
  ihave Hb53 := (Entails.of_eq (pts_blk (F := F) d L 53 _ (6784#32) rfl (k0_off3_inb L 53) _ _).symm) $$ Hb53
  ihave Hp := (peel (F := F) d L 54 55 (by decide) rfl _ _).1 $$ Hrest
  icases Hp with ⟨Hb54, Hrest⟩
  ihave Hb54 := (Entails.of_eq (pts_blk (F := F) d L 54 _ (6912#32) rfl (k0_off3_inb L 54) _ _).symm) $$ Hb54
  ihave Hp := (peel (F := F) d L 55 56 (by decide) rfl _ _).1 $$ Hrest
  icases Hp with ⟨Hb55, Hrest⟩
  ihave Hb55 := (Entails.of_eq (pts_blk (F := F) d L 55 _ (7040#32) rfl (k0_off3_inb L 55) _ _).symm) $$ Hb55
  ihave Hp := (peel (F := F) d L 56 57 (by decide) rfl _ _).1 $$ Hrest
  icases Hp with ⟨Hb56, Hrest⟩
  ihave Hb56 := (Entails.of_eq (pts_blk (F := F) d L 56 _ (7168#32) rfl (k0_off3_inb L 56) _ _).symm) $$ Hb56
  ihave Hp := (peel (F := F) d L 57 58 (by decide) rfl _ _).1 $$ Hrest
  icases Hp with ⟨Hb57, Hrest⟩
  ihave Hb57 := (Entails.of_eq (pts_blk (F := F) d L 57 _ (7296#32) rfl (k0_off3_inb L 57) _ _).symm) $$ Hb57
  ihave Hp := (peel (F := F) d L 58 59 (by decide) rfl _ _).1 $$ Hrest
  icases Hp with ⟨Hb58, Hrest⟩
  ihave Hb58 := (Entails.of_eq (pts_blk (F := F) d L 58 _ (7424#32) rfl (k0_off3_inb L 58) _ _).symm) $$ Hb58
  ihave Hp := (peel (F := F) d L 59 60 (by decide) rfl _ _).1 $$ Hrest
  icases Hp with ⟨Hb59, Hrest⟩
  ihave Hb59 := (Entails.of_eq (pts_blk (F := F) d L 59 _ (7552#32) rfl (k0_off3_inb L 59) _ _).symm) $$ Hb59
  ihave Hp := (peel (F := F) d L 60 61 (by decide) rfl _ _).1 $$ Hrest
  icases Hp with ⟨Hb60, Hrest⟩
  ihave Hb60 := (Entails.of_eq (pts_blk (F := F) d L 60 _ (7680#32) rfl (k0_off3_inb L 60) _ _).symm) $$ Hb60
  ihave Hp := (peel (F := F) d L 61 62 (by decide) rfl _ _).1 $$ Hrest
  icases Hp with ⟨Hb61, Hrest⟩
  ihave Hb61 := (Entails.of_eq (pts_blk (F := F) d L 61 _ (7808#32) rfl (k0_off3_inb L 61) _ _).symm) $$ Hb61
  ihave Hp := (peel (F := F) d L 62 63 (by decide) rfl _ _).1 $$ Hrest
  icases Hp with ⟨Hb62, Hrest⟩
  ihave Hb62 := (Entails.of_eq (pts_blk (F := F) d L 62 _ (7936#32) rfl (k0_off3_inb L 62) _ _).symm) $$ Hb62
  ihave Hp := (peel (F := F) d L 63 64 (by decide) rfl _ _).1 $$ Hrest
  icases Hp with ⟨Hb63, Hrest⟩
  ihave Hb63 := (Entails.of_eq (pts_blk (F := F) d L 63 _ (8064#32) rfl (k0_off3_inb L 63) _ _).symm) $$ Hb63

  sl_exec_parts
  sl_step
  -- the arrays as the task was handed them
  ihave Ht := (Entails.of_eq (pts_tSl (F := F) d L _ _)) $$ Ht'
  ihave Hi := (Entails.of_eq (pts_iSl (F := F) d L _ _)) $$ Hi'
  ihave Hsrc0 := (Entails.of_eq (pts_shV (F := F) d L _ _)) $$ Hsrc0
  ihave Hsrc1 := (Entails.of_eq (pts_shV (F := F) d L _ _)) $$ Hsrc1
  ihave Hall := (two_toks (F := F) (ℓ := shLoc d (cV L)) (tileShare (jL L)) (tp d)).2 $$ [Hsrest Hsrc0 Hsrc1]
  · isplitl [Hsrest]; · iexact Hsrest
    isplitl [Hsrc0]; · iexact Hsrc0
    iexact Hsrc1
  -- the 64 blocks: each holds its rows of the rows read through the flat indices; joined from the last
  ihave Hrest := (Entails.of_eq (rest_last_any (F := F) d L (o₀ d) (rowsOf tp ix d))) $$ Hrest
  ihave Hb63 := (Entails.of_eq (blk_value (F := F) tp ix o₀ d L 63 (by decide) (8064#32) rfl (k0_off3_inb L 63) fullShare
      (tile_body.sl.dma0_65 tp ix d L fl f2 hinb)
      (fun x => (congrFun (read_newest (F := F) _ _ (tile_body.sl.gather125 tp ix d L fl hinb) _) x).trans
        (gather_value (F := F) tp ix d L 63 (by decide) fl (tile_body.sl.dma0_1 ix d L) rfl hin _ _ rfl _ _ _ x)))) $$ Hb63
  ihave Hrest := (peel (F := F) d L 63 64 (by decide) rfl _ _).2 $$ [Hb63 Hrest]
  · isplitl [Hb63]; · iexact Hb63
    iexact Hrest
  ihave Hb62 := (Entails.of_eq (blk_value (F := F) tp ix o₀ d L 62 (by decide) (7936#32) rfl (k0_off3_inb L 62) fullShare
      (tile_body.sl.dma0_64 tp ix d L fl f1 hinb)
      (fun x => (congrFun (read_newest (F := F) _ _ (tile_body.sl.gather123 tp ix d L fl hinb) _) x).trans
        (gather_value (F := F) tp ix d L 62 (by decide) fl (tile_body.sl.dma0_1 ix d L) rfl hin _ _ rfl _ _ _ x)))) $$ Hb62
  ihave Hrest := (peel (F := F) d L 62 63 (by decide) rfl _ _).2 $$ [Hb62 Hrest]
  · isplitl [Hb62]; · iexact Hb62
    iexact Hrest
  ihave Hb61 := (Entails.of_eq (blk_value (F := F) tp ix o₀ d L 61 (by decide) (7808#32) rfl (k0_off3_inb L 61) fullShare
      (tile_body.sl.dma0_63 tp ix d L fl f2 hinb)
      (fun x => (congrFun (read_newest (F := F) _ _ (tile_body.sl.gather121 tp ix d L fl hinb) _) x).trans
        (gather_value (F := F) tp ix d L 61 (by decide) fl (tile_body.sl.dma0_1 ix d L) rfl hin _ _ rfl _ _ _ x)))) $$ Hb61
  ihave Hrest := (peel (F := F) d L 61 62 (by decide) rfl _ _).2 $$ [Hb61 Hrest]
  · isplitl [Hb61]; · iexact Hb61
    iexact Hrest
  ihave Hb60 := (Entails.of_eq (blk_value (F := F) tp ix o₀ d L 60 (by decide) (7680#32) rfl (k0_off3_inb L 60) fullShare
      (tile_body.sl.dma0_62 tp ix d L fl f1 hinb)
      (fun x => (congrFun (read_newest (F := F) _ _ (tile_body.sl.gather119 tp ix d L fl hinb) _) x).trans
        (gather_value (F := F) tp ix d L 60 (by decide) fl (tile_body.sl.dma0_1 ix d L) rfl hin _ _ rfl _ _ _ x)))) $$ Hb60
  ihave Hrest := (peel (F := F) d L 60 61 (by decide) rfl _ _).2 $$ [Hb60 Hrest]
  · isplitl [Hb60]; · iexact Hb60
    iexact Hrest
  ihave Hb59 := (Entails.of_eq (blk_value (F := F) tp ix o₀ d L 59 (by decide) (7552#32) rfl (k0_off3_inb L 59) fullShare
      (tile_body.sl.dma0_61 tp ix d L fl f2 hinb)
      (fun x => (congrFun (read_newest (F := F) _ _ (tile_body.sl.gather117 tp ix d L fl hinb) _) x).trans
        (gather_value (F := F) tp ix d L 59 (by decide) fl (tile_body.sl.dma0_1 ix d L) rfl hin _ _ rfl _ _ _ x)))) $$ Hb59
  ihave Hrest := (peel (F := F) d L 59 60 (by decide) rfl _ _).2 $$ [Hb59 Hrest]
  · isplitl [Hb59]; · iexact Hb59
    iexact Hrest
  ihave Hb58 := (Entails.of_eq (blk_value (F := F) tp ix o₀ d L 58 (by decide) (7424#32) rfl (k0_off3_inb L 58) fullShare
      (tile_body.sl.dma0_60 tp ix d L fl f1 hinb)
      (fun x => (congrFun (read_newest (F := F) _ _ (tile_body.sl.gather115 tp ix d L fl hinb) _) x).trans
        (gather_value (F := F) tp ix d L 58 (by decide) fl (tile_body.sl.dma0_1 ix d L) rfl hin _ _ rfl _ _ _ x)))) $$ Hb58
  ihave Hrest := (peel (F := F) d L 58 59 (by decide) rfl _ _).2 $$ [Hb58 Hrest]
  · isplitl [Hb58]; · iexact Hb58
    iexact Hrest
  ihave Hb57 := (Entails.of_eq (blk_value (F := F) tp ix o₀ d L 57 (by decide) (7296#32) rfl (k0_off3_inb L 57) fullShare
      (tile_body.sl.dma0_59 tp ix d L fl f2 hinb)
      (fun x => (congrFun (read_newest (F := F) _ _ (tile_body.sl.gather113 tp ix d L fl hinb) _) x).trans
        (gather_value (F := F) tp ix d L 57 (by decide) fl (tile_body.sl.dma0_1 ix d L) rfl hin _ _ rfl _ _ _ x)))) $$ Hb57
  ihave Hrest := (peel (F := F) d L 57 58 (by decide) rfl _ _).2 $$ [Hb57 Hrest]
  · isplitl [Hb57]; · iexact Hb57
    iexact Hrest
  ihave Hb56 := (Entails.of_eq (blk_value (F := F) tp ix o₀ d L 56 (by decide) (7168#32) rfl (k0_off3_inb L 56) fullShare
      (tile_body.sl.dma0_58 tp ix d L fl f1 hinb)
      (fun x => (congrFun (read_newest (F := F) _ _ (tile_body.sl.gather111 tp ix d L fl hinb) _) x).trans
        (gather_value (F := F) tp ix d L 56 (by decide) fl (tile_body.sl.dma0_1 ix d L) rfl hin _ _ rfl _ _ _ x)))) $$ Hb56
  ihave Hrest := (peel (F := F) d L 56 57 (by decide) rfl _ _).2 $$ [Hb56 Hrest]
  · isplitl [Hb56]; · iexact Hb56
    iexact Hrest
  ihave Hb55 := (Entails.of_eq (blk_value (F := F) tp ix o₀ d L 55 (by decide) (7040#32) rfl (k0_off3_inb L 55) fullShare
      (tile_body.sl.dma0_57 tp ix d L fl f2 hinb)
      (fun x => (congrFun (read_newest (F := F) _ _ (tile_body.sl.gather109 tp ix d L fl hinb) _) x).trans
        (gather_value (F := F) tp ix d L 55 (by decide) fl (tile_body.sl.dma0_1 ix d L) rfl hin _ _ rfl _ _ _ x)))) $$ Hb55
  ihave Hrest := (peel (F := F) d L 55 56 (by decide) rfl _ _).2 $$ [Hb55 Hrest]
  · isplitl [Hb55]; · iexact Hb55
    iexact Hrest
  ihave Hb54 := (Entails.of_eq (blk_value (F := F) tp ix o₀ d L 54 (by decide) (6912#32) rfl (k0_off3_inb L 54) fullShare
      (tile_body.sl.dma0_56 tp ix d L fl f1 hinb)
      (fun x => (congrFun (read_newest (F := F) _ _ (tile_body.sl.gather107 tp ix d L fl hinb) _) x).trans
        (gather_value (F := F) tp ix d L 54 (by decide) fl (tile_body.sl.dma0_1 ix d L) rfl hin _ _ rfl _ _ _ x)))) $$ Hb54
  ihave Hrest := (peel (F := F) d L 54 55 (by decide) rfl _ _).2 $$ [Hb54 Hrest]
  · isplitl [Hb54]; · iexact Hb54
    iexact Hrest
  ihave Hb53 := (Entails.of_eq (blk_value (F := F) tp ix o₀ d L 53 (by decide) (6784#32) rfl (k0_off3_inb L 53) fullShare
      (tile_body.sl.dma0_55 tp ix d L fl f2 hinb)
      (fun x => (congrFun (read_newest (F := F) _ _ (tile_body.sl.gather105 tp ix d L fl hinb) _) x).trans
        (gather_value (F := F) tp ix d L 53 (by decide) fl (tile_body.sl.dma0_1 ix d L) rfl hin _ _ rfl _ _ _ x)))) $$ Hb53
  ihave Hrest := (peel (F := F) d L 53 54 (by decide) rfl _ _).2 $$ [Hb53 Hrest]
  · isplitl [Hb53]; · iexact Hb53
    iexact Hrest
  ihave Hb52 := (Entails.of_eq (blk_value (F := F) tp ix o₀ d L 52 (by decide) (6656#32) rfl (k0_off3_inb L 52) fullShare
      (tile_body.sl.dma0_54 tp ix d L fl f1 hinb)
      (fun x => (congrFun (read_newest (F := F) _ _ (tile_body.sl.gather103 tp ix d L fl hinb) _) x).trans
        (gather_value (F := F) tp ix d L 52 (by decide) fl (tile_body.sl.dma0_1 ix d L) rfl hin _ _ rfl _ _ _ x)))) $$ Hb52
  ihave Hrest := (peel (F := F) d L 52 53 (by decide) rfl _ _).2 $$ [Hb52 Hrest]
  · isplitl [Hb52]; · iexact Hb52
    iexact Hrest
  ihave Hb51 := (Entails.of_eq (blk_value (F := F) tp ix o₀ d L 51 (by decide) (6528#32) rfl (k0_off3_inb L 51) fullShare
      (tile_body.sl.dma0_53 tp ix d L fl f2 hinb)
      (fun x => (congrFun (read_newest (F := F) _ _ (tile_body.sl.gather101 tp ix d L fl hinb) _) x).trans
        (gather_value (F := F) tp ix d L 51 (by decide) fl (tile_body.sl.dma0_1 ix d L) rfl hin _ _ rfl _ _ _ x)))) $$ Hb51
  ihave Hrest := (peel (F := F) d L 51 52 (by decide) rfl _ _).2 $$ [Hb51 Hrest]
  · isplitl [Hb51]; · iexact Hb51
    iexact Hrest
  ihave Hb50 := (Entails.of_eq (blk_value (F := F) tp ix o₀ d L 50 (by decide) (6400#32) rfl (k0_off3_inb L 50) fullShare
      (tile_body.sl.dma0_52 tp ix d L fl f1 hinb)
      (fun x => (congrFun (read_newest (F := F) _ _ (tile_body.sl.gather99 tp ix d L fl hinb) _) x).trans
        (gather_value (F := F) tp ix d L 50 (by decide) fl (tile_body.sl.dma0_1 ix d L) rfl hin _ _ rfl _ _ _ x)))) $$ Hb50
  ihave Hrest := (peel (F := F) d L 50 51 (by decide) rfl _ _).2 $$ [Hb50 Hrest]
  · isplitl [Hb50]; · iexact Hb50
    iexact Hrest
  ihave Hb49 := (Entails.of_eq (blk_value (F := F) tp ix o₀ d L 49 (by decide) (6272#32) rfl (k0_off3_inb L 49) fullShare
      (tile_body.sl.dma0_51 tp ix d L fl f2 hinb)
      (fun x => (congrFun (read_newest (F := F) _ _ (tile_body.sl.gather97 tp ix d L fl hinb) _) x).trans
        (gather_value (F := F) tp ix d L 49 (by decide) fl (tile_body.sl.dma0_1 ix d L) rfl hin _ _ rfl _ _ _ x)))) $$ Hb49
  ihave Hrest := (peel (F := F) d L 49 50 (by decide) rfl _ _).2 $$ [Hb49 Hrest]
  · isplitl [Hb49]; · iexact Hb49
    iexact Hrest
  ihave Hb48 := (Entails.of_eq (blk_value (F := F) tp ix o₀ d L 48 (by decide) (6144#32) rfl (k0_off3_inb L 48) fullShare
      (tile_body.sl.dma0_50 tp ix d L fl f1 hinb)
      (fun x => (congrFun (read_newest (F := F) _ _ (tile_body.sl.gather95 tp ix d L fl hinb) _) x).trans
        (gather_value (F := F) tp ix d L 48 (by decide) fl (tile_body.sl.dma0_1 ix d L) rfl hin _ _ rfl _ _ _ x)))) $$ Hb48
  ihave Hrest := (peel (F := F) d L 48 49 (by decide) rfl _ _).2 $$ [Hb48 Hrest]
  · isplitl [Hb48]; · iexact Hb48
    iexact Hrest
  ihave Hb47 := (Entails.of_eq (blk_value (F := F) tp ix o₀ d L 47 (by decide) (6016#32) rfl (k0_off3_inb L 47) fullShare
      (tile_body.sl.dma0_49 tp ix d L fl f2 hinb)
      (fun x => (congrFun (read_newest (F := F) _ _ (tile_body.sl.gather93 tp ix d L fl hinb) _) x).trans
        (gather_value (F := F) tp ix d L 47 (by decide) fl (tile_body.sl.dma0_1 ix d L) rfl hin _ _ rfl _ _ _ x)))) $$ Hb47
  ihave Hrest := (peel (F := F) d L 47 48 (by decide) rfl _ _).2 $$ [Hb47 Hrest]
  · isplitl [Hb47]; · iexact Hb47
    iexact Hrest
  ihave Hb46 := (Entails.of_eq (blk_value (F := F) tp ix o₀ d L 46 (by decide) (5888#32) rfl (k0_off3_inb L 46) fullShare
      (tile_body.sl.dma0_48 tp ix d L fl f1 hinb)
      (fun x => (congrFun (read_newest (F := F) _ _ (tile_body.sl.gather91 tp ix d L fl hinb) _) x).trans
        (gather_value (F := F) tp ix d L 46 (by decide) fl (tile_body.sl.dma0_1 ix d L) rfl hin _ _ rfl _ _ _ x)))) $$ Hb46
  ihave Hrest := (peel (F := F) d L 46 47 (by decide) rfl _ _).2 $$ [Hb46 Hrest]
  · isplitl [Hb46]; · iexact Hb46
    iexact Hrest
  ihave Hb45 := (Entails.of_eq (blk_value (F := F) tp ix o₀ d L 45 (by decide) (5760#32) rfl (k0_off3_inb L 45) fullShare
      (tile_body.sl.dma0_47 tp ix d L fl f2 hinb)
      (fun x => (congrFun (read_newest (F := F) _ _ (tile_body.sl.gather89 tp ix d L fl hinb) _) x).trans
        (gather_value (F := F) tp ix d L 45 (by decide) fl (tile_body.sl.dma0_1 ix d L) rfl hin _ _ rfl _ _ _ x)))) $$ Hb45
  ihave Hrest := (peel (F := F) d L 45 46 (by decide) rfl _ _).2 $$ [Hb45 Hrest]
  · isplitl [Hb45]; · iexact Hb45
    iexact Hrest
  ihave Hb44 := (Entails.of_eq (blk_value (F := F) tp ix o₀ d L 44 (by decide) (5632#32) rfl (k0_off3_inb L 44) fullShare
      (tile_body.sl.dma0_46 tp ix d L fl f1 hinb)
      (fun x => (congrFun (read_newest (F := F) _ _ (tile_body.sl.gather87 tp ix d L fl hinb) _) x).trans
        (gather_value (F := F) tp ix d L 44 (by decide) fl (tile_body.sl.dma0_1 ix d L) rfl hin _ _ rfl _ _ _ x)))) $$ Hb44
  ihave Hrest := (peel (F := F) d L 44 45 (by decide) rfl _ _).2 $$ [Hb44 Hrest]
  · isplitl [Hb44]; · iexact Hb44
    iexact Hrest
  ihave Hb43 := (Entails.of_eq (blk_value (F := F) tp ix o₀ d L 43 (by decide) (5504#32) rfl (k0_off3_inb L 43) fullShare
      (tile_body.sl.dma0_45 tp ix d L fl f2 hinb)
      (fun x => (congrFun (read_newest (F := F) _ _ (tile_body.sl.gather85 tp ix d L fl hinb) _) x).trans
        (gather_value (F := F) tp ix d L 43 (by decide) fl (tile_body.sl.dma0_1 ix d L) rfl hin _ _ rfl _ _ _ x)))) $$ Hb43
  ihave Hrest := (peel (F := F) d L 43 44 (by decide) rfl _ _).2 $$ [Hb43 Hrest]
  · isplitl [Hb43]; · iexact Hb43
    iexact Hrest
  ihave Hb42 := (Entails.of_eq (blk_value (F := F) tp ix o₀ d L 42 (by decide) (5376#32) rfl (k0_off3_inb L 42) fullShare
      (tile_body.sl.dma0_44 tp ix d L fl f1 hinb)
      (fun x => (congrFun (read_newest (F := F) _ _ (tile_body.sl.gather83 tp ix d L fl hinb) _) x).trans
        (gather_value (F := F) tp ix d L 42 (by decide) fl (tile_body.sl.dma0_1 ix d L) rfl hin _ _ rfl _ _ _ x)))) $$ Hb42
  ihave Hrest := (peel (F := F) d L 42 43 (by decide) rfl _ _).2 $$ [Hb42 Hrest]
  · isplitl [Hb42]; · iexact Hb42
    iexact Hrest
  ihave Hb41 := (Entails.of_eq (blk_value (F := F) tp ix o₀ d L 41 (by decide) (5248#32) rfl (k0_off3_inb L 41) fullShare
      (tile_body.sl.dma0_43 tp ix d L fl f2 hinb)
      (fun x => (congrFun (read_newest (F := F) _ _ (tile_body.sl.gather81 tp ix d L fl hinb) _) x).trans
        (gather_value (F := F) tp ix d L 41 (by decide) fl (tile_body.sl.dma0_1 ix d L) rfl hin _ _ rfl _ _ _ x)))) $$ Hb41
  ihave Hrest := (peel (F := F) d L 41 42 (by decide) rfl _ _).2 $$ [Hb41 Hrest]
  · isplitl [Hb41]; · iexact Hb41
    iexact Hrest
  ihave Hb40 := (Entails.of_eq (blk_value (F := F) tp ix o₀ d L 40 (by decide) (5120#32) rfl (k0_off3_inb L 40) fullShare
      (tile_body.sl.dma0_42 tp ix d L fl f1 hinb)
      (fun x => (congrFun (read_newest (F := F) _ _ (tile_body.sl.gather79 tp ix d L fl hinb) _) x).trans
        (gather_value (F := F) tp ix d L 40 (by decide) fl (tile_body.sl.dma0_1 ix d L) rfl hin _ _ rfl _ _ _ x)))) $$ Hb40
  ihave Hrest := (peel (F := F) d L 40 41 (by decide) rfl _ _).2 $$ [Hb40 Hrest]
  · isplitl [Hb40]; · iexact Hb40
    iexact Hrest
  ihave Hb39 := (Entails.of_eq (blk_value (F := F) tp ix o₀ d L 39 (by decide) (4992#32) rfl (k0_off3_inb L 39) fullShare
      (tile_body.sl.dma0_41 tp ix d L fl f2 hinb)
      (fun x => (congrFun (read_newest (F := F) _ _ (tile_body.sl.gather77 tp ix d L fl hinb) _) x).trans
        (gather_value (F := F) tp ix d L 39 (by decide) fl (tile_body.sl.dma0_1 ix d L) rfl hin _ _ rfl _ _ _ x)))) $$ Hb39
  ihave Hrest := (peel (F := F) d L 39 40 (by decide) rfl _ _).2 $$ [Hb39 Hrest]
  · isplitl [Hb39]; · iexact Hb39
    iexact Hrest
  ihave Hb38 := (Entails.of_eq (blk_value (F := F) tp ix o₀ d L 38 (by decide) (4864#32) rfl (k0_off3_inb L 38) fullShare
      (tile_body.sl.dma0_40 tp ix d L fl f1 hinb)
      (fun x => (congrFun (read_newest (F := F) _ _ (tile_body.sl.gather75 tp ix d L fl hinb) _) x).trans
        (gather_value (F := F) tp ix d L 38 (by decide) fl (tile_body.sl.dma0_1 ix d L) rfl hin _ _ rfl _ _ _ x)))) $$ Hb38
  ihave Hrest := (peel (F := F) d L 38 39 (by decide) rfl _ _).2 $$ [Hb38 Hrest]
  · isplitl [Hb38]; · iexact Hb38
    iexact Hrest
  ihave Hb37 := (Entails.of_eq (blk_value (F := F) tp ix o₀ d L 37 (by decide) (4736#32) rfl (k0_off3_inb L 37) fullShare
      (tile_body.sl.dma0_39 tp ix d L fl f2 hinb)
      (fun x => (congrFun (read_newest (F := F) _ _ (tile_body.sl.gather73 tp ix d L fl hinb) _) x).trans
        (gather_value (F := F) tp ix d L 37 (by decide) fl (tile_body.sl.dma0_1 ix d L) rfl hin _ _ rfl _ _ _ x)))) $$ Hb37
  ihave Hrest := (peel (F := F) d L 37 38 (by decide) rfl _ _).2 $$ [Hb37 Hrest]
  · isplitl [Hb37]; · iexact Hb37
    iexact Hrest
  ihave Hb36 := (Entails.of_eq (blk_value (F := F) tp ix o₀ d L 36 (by decide) (4608#32) rfl (k0_off3_inb L 36) fullShare
      (tile_body.sl.dma0_38 tp ix d L fl f1 hinb)
      (fun x => (congrFun (read_newest (F := F) _ _ (tile_body.sl.gather71 tp ix d L fl hinb) _) x).trans
        (gather_value (F := F) tp ix d L 36 (by decide) fl (tile_body.sl.dma0_1 ix d L) rfl hin _ _ rfl _ _ _ x)))) $$ Hb36
  ihave Hrest := (peel (F := F) d L 36 37 (by decide) rfl _ _).2 $$ [Hb36 Hrest]
  · isplitl [Hb36]; · iexact Hb36
    iexact Hrest
  ihave Hb35 := (Entails.of_eq (blk_value (F := F) tp ix o₀ d L 35 (by decide) (4480#32) rfl (k0_off3_inb L 35) fullShare
      (tile_body.sl.dma0_37 tp ix d L fl f2 hinb)
      (fun x => (congrFun (read_newest (F := F) _ _ (tile_body.sl.gather69 tp ix d L fl hinb) _) x).trans
        (gather_value (F := F) tp ix d L 35 (by decide) fl (tile_body.sl.dma0_1 ix d L) rfl hin _ _ rfl _ _ _ x)))) $$ Hb35
  ihave Hrest := (peel (F := F) d L 35 36 (by decide) rfl _ _).2 $$ [Hb35 Hrest]
  · isplitl [Hb35]; · iexact Hb35
    iexact Hrest
  ihave Hb34 := (Entails.of_eq (blk_value (F := F) tp ix o₀ d L 34 (by decide) (4352#32) rfl (k0_off3_inb L 34) fullShare
      (tile_body.sl.dma0_36 tp ix d L fl f1 hinb)
      (fun x => (congrFun (read_newest (F := F) _ _ (tile_body.sl.gather67 tp ix d L fl hinb) _) x).trans
        (gather_value (F := F) tp ix d L 34 (by decide) fl (tile_body.sl.dma0_1 ix d L) rfl hin _ _ rfl _ _ _ x)))) $$ Hb34
  ihave Hrest := (peel (F := F) d L 34 35 (by decide) rfl _ _).2 $$ [Hb34 Hrest]
  · isplitl [Hb34]; · iexact Hb34
    iexact Hrest
  ihave Hb33 := (Entails.of_eq (blk_value (F := F) tp ix o₀ d L 33 (by decide) (4224#32) rfl (k0_off3_inb L 33) fullShare
      (tile_body.sl.dma0_35 tp ix d L fl f2 hinb)
      (fun x => (congrFun (read_newest (F := F) _ _ (tile_body.sl.gather65 tp ix d L fl hinb) _) x).trans
        (gather_value (F := F) tp ix d L 33 (by decide) fl (tile_body.sl.dma0_1 ix d L) rfl hin _ _ rfl _ _ _ x)))) $$ Hb33
  ihave Hrest := (peel (F := F) d L 33 34 (by decide) rfl _ _).2 $$ [Hb33 Hrest]
  · isplitl [Hb33]; · iexact Hb33
    iexact Hrest
  ihave Hb32 := (Entails.of_eq (blk_value (F := F) tp ix o₀ d L 32 (by decide) (4096#32) rfl (k0_off3_inb L 32) fullShare
      (tile_body.sl.dma0_34 tp ix d L fl f1 hinb)
      (fun x => (congrFun (read_newest (F := F) _ _ (tile_body.sl.gather63 tp ix d L fl hinb) _) x).trans
        (gather_value (F := F) tp ix d L 32 (by decide) fl (tile_body.sl.dma0_1 ix d L) rfl hin _ _ rfl _ _ _ x)))) $$ Hb32
  ihave Hrest := (peel (F := F) d L 32 33 (by decide) rfl _ _).2 $$ [Hb32 Hrest]
  · isplitl [Hb32]; · iexact Hb32
    iexact Hrest
  ihave Hb31 := (Entails.of_eq (blk_value (F := F) tp ix o₀ d L 31 (by decide) (3968#32) rfl (k0_off3_inb L 31) fullShare
      (tile_body.sl.dma0_33 tp ix d L fl f2 hinb)
      (fun x => (congrFun (read_newest (F := F) _ _ (tile_body.sl.gather61 tp ix d L fl hinb) _) x).trans
        (gather_value (F := F) tp ix d L 31 (by decide) fl (tile_body.sl.dma0_1 ix d L) rfl hin _ _ rfl _ _ _ x)))) $$ Hb31
  ihave Hrest := (peel (F := F) d L 31 32 (by decide) rfl _ _).2 $$ [Hb31 Hrest]
  · isplitl [Hb31]; · iexact Hb31
    iexact Hrest
  ihave Hb30 := (Entails.of_eq (blk_value (F := F) tp ix o₀ d L 30 (by decide) (3840#32) rfl (k0_off3_inb L 30) fullShare
      (tile_body.sl.dma0_32 tp ix d L fl f1 hinb)
      (fun x => (congrFun (read_newest (F := F) _ _ (tile_body.sl.gather59 tp ix d L fl hinb) _) x).trans
        (gather_value (F := F) tp ix d L 30 (by decide) fl (tile_body.sl.dma0_1 ix d L) rfl hin _ _ rfl _ _ _ x)))) $$ Hb30
  ihave Hrest := (peel (F := F) d L 30 31 (by decide) rfl _ _).2 $$ [Hb30 Hrest]
  · isplitl [Hb30]; · iexact Hb30
    iexact Hrest
  ihave Hb29 := (Entails.of_eq (blk_value (F := F) tp ix o₀ d L 29 (by decide) (3712#32) rfl (k0_off3_inb L 29) fullShare
      (tile_body.sl.dma0_31 tp ix d L fl f2 hinb)
      (fun x => (congrFun (read_newest (F := F) _ _ (tile_body.sl.gather57 tp ix d L fl hinb) _) x).trans
        (gather_value (F := F) tp ix d L 29 (by decide) fl (tile_body.sl.dma0_1 ix d L) rfl hin _ _ rfl _ _ _ x)))) $$ Hb29
  ihave Hrest := (peel (F := F) d L 29 30 (by decide) rfl _ _).2 $$ [Hb29 Hrest]
  · isplitl [Hb29]; · iexact Hb29
    iexact Hrest
  ihave Hb28 := (Entails.of_eq (blk_value (F := F) tp ix o₀ d L 28 (by decide) (3584#32) rfl (k0_off3_inb L 28) fullShare
      (tile_body.sl.dma0_30 tp ix d L fl f1 hinb)
      (fun x => (congrFun (read_newest (F := F) _ _ (tile_body.sl.gather55 tp ix d L fl hinb) _) x).trans
        (gather_value (F := F) tp ix d L 28 (by decide) fl (tile_body.sl.dma0_1 ix d L) rfl hin _ _ rfl _ _ _ x)))) $$ Hb28
  ihave Hrest := (peel (F := F) d L 28 29 (by decide) rfl _ _).2 $$ [Hb28 Hrest]
  · isplitl [Hb28]; · iexact Hb28
    iexact Hrest
  ihave Hb27 := (Entails.of_eq (blk_value (F := F) tp ix o₀ d L 27 (by decide) (3456#32) rfl (k0_off3_inb L 27) fullShare
      (tile_body.sl.dma0_29 tp ix d L fl f2 hinb)
      (fun x => (congrFun (read_newest (F := F) _ _ (tile_body.sl.gather53 tp ix d L fl hinb) _) x).trans
        (gather_value (F := F) tp ix d L 27 (by decide) fl (tile_body.sl.dma0_1 ix d L) rfl hin _ _ rfl _ _ _ x)))) $$ Hb27
  ihave Hrest := (peel (F := F) d L 27 28 (by decide) rfl _ _).2 $$ [Hb27 Hrest]
  · isplitl [Hb27]; · iexact Hb27
    iexact Hrest
  ihave Hb26 := (Entails.of_eq (blk_value (F := F) tp ix o₀ d L 26 (by decide) (3328#32) rfl (k0_off3_inb L 26) fullShare
      (tile_body.sl.dma0_28 tp ix d L fl f1 hinb)
      (fun x => (congrFun (read_newest (F := F) _ _ (tile_body.sl.gather51 tp ix d L fl hinb) _) x).trans
        (gather_value (F := F) tp ix d L 26 (by decide) fl (tile_body.sl.dma0_1 ix d L) rfl hin _ _ rfl _ _ _ x)))) $$ Hb26
  ihave Hrest := (peel (F := F) d L 26 27 (by decide) rfl _ _).2 $$ [Hb26 Hrest]
  · isplitl [Hb26]; · iexact Hb26
    iexact Hrest
  ihave Hb25 := (Entails.of_eq (blk_value (F := F) tp ix o₀ d L 25 (by decide) (3200#32) rfl (k0_off3_inb L 25) fullShare
      (tile_body.sl.dma0_27 tp ix d L fl f2 hinb)
      (fun x => (congrFun (read_newest (F := F) _ _ (tile_body.sl.gather49 tp ix d L fl hinb) _) x).trans
        (gather_value (F := F) tp ix d L 25 (by decide) fl (tile_body.sl.dma0_1 ix d L) rfl hin _ _ rfl _ _ _ x)))) $$ Hb25
  ihave Hrest := (peel (F := F) d L 25 26 (by decide) rfl _ _).2 $$ [Hb25 Hrest]
  · isplitl [Hb25]; · iexact Hb25
    iexact Hrest
  ihave Hb24 := (Entails.of_eq (blk_value (F := F) tp ix o₀ d L 24 (by decide) (3072#32) rfl (k0_off3_inb L 24) fullShare
      (tile_body.sl.dma0_26 tp ix d L fl f1 hinb)
      (fun x => (congrFun (read_newest (F := F) _ _ (tile_body.sl.gather47 tp ix d L fl hinb) _) x).trans
        (gather_value (F := F) tp ix d L 24 (by decide) fl (tile_body.sl.dma0_1 ix d L) rfl hin _ _ rfl _ _ _ x)))) $$ Hb24
  ihave Hrest := (peel (F := F) d L 24 25 (by decide) rfl _ _).2 $$ [Hb24 Hrest]
  · isplitl [Hb24]; · iexact Hb24
    iexact Hrest
  ihave Hb23 := (Entails.of_eq (blk_value (F := F) tp ix o₀ d L 23 (by decide) (2944#32) rfl (k0_off3_inb L 23) fullShare
      (tile_body.sl.dma0_25 tp ix d L fl f2 hinb)
      (fun x => (congrFun (read_newest (F := F) _ _ (tile_body.sl.gather45 tp ix d L fl hinb) _) x).trans
        (gather_value (F := F) tp ix d L 23 (by decide) fl (tile_body.sl.dma0_1 ix d L) rfl hin _ _ rfl _ _ _ x)))) $$ Hb23
  ihave Hrest := (peel (F := F) d L 23 24 (by decide) rfl _ _).2 $$ [Hb23 Hrest]
  · isplitl [Hb23]; · iexact Hb23
    iexact Hrest
  ihave Hb22 := (Entails.of_eq (blk_value (F := F) tp ix o₀ d L 22 (by decide) (2816#32) rfl (k0_off3_inb L 22) fullShare
      (tile_body.sl.dma0_24 tp ix d L fl f1 hinb)
      (fun x => (congrFun (read_newest (F := F) _ _ (tile_body.sl.gather43 tp ix d L fl hinb) _) x).trans
        (gather_value (F := F) tp ix d L 22 (by decide) fl (tile_body.sl.dma0_1 ix d L) rfl hin _ _ rfl _ _ _ x)))) $$ Hb22
  ihave Hrest := (peel (F := F) d L 22 23 (by decide) rfl _ _).2 $$ [Hb22 Hrest]
  · isplitl [Hb22]; · iexact Hb22
    iexact Hrest
  ihave Hb21 := (Entails.of_eq (blk_value (F := F) tp ix o₀ d L 21 (by decide) (2688#32) rfl (k0_off3_inb L 21) fullShare
      (tile_body.sl.dma0_23 tp ix d L fl f2 hinb)
      (fun x => (congrFun (read_newest (F := F) _ _ (tile_body.sl.gather41 tp ix d L fl hinb) _) x).trans
        (gather_value (F := F) tp ix d L 21 (by decide) fl (tile_body.sl.dma0_1 ix d L) rfl hin _ _ rfl _ _ _ x)))) $$ Hb21
  ihave Hrest := (peel (F := F) d L 21 22 (by decide) rfl _ _).2 $$ [Hb21 Hrest]
  · isplitl [Hb21]; · iexact Hb21
    iexact Hrest
  ihave Hb20 := (Entails.of_eq (blk_value (F := F) tp ix o₀ d L 20 (by decide) (2560#32) rfl (k0_off3_inb L 20) fullShare
      (tile_body.sl.dma0_22 tp ix d L fl f1 hinb)
      (fun x => (congrFun (read_newest (F := F) _ _ (tile_body.sl.gather39 tp ix d L fl hinb) _) x).trans
        (gather_value (F := F) tp ix d L 20 (by decide) fl (tile_body.sl.dma0_1 ix d L) rfl hin _ _ rfl _ _ _ x)))) $$ Hb20
  ihave Hrest := (peel (F := F) d L 20 21 (by decide) rfl _ _).2 $$ [Hb20 Hrest]
  · isplitl [Hb20]; · iexact Hb20
    iexact Hrest
  ihave Hb19 := (Entails.of_eq (blk_value (F := F) tp ix o₀ d L 19 (by decide) (2432#32) rfl (k0_off3_inb L 19) fullShare
      (tile_body.sl.dma0_21 tp ix d L fl f2 hinb)
      (fun x => (congrFun (read_newest (F := F) _ _ (tile_body.sl.gather37 tp ix d L fl hinb) _) x).trans
        (gather_value (F := F) tp ix d L 19 (by decide) fl (tile_body.sl.dma0_1 ix d L) rfl hin _ _ rfl _ _ _ x)))) $$ Hb19
  ihave Hrest := (peel (F := F) d L 19 20 (by decide) rfl _ _).2 $$ [Hb19 Hrest]
  · isplitl [Hb19]; · iexact Hb19
    iexact Hrest
  ihave Hb18 := (Entails.of_eq (blk_value (F := F) tp ix o₀ d L 18 (by decide) (2304#32) rfl (k0_off3_inb L 18) fullShare
      (tile_body.sl.dma0_20 tp ix d L fl f1 hinb)
      (fun x => (congrFun (read_newest (F := F) _ _ (tile_body.sl.gather35 tp ix d L fl hinb) _) x).trans
        (gather_value (F := F) tp ix d L 18 (by decide) fl (tile_body.sl.dma0_1 ix d L) rfl hin _ _ rfl _ _ _ x)))) $$ Hb18
  ihave Hrest := (peel (F := F) d L 18 19 (by decide) rfl _ _).2 $$ [Hb18 Hrest]
  · isplitl [Hb18]; · iexact Hb18
    iexact Hrest
  ihave Hb17 := (Entails.of_eq (blk_value (F := F) tp ix o₀ d L 17 (by decide) (2176#32) rfl (k0_off3_inb L 17) fullShare
      (tile_body.sl.dma0_19 tp ix d L fl f2 hinb)
      (fun x => (congrFun (read_newest (F := F) _ _ (tile_body.sl.gather33 tp ix d L fl hinb) _) x).trans
        (gather_value (F := F) tp ix d L 17 (by decide) fl (tile_body.sl.dma0_1 ix d L) rfl hin _ _ rfl _ _ _ x)))) $$ Hb17
  ihave Hrest := (peel (F := F) d L 17 18 (by decide) rfl _ _).2 $$ [Hb17 Hrest]
  · isplitl [Hb17]; · iexact Hb17
    iexact Hrest
  ihave Hb16 := (Entails.of_eq (blk_value (F := F) tp ix o₀ d L 16 (by decide) (2048#32) rfl (k0_off3_inb L 16) fullShare
      (tile_body.sl.dma0_18 tp ix d L fl f1 hinb)
      (fun x => (congrFun (read_newest (F := F) _ _ (tile_body.sl.gather31 tp ix d L fl hinb) _) x).trans
        (gather_value (F := F) tp ix d L 16 (by decide) fl (tile_body.sl.dma0_1 ix d L) rfl hin _ _ rfl _ _ _ x)))) $$ Hb16
  ihave Hrest := (peel (F := F) d L 16 17 (by decide) rfl _ _).2 $$ [Hb16 Hrest]
  · isplitl [Hb16]; · iexact Hb16
    iexact Hrest
  ihave Hb15 := (Entails.of_eq (blk_value (F := F) tp ix o₀ d L 15 (by decide) (1920#32) rfl (k0_off3_inb L 15) fullShare
      (tile_body.sl.dma0_17 tp ix d L fl f2 hinb)
      (fun x => (congrFun (read_newest (F := F) _ _ (tile_body.sl.gather29 tp ix d L fl hinb) _) x).trans
        (gather_value (F := F) tp ix d L 15 (by decide) fl (tile_body.sl.dma0_1 ix d L) rfl hin _ _ rfl _ _ _ x)))) $$ Hb15
  ihave Hrest := (peel (F := F) d L 15 16 (by decide) rfl _ _).2 $$ [Hb15 Hrest]
  · isplitl [Hb15]; · iexact Hb15
    iexact Hrest
  ihave Hb14 := (Entails.of_eq (blk_value (F := F) tp ix o₀ d L 14 (by decide) (1792#32) rfl (k0_off3_inb L 14) fullShare
      (tile_body.sl.dma0_16 tp ix d L fl f1 hinb)
      (fun x => (congrFun (read_newest (F := F) _ _ (tile_body.sl.gather27 tp ix d L fl hinb) _) x).trans
        (gather_value (F := F) tp ix d L 14 (by decide) fl (tile_body.sl.dma0_1 ix d L) rfl hin _ _ rfl _ _ _ x)))) $$ Hb14
  ihave Hrest := (peel (F := F) d L 14 15 (by decide) rfl _ _).2 $$ [Hb14 Hrest]
  · isplitl [Hb14]; · iexact Hb14
    iexact Hrest
  ihave Hb13 := (Entails.of_eq (blk_value (F := F) tp ix o₀ d L 13 (by decide) (1664#32) rfl (k0_off3_inb L 13) fullShare
      (tile_body.sl.dma0_15 tp ix d L fl f2 hinb)
      (fun x => (congrFun (read_newest (F := F) _ _ (tile_body.sl.gather25 tp ix d L fl hinb) _) x).trans
        (gather_value (F := F) tp ix d L 13 (by decide) fl (tile_body.sl.dma0_1 ix d L) rfl hin _ _ rfl _ _ _ x)))) $$ Hb13
  ihave Hrest := (peel (F := F) d L 13 14 (by decide) rfl _ _).2 $$ [Hb13 Hrest]
  · isplitl [Hb13]; · iexact Hb13
    iexact Hrest
  ihave Hb12 := (Entails.of_eq (blk_value (F := F) tp ix o₀ d L 12 (by decide) (1536#32) rfl (k0_off3_inb L 12) fullShare
      (tile_body.sl.dma0_14 tp ix d L fl f1 hinb)
      (fun x => (congrFun (read_newest (F := F) _ _ (tile_body.sl.gather23 tp ix d L fl hinb) _) x).trans
        (gather_value (F := F) tp ix d L 12 (by decide) fl (tile_body.sl.dma0_1 ix d L) rfl hin _ _ rfl _ _ _ x)))) $$ Hb12
  ihave Hrest := (peel (F := F) d L 12 13 (by decide) rfl _ _).2 $$ [Hb12 Hrest]
  · isplitl [Hb12]; · iexact Hb12
    iexact Hrest
  ihave Hb11 := (Entails.of_eq (blk_value (F := F) tp ix o₀ d L 11 (by decide) (1408#32) rfl (k0_off3_inb L 11) fullShare
      (tile_body.sl.dma0_13 tp ix d L fl f2 hinb)
      (fun x => (congrFun (read_newest (F := F) _ _ (tile_body.sl.gather21 tp ix d L fl hinb) _) x).trans
        (gather_value (F := F) tp ix d L 11 (by decide) fl (tile_body.sl.dma0_1 ix d L) rfl hin _ _ rfl _ _ _ x)))) $$ Hb11
  ihave Hrest := (peel (F := F) d L 11 12 (by decide) rfl _ _).2 $$ [Hb11 Hrest]
  · isplitl [Hb11]; · iexact Hb11
    iexact Hrest
  ihave Hb10 := (Entails.of_eq (blk_value (F := F) tp ix o₀ d L 10 (by decide) (1280#32) rfl (k0_off3_inb L 10) fullShare
      (tile_body.sl.dma0_12 tp ix d L fl f1 hinb)
      (fun x => (congrFun (read_newest (F := F) _ _ (tile_body.sl.gather19 tp ix d L fl hinb) _) x).trans
        (gather_value (F := F) tp ix d L 10 (by decide) fl (tile_body.sl.dma0_1 ix d L) rfl hin _ _ rfl _ _ _ x)))) $$ Hb10
  ihave Hrest := (peel (F := F) d L 10 11 (by decide) rfl _ _).2 $$ [Hb10 Hrest]
  · isplitl [Hb10]; · iexact Hb10
    iexact Hrest
  ihave Hb9 := (Entails.of_eq (blk_value (F := F) tp ix o₀ d L 9 (by decide) (1152#32) rfl (k0_off3_inb L 9) fullShare
      (tile_body.sl.dma0_11 tp ix d L fl f2 hinb)
      (fun x => (congrFun (read_newest (F := F) _ _ (tile_body.sl.gather17 tp ix d L fl hinb) _) x).trans
        (gather_value (F := F) tp ix d L 9 (by decide) fl (tile_body.sl.dma0_1 ix d L) rfl hin _ _ rfl _ _ _ x)))) $$ Hb9
  ihave Hrest := (peel (F := F) d L 9 10 (by decide) rfl _ _).2 $$ [Hb9 Hrest]
  · isplitl [Hb9]; · iexact Hb9
    iexact Hrest
  ihave Hb8 := (Entails.of_eq (blk_value (F := F) tp ix o₀ d L 8 (by decide) (1024#32) rfl (k0_off3_inb L 8) fullShare
      (tile_body.sl.dma0_10 tp ix d L fl f1 hinb)
      (fun x => (congrFun (read_newest (F := F) _ _ (tile_body.sl.gather15 tp ix d L fl hinb) _) x).trans
        (gather_value (F := F) tp ix d L 8 (by decide) fl (tile_body.sl.dma0_1 ix d L) rfl hin _ _ rfl _ _ _ x)))) $$ Hb8
  ihave Hrest := (peel (F := F) d L 8 9 (by decide) rfl _ _).2 $$ [Hb8 Hrest]
  · isplitl [Hb8]; · iexact Hb8
    iexact Hrest
  ihave Hb7 := (Entails.of_eq (blk_value (F := F) tp ix o₀ d L 7 (by decide) (896#32) rfl (k0_off3_inb L 7) fullShare
      (tile_body.sl.dma0_9 tp ix d L fl f2 hinb)
      (fun x => (congrFun (read_newest (F := F) _ _ (tile_body.sl.gather13 tp ix d L fl hinb) _) x).trans
        (gather_value (F := F) tp ix d L 7 (by decide) fl (tile_body.sl.dma0_1 ix d L) rfl hin _ _ rfl _ _ _ x)))) $$ Hb7
  ihave Hrest := (peel (F := F) d L 7 8 (by decide) rfl _ _).2 $$ [Hb7 Hrest]
  · isplitl [Hb7]; · iexact Hb7
    iexact Hrest
  ihave Hb6 := (Entails.of_eq (blk_value (F := F) tp ix o₀ d L 6 (by decide) (768#32) rfl (k0_off3_inb L 6) fullShare
      (tile_body.sl.dma0_8 tp ix d L fl f1 hinb)
      (fun x => (congrFun (read_newest (F := F) _ _ (tile_body.sl.gather11 tp ix d L fl hinb) _) x).trans
        (gather_value (F := F) tp ix d L 6 (by decide) fl (tile_body.sl.dma0_1 ix d L) rfl hin _ _ rfl _ _ _ x)))) $$ Hb6
  ihave Hrest := (peel (F := F) d L 6 7 (by decide) rfl _ _).2 $$ [Hb6 Hrest]
  · isplitl [Hb6]; · iexact Hb6
    iexact Hrest
  ihave Hb5 := (Entails.of_eq (blk_value (F := F) tp ix o₀ d L 5 (by decide) (640#32) rfl (k0_off3_inb L 5) fullShare
      (tile_body.sl.dma0_7 tp ix d L fl f2 hinb)
      (fun x => (congrFun (read_newest (F := F) _ _ (tile_body.sl.gather9 tp ix d L fl hinb) _) x).trans
        (gather_value (F := F) tp ix d L 5 (by decide) fl (tile_body.sl.dma0_1 ix d L) rfl hin _ _ rfl _ _ _ x)))) $$ Hb5
  ihave Hrest := (peel (F := F) d L 5 6 (by decide) rfl _ _).2 $$ [Hb5 Hrest]
  · isplitl [Hb5]; · iexact Hb5
    iexact Hrest
  ihave Hb4 := (Entails.of_eq (blk_value (F := F) tp ix o₀ d L 4 (by decide) (512#32) rfl (k0_off3_inb L 4) fullShare
      (tile_body.sl.dma0_6 tp ix d L fl f1 hinb)
      (fun x => (congrFun (read_newest (F := F) _ _ (tile_body.sl.gather7 tp ix d L fl hinb) _) x).trans
        (gather_value (F := F) tp ix d L 4 (by decide) fl (tile_body.sl.dma0_1 ix d L) rfl hin _ _ rfl _ _ _ x)))) $$ Hb4
  ihave Hrest := (peel (F := F) d L 4 5 (by decide) rfl _ _).2 $$ [Hb4 Hrest]
  · isplitl [Hb4]; · iexact Hb4
    iexact Hrest
  ihave Hb3 := (Entails.of_eq (blk_value (F := F) tp ix o₀ d L 3 (by decide) (384#32) rfl (k0_off3_inb L 3) fullShare
      (tile_body.sl.dma0_5 tp ix d L fl f2 hinb)
      (fun x => (congrFun (read_newest (F := F) _ _ (tile_body.sl.gather5 tp ix d L fl hinb) _) x).trans
        (gather_value (F := F) tp ix d L 3 (by decide) fl (tile_body.sl.dma0_1 ix d L) rfl hin _ _ rfl _ _ _ x)))) $$ Hb3
  ihave Hrest := (peel (F := F) d L 3 4 (by decide) rfl _ _).2 $$ [Hb3 Hrest]
  · isplitl [Hb3]; · iexact Hb3
    iexact Hrest
  ihave Hb2 := (Entails.of_eq (blk_value (F := F) tp ix o₀ d L 2 (by decide) (256#32) rfl (k0_off3_inb L 2) fullShare
      (tile_body.sl.dma0_4 tp ix d L fl f1 hinb)
      (fun x => (congrFun (read_newest (F := F) _ _ (tile_body.sl.gather3 tp ix d L fl hinb) _) x).trans
        (gather_value (F := F) tp ix d L 2 (by decide) fl (tile_body.sl.dma0_1 ix d L) rfl hin _ _ rfl _ _ _ x)))) $$ Hb2
  ihave Hrest := (peel (F := F) d L 2 3 (by decide) rfl _ _).2 $$ [Hb2 Hrest]
  · isplitl [Hb2]; · iexact Hb2
    iexact Hrest
  ihave Hb1 := (Entails.of_eq (blk_value (F := F) tp ix o₀ d L 1 (by decide) (128#32) rfl (k0_off3_inb L 1) fullShare
      (tile_body.sl.dma0_3 tp ix d L fl f2 hinb)
      (fun x => (congrFun (read_newest (F := F) _ _ (tile_body.sl.gather1 tp ix d L fl hinb) _) x).trans
        (gather_value (F := F) tp ix d L 1 (by decide) fl (tile_body.sl.dma0_1 ix d L) rfl hin _ _ rfl _ _ _ x)))) $$ Hb1
  ihave Hrest := (peel (F := F) d L 1 2 (by decide) rfl _ _).2 $$ [Hb1 Hrest]
  · isplitl [Hb1]; · iexact Hb1
    iexact Hrest
  ihave Hb0 := (Entails.of_eq (blk_value (F := F) tp ix o₀ d L 0 (by decide) (0#32) rfl (k0_off3_inb L 0) fullShare
      (tile_body.sl.dma0_2 tp ix d L fl f1 hinb)
      (fun x => (congrFun (read_newest (F := F) _ _ (tile_body.sl.gather0 tp ix d L fl hinb) _) x).trans
        (gather_value (F := F) tp ix d L 0 (by decide) fl (tile_body.sl.dma0_1 ix d L) rfl hin _ _ rfl _ _ _ x)))) $$ Hb0
  ihave Hrest := (peel (F := F) d L 0 1 (by decide) rfl _ _).2 $$ [Hb0 Hrest]
  · isplitl [Hb0]; · iexact Hb0
    iexact Hrest
  ihave Ho := (Entails.of_eq (pts_rest0 (F := F) d L _ _).symm) $$ Hrest
  isplitl [Ht Hi Ho Hall Hkept]
  · unfold tdRes
    isplitl [Ht]; · iexact Ht
    isplitl [Hi]; · iexact Hi
    isplitl [Ho]; · iexact Ho
    isplitl [Hall]; · iexact Hall
    iexact Hkept
  isplitl [Hl' Hr1' Hr2' Hbufs]
  · isplitl [Hl']; · iexists _; iexact Hl'
    isplitl [Hr1']; · iexists _; iexact Hr1'
    isplitl [Hr2']; · iexists _; iexact Hr2'
    iexact Hbufs
  isplitl [HsT HsI HsG1 HsG2 HsS1 HsS2 Hsems]
  · isplitl [HsT]; · iexact HsT
    isplitl [HsI]; · iexact HsI
    isplitl [HsG1]; · iexact HsG1
    isplitl [HsG2]; · iexact HsG2
    isplitl [HsS1]; · iexact HsS1
    isplitl [HsS2]; · iexact HsS2
    iexact Hsems
  iexists _; isplitr
  swap; · iexact HO
  ipureintro
  repeat (refine waits_ins (by first | exact Or.inr (Or.inl rfl) | exact Or.inr (Or.inr rfl)) ?_)
  exact fun p hp => Or.inl hp

end Tile

end Cert.Proof.KB

end
-- ==== Proof.KBMain.lean ====
/-
  @main on the TensorCore, and how the final memory reads the claim.

  Before the SparseCores are started the TensorCore flattens the index array and pads the table: four host operations
  over the arguments and four values of their own. The padded table is then cut into two read shares, one per
  SparseCore; the flat indices and the rows of the result are cut into the thirty-two pieces of 8192 the workers own,
  worker 2·s + c being task s of SparseCore c. When the SparseCores are done the thirty-two pieces of the result, each
  holding the rows read through its indices, make the whole array of gathered rows again; it is cut back to 64 columns
  and folded, and what the fold holds is the lookup. The arguments are only read: they end as they began.
-/
import proofs.«204540_g20890720928596_cont_8to1_1350_21_alg».proof.Proof.KBCommon
import proofs.«204540_g20890720928596_cont_8to1_1350_21_alg».proof.Proof.HostValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The thirty-two workers as two SparseCores of sixteen tasks -/

/-- Worker 2·s + c is task s of SparseCore c: a bijection. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-- A family over the workers, taken SparseCore by SparseCore and task by task. -/
theorem bigSep_workers (Φ : Fin 32 → sProp 𝕄) :
    (bigSep Finset.univ fun c : Fin 2 => bigSep Finset.univ fun s : Fin 16 => Φ (wid c s)) = bigSep Finset.univ Φ := by
  rw [← bigSep_univ_prod (fun p : Fin 2 × Fin 16 => Φ (wid p.1 p.2)), bigSep_univ_equiv widEquiv Φ]
  rfl

/-- A family over the call's core numbers is one over the two SparseCores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The flat indices and the gathered rows, whole and in the workers' pieces -/

theorem idx_disjoint : ∀ w ∈ (Finset.univ : Finset (Fin 32)), ∀ w' ∈ (Finset.univ : Finset (Fin 32)), w ≠ w' → Disjoint (idxSet w) (idxSet w') :=
  fun _ _ _ _ h => Rect.part_disjoint hdivI h
theorem idx_cover : (Finset.univ : Finset (Fin 32)).biUnion idxSet = Finset.univ := Rect.biUnion_part hdivI
theorem out_disjoint : ∀ w ∈ (Finset.univ : Finset (Fin 32)), ∀ w' ∈ (Finset.univ : Finset (Fin 32)), w ≠ w' → Disjoint (outSet w) (outSet w') :=
  fun _ _ _ _ h => Rect.part_disjoint hdivO h
theorem out_cover : (Finset.univ : Finset (Fin 32)).biUnion outSet = Finset.univ := Rect.biUnion_part hdivO

theorem iPts_parts (d : Dev nD) (f : Buf (Elt F) (iLoc d)) :
    (iLoc d ↦{fullShare} f : sProp 𝕄) = bigSep Finset.univ fun w : Fin 32 => iLoc d ↦[idxSet w]{fullShare} f := by
  rw [← pointsTo_biUnion Finset.univ (ℓ := iLoc d) idxSet idx_disjoint, idx_cover]; try rfl
theorem oPts_parts (d : Dev nD) (f : Buf (Elt F) (oLoc d)) :
    (oLoc d ↦{fullShare} f : sProp 𝕄) = bigSep Finset.univ fun w : Fin 32 => oLoc d ↦[outSet w]{fullShare} f := by
  rw [← pointsTo_biUnion Finset.univ (ℓ := oLoc d) outSet out_disjoint, out_cover]; try rfl

variable [FloatOps F]

variable (tp : (d : Dev nD) → Buf (Elt F) (tLoc d)) (ix : (d : Dev nD) → Buf (Elt F) (iLoc d))
variable (o₀ : (d : Dev nD) → Buf (Elt F) (oLoc d))

/-- What the two SparseCores hold between them, the result's rows at o: the two read shares of the padded table, the
    flat indices whole and the result whole. -/
theorem cores_eq (d : Dev nD) (o : Buf (Elt F) (oLoc d)) :
    (bigSep Finset.univ fun c : Fin 2 => iprop((tLoc d ↦{coreShare c} tp d) ∗ bigSep Finset.univ fun s : Fin 16 =>
        iprop((iLoc d ↦[idxSet (wid c s)]{fullShare} ix d) ∗ (oLoc d ↦[outSet (wid c s)]{fullShare} o))) : sProp 𝕄)
      = iprop((bigSep Finset.univ fun c : Fin 2 => tLoc d ↦{coreShare c} tp d) ∗ (iLoc d ↦{fullShare} ix d) ∗ (oLoc d ↦{fullShare} o)) := by
  rw [bigSep_sep', bigSep_workers (fun w => iprop((iLoc d ↦[idxSet w]{fullShare} ix d) ∗ (oLoc d ↦[outSet w]{fullShare} o))),
    bigSep_sep', ← iPts_parts, ← oPts_parts]

/-- What the call takes for the two SparseCores, and what it hands back. -/
theorem st0_eq (d : Dev nD) :
    (bigSep Finset.univ fun c : Fin ((K (F := F)).nCore 0) => (P tp ix o₀).st 0 d c)
      = iprop((bigSep Finset.univ fun c : Fin 2 => tLoc d ↦{coreShare c} tp d) ∗ (iLoc d ↦{fullShare} ix d) ∗ (oLoc d ↦{fullShare} o₀ d)) := by
  show (bigSep Finset.univ fun c : Fin ((K (F := F)).nCore 0) => stRes tp ix o₀ d (Fin.cast nCore_zero c)) = _
  rw [bigSep_cores (F := F) (fun c => stRes tp ix o₀ d c)]
  exact cores_eq tp ix d (o₀ d)
theorem dn0_eq (d : Dev nD) :
    (bigSep Finset.univ fun c : Fin ((K (F := F)).nCore 0) => (P tp ix o₀).dn 0 d c)
      = iprop((bigSep Finset.univ fun c : Fin 2 => tLoc d ↦{coreShare c} tp d) ∗ (iLoc d ↦{fullShare} ix d) ∗ (oLoc d ↦{fullShare} rowsOf tp ix d)) := by
  show (bigSep Finset.univ fun c : Fin ((K (F := F)).nCore 0) => dnRes tp ix d (Fin.cast nCore_zero c)) = _
  rw [bigSep_cores (F := F) (fun c => dnRes tp ix d c)]
  exact cores_eq tp ix d (rowsOf tp ix d)

/-! ## @main on the TensorCore -/

section Main

variable (m : (ℓ : Loc nD τ sig) → Buf (Elt F) ℓ) (ρ : Dev nD → PrngReg)

abbrev sLoc (d : Dev nD) : Loc nD τ sig := (SparseCore.T d).loc main_v3
abbrev rLoc (d : Dev nD) : Loc nD τ sig := (SparseCore.T d).loc main_v4

/-- The TensorCore's nine arrays: the arguments, the flat indices, the padding constant as a word and as a number, the
    padded table, the gathered rows, their cut to 64 columns, the result. -/
abbrev dA : DevRef τ sig := Proc.devRef .tc (main_arg0 : Ref sig .tc)
abbrev dB : DevRef τ sig := Proc.devRef .tc (main_arg1 : Ref sig .tc)
abbrev dI : DevRef τ sig := Proc.devRef .tc (main_v0 : Ref sig .tc)
abbrev dC : DevRef τ sig := Proc.devRef .tc (main_c : Ref sig .tc)
abbrev dZ : DevRef τ sig := Proc.devRef .tc (main_call0_v0 : Ref sig .tc)
abbrev dT : DevRef τ sig := Proc.devRef .tc (main_v1 : Ref sig .tc)
abbrev dO : DevRef τ sig := Proc.devRef .tc (main_v2 : Ref sig .tc)
abbrev dS : DevRef τ sig := Proc.devRef .tc (main_v3 : Ref sig .tc)
abbrev dR : DevRef τ sig := Proc.devRef .tc (main_v4 : Ref sig .tc)

/-- The six the operations before the call touch, and the three those after it touch. -/
abbrev S6 : Finset (DevRef τ sig) := {dA, dB, dI, dC, dZ, dT}
abbrev S3 : Finset (DevRef τ sig) := {dO, dS, dR}

/-- The operations, as @main and the padding function's body spell them. -/
abbrev opFlat : HloOp τ sig (Elt F) := StableHlo.reshape main_arg1 main_v0 rfl shapeCasts_S256x32x32_S262144
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) :=
  StableHlo.TRef.binary (.of main_arg0 : StableHlo.TRef sig ⟨S8192x64, .f32⟩) main_call0.v0 main_call0.v1
    (fun x v => pad S8192x128 ![0, 0] ![0, 64] ![0, 0] x v pads_S8192x64_S8192x128_000_0640 h_S_)
abbrev opCut : HloOp τ sig (Elt F) :=
  StableHlo.unary main_v2 main_v3 ((extractStridedSlice S262144x64 ![0, 0] · slices_S262144x128_S262144x64_0_0) :
    (⟨S262144x128, .f32⟩ : BufTy).Contents (Elt F) → (⟨S262144x64, .f32⟩ : BufTy).Contents (Elt F))
abbrev opFold : HloOp τ sig (Elt F) := StableHlo.reshape main_v3 main_v4 rfl shapeCasts_S262144x64_S256x32x32x64

theorem hFlat : (opFlat (F := F)).bufs ⊆ S6 := show ({dB, dI} : Finset (DevRef τ sig)) ⊆ S6 by decide
theorem hZero : (opZero (F := F)).bufs ⊆ S6 := show ({dC} : Finset (DevRef τ sig)) ⊆ S6 by decide
theorem hConv : (opConv (F := F)).bufs ⊆ S6 := show ({dC, dZ} : Finset (DevRef τ sig)) ⊆ S6 by decide
theorem hPad : (opPad (F := F)).bufs ⊆ S6 := show ({dA, dZ, dT} : Finset (DevRef τ sig)) ⊆ S6 by decide
theorem hCut : (opCut (F := F)).bufs ⊆ S3 := show ({dO, dS} : Finset (DevRef τ sig)) ⊆ S3 by decide
theorem hFold : (opFold (F := F)).bufs ⊆ S3 := show ({dS, dR} : Finset (DevRef τ sig)) ⊆ S3 by decide

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_v0)
      ∗ ((SparseCore.T d).loc main_c ↦{fullShare} W main_c) ∗ ((SparseCore.T d).loc main_call0_v0 ↦{fullShare} W main_call0_v0)
      ∗ (tLoc d ↦{fullShare} W main_v1) ∗ (oLoc d ↦{fullShare} W main_v2) ∗ (sLoc d ↦{fullShare} W main_v3) ∗ rLoc d ↦{fullShare} W main_v4) := by
  unfold unscopedBufs
  rw [show (Finset.univ.filter fun b : Ref sig .tc => ¬ b.isScoped)
      = {main_arg0, main_arg1, main_v0, main_c, main_call0_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S6 (d : Dev nD) (W : Valuation τ sig (Elt F)) :
    (held (T d) S6 W : sProp 𝕄) = iprop((aLoc d ↦{fullShare} W dA) ∗ (bLoc d ↦{fullShare} W dB) ∗ (iLoc d ↦{fullShare} W dI)
      ∗ ((SparseCore.T d).loc main_c ↦{fullShare} W dC) ∗ ((SparseCore.T d).loc main_call0_v0 ↦{fullShare} W dZ) ∗ (tLoc d ↦{fullShare} W dT)) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem held_S3 (d : Dev nD) (W : Valuation τ sig (Elt F)) :
    (held (T d) S3 W : sProp 𝕄) = iprop((oLoc d ↦{fullShare} W dO) ∗ (sLoc d ↦{fullShare} W dS) ∗ (rLoc d ↦{fullShare} W dR)) := by
  unfold held S3
  rw [SparseCore.bigSep_insert' (by decide), SparseCore.bigSep_insert' (by decide), bigSep_singleton]

/-- The launch contents; what the six arrays hold once the four operations before the call have run; what the three
    hold when the SparseCores are done, and once the two operations after the call have run. -/
def V0 (d : Dev nD) : Valuation τ sig (Elt F) := fun b => m (d, b)
def V4 (d : Dev nD) : Valuation τ sig (Elt F) :=
  (opPad (F := F)).result ((opConv (F := F)).result ((opZero (F := F)).result ((opFlat (F := F)).result (V0 m d))))
def V5 (d : Dev nD) : Valuation τ sig (Elt F) := Function.update (V0 m d) dO (rowsOf (tpOf m) (ixOf m) d)
def V7 (d : Dev nD) : Valuation τ sig (Elt F) := (opFold (F := F)).result ((opCut (F := F)).result (V5 m d))

theorem V4_a (d : Dev nD) : V4 m d dA = m (aLoc d) := by
  unfold V4
  rw [StableHlo.binary_result_ne (h := by decide), StableHlo.unary_result_ne (h := by decide), StableHlo.nullary_result_ne (h := by decide),
    StableHlo.reshape_result_ne (h := by decide)]
  rfl
theorem V4_b (d : Dev nD) : V4 m d dB = m (bLoc d) := by
  unfold V4
  rw [StableHlo.binary_result_ne (h := by decide), StableHlo.unary_result_ne (h := by decide), StableHlo.nullary_result_ne (h := by decide),
    StableHlo.reshape_result_ne (h := by decide)]
  rfl
theorem V4_i (d : Dev nD) : V4 m d dI = ixOf m d := by
  unfold V4
  rw [StableHlo.binary_result_ne (h := by decide), StableHlo.unary_result_ne (h := by decide), StableHlo.nullary_result_ne (h := by decide),
    StableHlo.reshape_result]
  rfl
theorem V4_t (d : Dev nD) : V4 m d dT = tpOf m d := by
  unfold V4
  rw [StableHlo.binary_result, StableHlo.unary_result_ne (h := by decide), StableHlo.nullary_result_ne (h := by decide),
    StableHlo.reshape_result_ne (h := by decide), StableHlo.unary_result, StableHlo.nullary_result]
  rfl

theorem V5_o (d : Dev nD) : V5 m d dO = rowsOf (tpOf m) (ixOf m) d := Function.update_self _ _ _
theorem V5_s (d : Dev nD) : V5 m d dS = m (sLoc d) := Function.update_of_ne (show dS ≠ dO by decide) _ _
theorem V5_r (d : Dev nD) : V5 m d dR = m (rLoc d) := Function.update_of_ne (show dR ≠ dO by decide) _ _

/-- The fold of the cut-back gathered rows is the lookup. -/
theorem V7_r (d : Dev nD) : V7 m d dR = Spec.lookup (α := Elt F .f32) (m (aLoc d)) (m (bLoc d)) := by
  unfold V7
  rw [StableHlo.reshape_result, StableHlo.unary_result, V5_o]
  exact Cert.Proof.HostValue.out_eq pads_S8192x64_S8192x128_000_0640 h_S_ shapeCasts_S256x32x32_S262144
    slices_S262144x128_S262144x64_0_0 shapeCasts_S262144x64_S256x32x32x64 (m (aLoc d)) (sitofp .f32 (constantI S_ 32 0#32)) (m (bLoc d))

/-- what the TensorCore ends with: the arguments whole at their launch contents, the result whole at the lookup -/
abbrev FIN (d : Dev nD) : sProp 𝕄 :=
  iprop((aLoc d ↦{fullShare} m (aLoc d)) ∗ (bLoc d ↦{fullShare} m (bLoc d)) ∗ (rLoc d ↦{fullShare} (Spec.lookup (α := Elt F .f32) (m (aLoc d)) (m (bLoc d)))))

def fq (d : Dev nD) (s' : Phys nD τ sig (Elt F)) : Prop :=
  s'.mem.mem (rLoc d) = Spec.lookup (α := Elt F .f32) (m (aLoc d)) (m (bLoc d)) ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare)
    (f := Spec.lookup (α := Elt F .f32) (m (aLoc d)) (m (bLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Main

section Run

variable (m : (ℓ : Loc nD τ sig) → Buf (Elt F) ℓ) (ρ : Dev nD → PrngReg)

/-- The six arrays once the four operations before the call have run: the arguments as they were, the flat indices and
    the padded table as the SparseCores are handed them. -/
theorem held_V4 (d : Dev nD) :
    (held (T d) S6 ((opPad (F := F)).result ((opConv (F := F)).result ((opZero (F := F)).result ((opFlat (F := F)).result (V0 m d))))) : sProp 𝕄)
      = iprop((aLoc d ↦{fullShare} m (aLoc d)) ∗ (bLoc d ↦{fullShare} m (bLoc d)) ∗ (iLoc d ↦{fullShare} ixOf m d)
        ∗ ((SparseCore.T d).loc main_c ↦{fullShare} V4 m d dC) ∗ ((SparseCore.T d).loc main_call0_v0 ↦{fullShare} V4 m d dZ) ∗ (tLoc d ↦{fullShare} tpOf m d)) := by
  show (held (T d) S6 (V4 m d) : sProp 𝕄) = _
  rw [held_S6, V4_a, V4_b, V4_i, V4_t]

/-- The three arrays once the two operations after the call have run: the result at the lookup. -/
theorem held_V7 (d : Dev nD) :
    (held (T d) S3 ((opFold (F := F)).result ((opCut (F := F)).result (V5 m d))) : sProp 𝕄)
      = iprop((oLoc d ↦{fullShare} V7 m d dO) ∗ (sLoc d ↦{fullShare} V7 m d dS) ∗ (rLoc d ↦{fullShare} (Spec.lookup (α := Elt F .f32) (m (aLoc d)) (m (bLoc d))))) := by
  show (held (T d) S3 (V7 m d) : sProp 𝕄) = _
  rw [held_S3, V7_r]

/-- @main on device d's TensorCore: the flattening and the padding (four operations over six arrays held whole); the
    call, which takes the padded table in two read shares, the flat indices and the result, and hands the result back at
    the rows read through the indices; the cut and the fold (two operations over three arrays held whole). -/
theorem hmain (κ : GSem nD τ sig → ℕ) (d : Dev nD) :
    iprop((K (F := F)).ctx EH (P (tpOf m) (ixOf m) (o₀Of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha, Hbb, Hi, Hc, Hz, Ht, Ho, Hs, Hr⟩, -, -⟩, -⟩
  -- the four operations before the call
  iapply (wp_hlo_within 𝒱 (SparseCore.T d) none Set.univ (op := opFlat) (S := S6) hFlat (V := V0 m d)) $$ [Hb Ha Hbb Hi Hc Hz Ht]
  · isplitl [Hb]; · iexact Hb
    rw [held_S6]
    isplitl [Ha]; · iexact Ha
    isplitl [Hbb]; · iexact Hbb
    isplitl [Hi]; · iexact Hi
    isplitl [Hc]; · iexact Hc
    isplitl [Hz]; · iexact Hz
    iexact Ht
  iintro ⟨Hb, Hheld⟩
  rw [wp_ret]; imodintro
  iapply (wp_hlo_within 𝒱 (SparseCore.T d) none Set.univ (op := opZero) (S := S6) hZero) $$ [Hb Hheld]
  · isplitl [Hb]; · iexact Hb
    iexact Hheld
  iintro ⟨Hb, Hheld⟩
  rw [wp_ret]; imodintro
  iapply (wp_hlo_within 𝒱 (SparseCore.T d) none Set.univ (op := opConv) (S := S6) hConv) $$ [Hb Hheld]
  · isplitl [Hb]; · iexact Hb
    iexact Hheld
  iintro ⟨Hb, Hheld⟩
  rw [wp_ret]; imodintro
  iapply (wp_hlo_within 𝒱 (SparseCore.T d) none Set.univ (op := opPad) (S := S6) hPad) $$ [Hb Hheld]
  · isplitl [Hb]; · iexact Hb
    iexact Hheld
  iintro ⟨Hb, Hheld⟩
  rw [wp_ret]; imodintro
  ihave Hh := (Entails.of_eq (held_V4 m d)) $$ Hheld
  icases Hh with ⟨Ha, Hbb, Hi, -, -, Ht⟩
  -- the padded table in two read shares; what is left of it is not read again
  ihave Ht2 := (Transfers.pointsTo_toks_split (ℓ := tLoc d) (S := Finset.univ) (f := tpOf m d) fullShare 2) $$ Ht
  icases Ht2 with ⟨-, Ht⟩
  -- the call
  iapply ((K (F := F)).wp_run (D (F := F)) 𝒱 (EH := EH) (P := P (tpOf m) (ixOf m) (o₀Of m)) κ d 0) $$ [Hst Ht Hi Ho Hb Ha Hbb Hs Hr]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq (tpOf m) (ixOf m) (o₀Of m) d)) $$ Hdn
  icases Hdn' with ⟨-, -, Ho⟩
  -- the two operations after the call
  iapply (wp_hlo_within 𝒱 (SparseCore.T d) none Set.univ (op := opCut) (S := S3) hCut (V := V5 m d)) $$ [Hb Ho Hs Hr]
  · isplitl [Hb]; · iexact Hb
    rw [held_S3, V5_o, V5_s, V5_r]
    isplitl [Ho]; · iexact Ho
    isplitl [Hs]; · iexact Hs
    iexact Hr
  iintro ⟨Hb, Hheld⟩
  rw [wp_ret]; imodintro
  iapply (wp_hlo_within 𝒱 (SparseCore.T d) none Set.univ (op := opFold) (S := S3) hFold) $$ [Hb Hheld]
  · isplitl [Hb]; · iexact Hb
    iexact Hheld
  iintro ⟨Hb, Hheld⟩
  ihave Hh := (Entails.of_eq (held_V7 m d)) $$ Hheld
  icases Hh with ⟨-, -, Hr⟩
  rw [wp_ret]; imodintro; imodintro
  isplitl [Hst]; · iexact Hst
  isplitl [Ha]; · iexact Ha
  isplitl [Hbb]; · iexact Hbb
  iexact Hr

end Run

end Cert.Proof.KB

end
-- ==== Proof.KBRun.lean ====
/-
  The kernel program's run: every weakly fair execution of the TensorCore, the two sequencers and the thirty-two tiles
  ends, faults nowhere, and leaves the result array holding the lookup and the two arguments as they were — provided
  every flat index names a row of the table.

  It is the launch theorem applied to: the tile's body (one theorem at a symbolic tile), the split of a SparseCore's
  operands among its tasks, the launch element, @main on the TensorCore, and how the TensorCore's final holdings read
  the memory. Beside them here only what makes them fit: that the record's payloads can be stored, and the body's
  statement respelt as the launch theorem states a task.
-/
import proofs.«204540_g20890720928596_cont_8to1_1350_21_alg».proof.Proof.KBCommon
import proofs.«204540_g20890720928596_cont_8to1_1350_21_alg».proof.Proof.KBSplit
import proofs.«204540_g20890720928596_cont_8to1_1350_21_alg».proof.Proof.KBElem
import proofs.«204540_g20890720928596_cont_8to1_1350_21_alg».proof.Proof.KBBody
import proofs.«204540_g20890720928596_cont_8to1_1350_21_alg».proof.Proof.KBMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The record's payloads can be stored -/

instance P_storable (tp : (d : Dev nD) → Buf (Elt F) (tLoc d)) (ix : (d : Dev nD) → Buf (Elt F) (iLoc d)) (o₀ : (d : Dev nD) → Buf (Elt F) (oLoc d)) :
    (P (F := F) tp ix o₀).IsStorable where
  st q d c := by
    obtain rfl : q = 0 := Subsingleton.elim _ _
    show BI.Storable (upEmb : UEmb _ 𝕄) (stRes tp ix o₀ d (Fin.cast nCore_zero c)); unfold stRes; infer_instance
  dn q d c := by
    obtain rfl : q = 0 := Subsingleton.elim _ _
    show BI.Storable (upEmb : UEmb _ 𝕄) (dnRes tp ix d (Fin.cast nCore_zero c)); unfold dnRes; infer_instance
  go q d c i := by
    obtain rfl : q = 0 := Subsingleton.elim _ _
    show BI.Storable (upEmb : UEmb _ 𝕄) (goRes tp ix o₀ d (Fin.cast nCore_zero c) (Fin.cast nSub_zero i) (coreOf c)); unfold goRes; infer_instance
  td q d c i := by
    obtain rfl : q = 0 := Subsingleton.elim _ _
    show BI.Storable (upEmb : UEmb _ 𝕄) (tdRes tp ix d (Fin.cast nCore_zero c) (Fin.cast nSub_zero i) (coreOf c)); unfold tdRes; infer_instance

/-! ## The task, as the launch theorem asks for it -/

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scoped0 cc0_scoped1) ⟨⟩ c s := rfl

theorem tileObl (hF : (K (F := F)).Facts) (hin : ∀ d j, ((ixOf m d) j).toNat < 8192) :
    (K (F := F)).TileObl (D (F := F)) 𝒱 (P (tpOf m) (ixOf m) (o₀Of m)) v₀ 0 := by
  intro d c i O W hO hOlev _
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body (tpOf m) (ixOf m) (o₀Of m) d (coordsV ⟨_, hc.1⟩ ⟨_, hc.2⟩) hF (hin d) O W hO hOlev

/-! ## The program's run -/

/-- Every device ends with the result the lookup and the two arguments as they were. -/
def QC : PUnit × MemSt nD τ sig (Elt F) → Prop := fun r => ∀ c : Dev nD,
  r.2.mem (rLoc c) = Spec.lookup (α := Elt F .f32) (m (aLoc c)) (m (bLoc c)) ∧ r.2.mem (aLoc c) = m (aLoc c) ∧ r.2.mem (bLoc c) = m (bLoc c)

theorem run_main [∀ e, Nonempty (Elt F e)] (hin : ∀ d j, ((ixOf m d) j).toNat < 8192) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (tpOf m) (ixOf m) (o₀Of m)) facts v₀
    (fun q hq => match q with | 0 => nomatch hq)
    (fun q _ => match q with | 0 => tileObl m facts hin)
    (fun q _ => match q with | 0 => vecSplit (tpOf m) (ixOf m) (o₀Of m))
    m ρ main (fun _ => iprop(emp)) (FIN m) (u₀ (F := F)) (hu₀ (tpOf m) (ixOf m) (o₀Of m)) (hmain m ρ) (fq m) (hfin m) (QC m) (fun _ h => h)

end Cert.Proof.KB

end
-- ==== Proof.lean ====
/-
  An embedding lookup done two ways, and why they agree.

  The reference takes row idx(b, h, w) of a table of 8192 rows of 64 numbers for each of the 256·32·32 entries of an
  index array (a gather; indices below zero wrap and indices outside the table give a filler, neither of which happens
  where every index lies between 0 and 8191, which is the precondition). The kernel program pads the table to 128
  columns, flattens the index array, has the thirty-two tiles of the two SparseCores copy rows — each SparseCore's
  tiles first fill a shared copy of the padded table and meet at a barrier, then every tile gathers, 128 rows at a
  time, the rows its 8192 indices name and writes them out — and finally cuts the 262144 gathered rows of 128 back to
  64 columns and folds them to 256 × 32 × 32 × 64. Padding on the right, gathering whole rows and cutting the padding
  off again is gathering the unpadded rows, and row-major flattening before and folding after is the identity on the
  order of the entries: both programs compute the one function Spec.lookup.

  The three frames: the reference's run is read off its operations one after the other; each kernel program's run is the
  SparseCore launch theorem applied to the tile's body, the operands' split, the launch element and @main (KIRun for
  the program read over the extended reals, KBRun the same text for the program read over machine words); a frame is a
  run with the value forgotten. The index range enters twice: a gather through an index outside the table never
  completes, so even the frames need it; and the clamp in the specification is the identity exactly there. No float
  arithmetic happens anywhere, so nothing depends on the entries being finite. The idealization rewrote nothing, so
  there is nothing to preserve.
-/
import proofs.«204540_g20890720928596_cont_8to1_1350_21_alg».proof.Defs
import proofs.«204540_g20890720928596_cont_8to1_1350_21_alg».proof.Proof.Gen.Kernel
import proofs.«204540_g20890720928596_cont_8to1_1350_21_alg».proof.Proof.Gen.Kernel.Skeleton
import proofs.«204540_g20890720928596_cont_8to1_1350_21_alg».proof.Proof.Gen.KernelIdeal
import proofs.«204540_g20890720928596_cont_8to1_1350_21_alg».proof.Proof.Gen.KernelIdeal.Skeleton
import proofs.«204540_g20890720928596_cont_8to1_1350_21_alg».proof.Proof.Gen.ReferenceIdeal
import proofs.«204540_g20890720928596_cont_8to1_1350_21_alg».proof.Proof.Gen.Pre_input_domain
import proofs.«204540_g20890720928596_cont_8to1_1350_21_alg».proof.Proof.PreDecode
import proofs.«204540_g20890720928596_cont_8to1_1350_21_alg».proof.Proof.HostValue
import proofs.«204540_g20890720928596_cont_8to1_1350_21_alg».proof.Proof.RefValue
import proofs.«204540_g20890720928596_cont_8to1_1350_21_alg».proof.Proof.KIRun
import proofs.«204540_g20890720928596_cont_8to1_1350_21_alg».proof.Proof.KBRun
import Idealize.ShloMosaic.Adequacy
import Idealize.ShloMosaic.Init

noncomputable section

namespace Cert.Proof

open Idealize.ShloMosaic Idealize.SL.Sem

/-! ## The precondition gives the runs their hypothesis: every flat index names a row -/

theorem flat_of_pre_ideal (m : (ℓ : Loc Cert.KernelIdeal.nD Cert.KernelIdeal.τ Cert.KernelIdeal.sig) → Buf (Elt Ideal) ℓ) (h : Cert.Pre_KernelIdeal m) :
    ∀ d j, ((Cert.Proof.KI.ixOf m d) j).toNat < 8192 := fun d =>
  Cert.Proof.HostValue.flat_inRange _ _ (Cert.Proof.PreDecode.inRange _ _ (h d))

theorem flat_of_pre_words (m : (ℓ : Loc Cert.Kernel.nD Cert.Kernel.τ Cert.Kernel.sig) → Buf (Elt Bits) ℓ) (h : Cert.Pre_Kernel m) :
    ∀ d j, ((Cert.Proof.KB.ixOf m d) j).toNat < 8192 := fun d =>
  Cert.Proof.HostValue.flat_inRange _ _ (Cert.Proof.PreDecode.inRange _ _ (h d))

/-! ## The five conjuncts -/

theorem frame_words : Cert.frame_Kernel := fun m ρ hpre =>
  (θ_run Cert.Kernel.defs _ _).mono (fun _ h c => ⟨(h c).2.1, (h c).2.2⟩) (Cert.Proof.KB.run_main (F := Bits) m ρ (flat_of_pre_words m hpre))

theorem frame_ideal : Cert.frame_KernelIdeal := fun m ρ hpre =>
  (θ_run Cert.KernelIdeal.defs _ _).mono (fun _ h c => ⟨(h c).2.1, (h c).2.2⟩) (Cert.Proof.KI.run_main (F := Ideal) m ρ (flat_of_pre_ideal m hpre))

theorem frame_reference : Cert.frame_ReferenceIdeal := fun m ρ _ =>
  (θ_run Cert.ReferenceIdeal.defs _ _).mono (fun _ h c => ⟨(h c).2.1, (h c).2.2⟩) (Cert.Proof.Ref.run_term (F := Ideal) m ρ)

/-- Both programs end with the lookup of the (agreeing) arguments. -/
theorem same_result : Cert.algebraic_KernelIdeal_ReferenceIdeal := by
  intro m ρ m' ρ' hpre hagree
  refine ⟨fun c => Cert.Proof.Spec.lookup (m (Cert.Proof.KI.aLoc c)) (m (Cert.Proof.KI.bLoc c)), ?_, ?_⟩
  · exact (θ_run Cert.KernelIdeal.defs _ _).mono (fun _ h c => h c) (Cert.Proof.KI.run_main (F := Ideal) m ρ (flat_of_pre_ideal m hpre))
  · have hin' : ∀ c : Dev Cert.ReferenceIdeal.nD, Cert.Proof.Spec.InRange (m' ((c.tc : Thread Cert.ReferenceIdeal.nD Cert.ReferenceIdeal.τ).loc Cert.ReferenceIdeal.main_arg1)) := fun c => by
      rw [(hagree c).2]; exact Cert.Proof.PreDecode.inRange _ _ (hpre c)
    refine (θ_run Cert.ReferenceIdeal.defs _ _).mono (fun _ h c => ⟨?_, (h c).2.1, (h c).2.2⟩) (Cert.Proof.Ref.run m' ρ' hin')
    rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_words, frame_ideal, frame_reference, trivial, same_result⟩

end Cert.Proof

end
